-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x4096x128 : Shape := ⟨3, ![3, 4096, 128]⟩
abbrev S3x4096x4096 : Shape := ⟨3, ![3, 4096, 4096]⟩
abbrev S3x128x16 : Shape := ⟨3, ![3, 128, 16]⟩
abbrev S3x16 : Shape := ⟨2, ![3, 16]⟩
abbrev S3x16x9 : Shape := ⟨3, ![3, 16, 9]⟩
abbrev S3x9 : Shape := ⟨2, ![3, 9]⟩
abbrev S27x27 : Shape := ⟨2, ![27, 27]⟩
abbrev S27 : Shape := ⟨1, ![27]⟩
abbrev S_ : Shape := ⟨0, ![]⟩

class Facts : Prop where
  bcast_S_S3x4096x128 : S_.BroadcastsInDim S3x4096x128 (![] : Fin 0 → Fin S3x4096x128.rank)
  reducesTo_S3x4096x128_S_d0_1_2 : S3x4096x128.ReducesTo [0, 1, 2] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S3x128x16 : S_.BroadcastsInDim S3x128x16 (![] : Fin 0 → Fin S3x128x16.rank)
  reducesTo_S3x128x16_S_d0_1_2 : S3x128x16.ReducesTo [0, 1, 2] S_
  bcast_S_S3x16 : S_.BroadcastsInDim S3x16 (![] : Fin 0 → Fin S3x16.rank)
  reducesTo_S3x16_S_d0_1 : S3x16.ReducesTo [0, 1] S_
  bcast_S_S3x16x9 : S_.BroadcastsInDim S3x16x9 (![] : Fin 0 → Fin S3x16x9.rank)
  reducesTo_S3x16x9_S_d0_1_2 : S3x16x9.ReducesTo [0, 1, 2] S_
  bcast_S_S3x9 : S_.BroadcastsInDim S3x9 (![] : Fin 0 → Fin S3x9.rank)
  reducesTo_S3x9_S_d0_1 : S3x9.ReducesTo [0, 1] S_
  bcast_S_S27x27 : S_.BroadcastsInDim S27x27 (![] : Fin 0 → Fin S27x27.rank)
  reducesTo_S27x27_S_d0_1 : S27x27.ReducesTo [0, 1] S_
  bcast_S_S27 : S_.BroadcastsInDim S27 (![] : Fin 0 → Fin S27.rank)
  reducesTo_S27_S_d0 : S27.ReducesTo [0] S_

variable [Facts]

def fn_part2 {F : FTy → Type} [FloatOps F] (main_arg7 : FVec F S27 .f32) (main_v33 : IVec S_ 1) : IVec S_ 1 :=
  let main_v34 : FVec F S27 .f32 := Host.absf main_arg7
  let main_cst_12 : FVec F S_ .f32 := constant S_ .f32 0x7F800000#32
  let main_v35 : FVec F S27 .f32 := broadcastInDim S27 ![] bcast_S_S27 main_cst_12
  let main_v36 : IVec S27 1 := cmpf .olt main_v34 main_v35
  let main_c_13 : IVec S_ 1 := constantI S_ 1 1#1
  let main_v37 : IVec S_ 1 := (fun x v => Host.reduce IntOp.andi x v reducesTo_S27_S_d0 h_S_) main_v36 main_c_13
  let main_v38 : IVec S_ 1 := andi main_v33 main_v37
  main_v38

def fn_part1 {F : FTy → Type} [FloatOps F] (main_arg4 : FVec F S3x16x9 .f32) (main_arg5 : FVec F S3x9 .f32) (main_arg6 : FVec F S27x27 .f32) (main_arg7 : FVec F S27 .f32) (main_v13 : IVec S_ 1) (main_v16 : IVec S3x16 1) : IVec S_ 1 :=
  let main_c_5 : IVec S_ 1 := constantI S_ 1 1#1
  let main_v17 : IVec S_ 1 := (fun x v => Host.reduce IntOp.andi x v reducesTo_S3x16_S_d0_1 h_S_) main_v16 main_c_5
  let main_v18 : IVec S_ 1 := andi main_v13 main_v17
  let main_v19 : FVec F S3x16x9 .f32 := Host.absf main_arg4
  let main_cst_6 : FVec F S_ .f32 := constant S_ .f32 0x7F800000#32
  let main_v20 : FVec F S3x16x9 .f32 := broadcastInDim S3x16x9 ![] bcast_S_S3x16x9 main_cst_6
  let main_v21 : IVec S3x16x9 1 := cmpf .olt main_v19 main_v20
  let main_c_7 : IVec S_ 1 := constantI S_ 1 1#1
  let main_v22 : IVec S_ 1 := (fun x v => Host.reduce IntOp.andi x v reducesTo_S3x16x9_S_d0_1_2 h_S_) main_v21 main_c_7
  let main_v23 : IVec S_ 1 := andi main_v18 main_v22
  let main_v24 : FVec F S3x9 .f32 := Host.absf main_arg5
  let main_cst_8 : FVec F S_ .f32 := constant S_ .f32 0x7F800000#32
  let main_v25 : FVec F S3x9 .f32 := broadcastInDim S3x9 ![] bcast_S_S3x9 main_cst_8
  let main_v26 : IVec S3x9 1 := cmpf .olt main_v24 main_v25
  let main_c_9 : IVec S_ 1 := constantI S_ 1 1#1
  let main_v27 : IVec S_ 1 := (fun x v => Host.reduce IntOp.andi x v reducesTo_S3x9_S_d0_1 h_S_) main_v26 main_c_9
  let main_v28 : IVec S_ 1 := andi main_v23 main_v27
  let main_v29 : FVec F S27x27 .f32 := Host.absf main_arg6
  let main_cst_10 : FVec F S_ .f32 := constant S_ .f32 0x7F800000#32
  let main_v30 : FVec F S27x27 .f32 := broadcastInDim S27x27 ![] bcast_S_S27x27 main_cst_10
  let main_v31 : IVec S27x27 1 := cmpf .olt main_v29 main_v30
  let main_c_11 : IVec S_ 1 := constantI S_ 1 1#1
  let main_v32 : IVec S_ 1 := (fun x v => Host.reduce IntOp.andi x v reducesTo_S27x27_S_d0_1 h_S_) main_v31 main_c_11
  let main_v33 : IVec S_ 1 := andi main_v28 main_v32
  fn_part2 (F := F) main_arg7 main_v33

def fn {F : FTy → Type} [FloatOps F] (main_arg0 : FVec F S3x4096x128 .f32) (main_arg1 : FVec F S3x4096x4096 .f32) (main_arg2 : FVec F S3x128x16 .f32) (main_arg3 : FVec F S3x16 .f32) (main_arg4 : FVec F S3x16x9 .f32) (main_arg5 : FVec F S3x9 .f32) (main_arg6 : FVec F S27x27 .f32) (main_arg7 : FVec F S27 .f32) : IVec S_ 1 :=
  let main_v0 : FVec F S3x4096x128 .f32 := Host.absf main_arg0
  let main_cst : FVec F S_ .f32 := constant S_ .f32 0x7F800000#32
  let main_v1 : FVec F S3x4096x128 .f32 := broadcastInDim S3x4096x128 ![] bcast_S_S3x4096x128 main_cst
  let main_v2 : IVec S3x4096x128 1 := cmpf .olt main_v0 main_v1
  let main_c : IVec S_ 1 := constantI S_ 1 1#1
  let main_v3 : IVec S_ 1 := (fun x v => Host.reduce IntOp.andi x v reducesTo_S3x4096x128_S_d0_1_2 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S3x128x16 .f32 := Host.absf main_arg2
  let main_cst_2 : FVec F S_ .f32 := constant S_ .f32 0x7F800000#32
  let main_v10 : FVec F S3x128x16 .f32 := broadcastInDim S3x128x16 ![] bcast_S_S3x128x16 main_cst_2
  let main_v11 : IVec S3x128x16 1 := cmpf .olt main_v9 main_v10
  let main_c_3 : IVec S_ 1 := constantI S_ 1 1#1
  let main_v12 : IVec S_ 1 := (fun x v => Host.reduce IntOp.andi x v reducesTo_S3x128x16_S_d0_1_2 h_S_) main_v11 main_c_3
  let main_v13 : IVec S_ 1 := andi main_v8 main_v12
  let main_v14 : FVec F S3x16 .f32 := Host.absf main_arg3
  let main_cst_4 : FVec F S_ .f32 := constant S_ .f32 0x7F800000#32
  let main_v15 : FVec F S3x16 .f32 := broadcastInDim S3x16 ![] bcast_S_S3x16 main_cst_4
  let main_v16 : IVec S3x16 1 := cmpf .olt main_v14 main_v15
  fn_part1 (F := F) main_arg4 main_arg5 main_arg6 main_arg7 main_v13 main_v16
-- ==== Kernel.lean ====
abbrev S3x4096x128 : Shape := ⟨3, ![3, 4096, 128]⟩
abbrev S3x4096x4096 : Shape := ⟨3, ![3, 4096, 4096]⟩
abbrev S3x128x16 : Shape := ⟨3, ![3, 128, 16]⟩
abbrev S3x16 : Shape := ⟨2, ![3, 16]⟩
abbrev S3x16x9 : Shape := ⟨3, ![3, 16, 9]⟩
abbrev S3x9 : Shape := ⟨2, ![3, 9]⟩
abbrev S27x27 : Shape := ⟨2, ![27, 27]⟩
abbrev S27 : Shape := ⟨1, ![27]⟩
abbrev S1x27 : Shape := ⟨2, ![1, 27]⟩
abbrev S4096x27 : Shape := ⟨2, ![4096, 27]⟩
abbrev S1x1024x4096 : Shape := ⟨3, ![1, 1024, 4096]⟩
abbrev S1024x27 : Shape := ⟨2, ![1024, 27]⟩
abbrev S3x4096x16 : Shape := ⟨3, ![3, 4096, 16]⟩
abbrev S1x4096x128 : Shape := ⟨3, ![1, 4096, 128]⟩
abbrev S4096x128 : Shape := ⟨2, ![4096, 128]⟩
abbrev S1x128x16 : Shape := ⟨3, ![1, 128, 16]⟩
abbrev S128x16 : Shape := ⟨2, ![128, 16]⟩
abbrev S4096x16 : Shape := ⟨2, ![4096, 16]⟩
abbrev S1x4096x16 : Shape := ⟨3, ![1, 4096, 16]⟩
abbrev S1024x4096 : Shape := ⟨2, ![1024, 4096]⟩
abbrev S1024x16 : Shape := ⟨2, ![1024, 16]⟩
abbrev S1x16 : Shape := ⟨2, ![1, 16]⟩
abbrev S16 : Shape := ⟨1, ![16]⟩
abbrev S1x16x9 : Shape := ⟨3, ![1, 16, 9]⟩
abbrev S16x9 : Shape := ⟨2, ![16, 9]⟩
abbrev S1024x9 : Shape := ⟨2, ![1024, 9]⟩
abbrev S1x9 : Shape := ⟨2, ![1, 9]⟩
abbrev S9 : Shape := ⟨1, ![9]⟩
abbrev S9x27 : Shape := ⟨2, ![9, 27]⟩

abbrev nBuf : Space → Nat
  | .hbm => 10
  | .vmem => 12
  | .smem => 0
  | _ => 0

abbrev bufTy : (tb : Table) → Fin (tcTables nBuf tb) → BufTy
  | .hbm, ⟨0, _⟩ => ⟨S3x4096x128, .f32⟩
  | .hbm, ⟨1, _⟩ => ⟨S3x4096x4096, .f32⟩
  | .hbm, ⟨2, _⟩ => ⟨S3x128x16, .f32⟩
  | .hbm, ⟨3, _⟩ => ⟨S3x16, .f32⟩
  | .hbm, ⟨4, _⟩ => ⟨S3x16x9, .f32⟩
  | .hbm, ⟨5, _⟩ => ⟨S3x9, .f32⟩
  | .hbm, ⟨6, _⟩ => ⟨S27x27, .f32⟩
  | .hbm, ⟨7, _⟩ => ⟨S27, .f32⟩
  | .hbm, ⟨8, _⟩ => ⟨S1x27, .f32⟩
  | .hbm, ⟨9, _⟩ => ⟨S4096x27, .f32⟩
  | .local _ .vmem, ⟨0, _⟩ => ⟨S3x4096x128, .f32⟩
  | .local _ .vmem, ⟨1, _⟩ => ⟨S1x1024x4096, .f32⟩
  | .local _ .vmem, ⟨2, _⟩ => ⟨S1x1024x4096, .f32⟩
  | .local _ .vmem, ⟨3, _⟩ => ⟨S3x128x16, .f32⟩
  | .local _ .vmem, ⟨4, _⟩ => ⟨S3x16, .f32⟩
  | .local _ .vmem, ⟨5, _⟩ => ⟨S3x16x9, .f32⟩
  | .local _ .vmem, ⟨6, _⟩ => ⟨S3x9, .f32⟩
  | .local _ .vmem, ⟨7, _⟩ => ⟨S27x27, .f32⟩
  | .local _ .vmem, ⟨8, _⟩ => ⟨S1x27, .f32⟩
  | .local _ .vmem, ⟨9, _⟩ => ⟨S1024x27, .f32⟩
  | .local _ .vmem, ⟨10, _⟩ => ⟨S1024x27, .f32⟩
  | .local _ .vmem, ⟨11, _⟩ => ⟨S3x4096x16, .f32⟩
  | _, _ => ⟨S3x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v39 : Index := Scalar.indexCast arg1
  let c0_17 : Index := 0#32
  let c0_18 : Index := 0#32
  ![v39.toNat, 0, 0]
def k0_off2 (i : grid0.Coords) : Fin 3 → Nat :=
  let arg1 : BitVec 32 := BitVec.ofNat 32 (i 1).val
  let v42 : Index := Scalar.indexCast arg1
  let c0_19 : Index := 0#32
  let c0_20 : Index := 0#32
  ![v42.toNat, 0, 0]
def k0_off3 (i : grid0.Coords) : Fin 3 → Nat :=
  let arg1 : BitVec 32 := BitVec.ofNat 32 (i 1).val
  let v46 : Index := Scalar.indexCast arg1
  let c0_22 : Index := 0#32
  let c0_23 : Index := 0#32
  ![v46.toNat, 0, 0]
def k0_off4 (i : grid0.Coords) : Fin 3 → Nat :=
  let arg1 : BitVec 32 := BitVec.ofNat 32 (i 1).val
  let v8 : Index := Scalar.indexCast arg1
  let c0_3 : Index := 0#32
  let c0_4 : Index := 0#32
  ![v8.toNat, 0, 0]
def k0_off5 (i : grid0.Coords) : Fin 2 → Nat :=
  let arg1 : BitVec 32 := BitVec.ofNat 32 (i 1).val
  let v12 : Index := Scalar.indexCast arg1
  let c0_6 : Index := 0#32
  ![v12.toNat, 0]
def k0_off6 (i : grid0.Coords) : Fin 3 → Nat :=
  let arg1 : BitVec 32 := BitVec.ofNat 32 (i 1).val
  let v18 : Index := Scalar.indexCast arg1
  let c0_7 : Index := 0#32
  let c0_8 : Index := 0#32
  ![v18.toNat, 0, 0]
def k0_off7 (i : grid0.Coords) : Fin 2 → Nat :=
  let arg1 : BitVec 32 := BitVec.ofNat 32 (i 1).val
  let v22 : Index := Scalar.indexCast arg1
  let c0_10 : Index := 0#32
  ![v22.toNat, 0]
def k0_off8 (i : grid0.Coords) : Fin 2 → Nat :=
  let arg1 : BitVec 32 := BitVec.ofNat 32 (i 1).val
  let c9_i32 : BitVec 32 := 9#32
  let v29 : BitVec 32 := Scalar.muli arg1 c9_i32
  let v30 : Index := Scalar.indexCast v29
  let c0_11 : Index := 0#32
  ![v30.toNat, 0]
def k0_cond2 (i : grid0.Coords) : BitVec 1 :=
  let arg1 : BitVec 32 := BitVec.ofNat 32 (i 1).val
  let c0_i32_13 : BitVec 32 := 0#32
  let v33 : BitVec 1 := Scalar.cmpi .eq arg1 c0_i32_13
  let v34 : BitVec 32 := Scalar.extui v33
  let c0_i32_14 : BitVec 32 := 0#32
  let v35 : BitVec 1 := Scalar.cmpi .ne v34 c0_i32_14
  v35

def k0_cond3 (i : grid0.Coords) : BitVec 1 :=
  let arg1 : BitVec 32 := BitVec.ofNat 32 (i 1).val
  let c0_i32_15 : BitVec 32 := 0#32
  let v36 : BitVec 1 := Scalar.cmpi .ne arg1 c0_i32_15
  let v37 : BitVec 32 := Scalar.extui v36
  let c0_i32_16 : BitVec 32 := 0#32
  let v38 : BitVec 1 := Scalar.cmpi .ne v37 c0_i32_16
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S3x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x16x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S27x27 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x27 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x27 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S27_S1x27 : S27.ShapeCasts S1x27
  h_S1x4096x128 : 0 < S1x4096x128.numel
  shapeCasts_S1x4096x128_S4096x128 : S1x4096x128.ShapeCasts S4096x128
  h_S1x128x16 : 0 < S1x128x16.numel
  shapeCasts_S1x128x16_S128x16 : S1x128x16.ShapeCasts S128x16
  h_S1x4096x16 : 0 < S1x4096x16.numel
  shapeCasts_S1x4096x16_S4096x16 : S1x4096x16.ShapeCasts S4096x16
  shapeCasts_S4096x16_S1x4096x16 : S4096x16.ShapeCasts S1x4096x16
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  h_S1x16 : 0 < S1x16.numel
  shapeCasts_S1x16_S16 : S1x16.ShapeCasts S16
  shapeCasts_S16_S1x16 : S16.ShapeCasts S1x16
  broadcasts_S1x16_S1024x16 : S1x16.Broadcasts S1024x16
  h_S1x16x9 : 0 < S1x16x9.numel
  shapeCasts_S1x16x9_S16x9 : S1x16x9.ShapeCasts S16x9
  h_S1x9 : 0 < S1x9.numel
  shapeCasts_S1x9_S9 : S1x9.ShapeCasts S9
  shapeCasts_S9_S1x9 : S9.ShapeCasts S1x9
  broadcasts_S1x9_S1024x9 : S1x9.Broadcasts S1024x9
  h_S9x27 : 0 < S9x27.numel
  inb_S1x27_S1x27_0_0 : ∀ a, (![0, 0] : Fin 2 → Nat) a + S1x27.size a ≤ S1x27.size a
  h_S1x27 : 0 < S1x27.numel
  shapeCasts_S1x27_S27 : S1x27.ShapeCasts S27
  broadcasts_S1x27_S1024x27 : S1x27.Broadcasts S1024x27
  inb_S1024x27_S1024x27_0_0 : ∀ a, (![0, 0] : Fin 2 → Nat) a + S1024x27.size a ≤ S1024x27.size a
  h_S1024x27 : 0 < S1024x27.numel
  shapeCasts_S1024x27_S1024x27 : S1024x27.ShapeCasts S1024x27
  dot_S4096x128_S128x16_S4096x16_1_0_0_1_n_n_wf : DotDims.WF S4096x128 S128x16 S4096x16 [1] [0] [0] [1] [] []
  dot_S1024x4096_S4096x16_S1024x16_1_0_0_1_n_n_wf : DotDims.WF S1024x4096 S4096x16 S1024x16 [1] [0] [0] [1] [] []
  dot_S1024x16_S16x9_S1024x9_1_0_0_1_n_n_wf : DotDims.WF S1024x16 S16x9 S1024x9 [1] [0] [0] [1] [] []
  dot_S1024x9_S9x27_S1024x27_1_0_0_1_n_n_wf : DotDims.WF S1024x9 S9x27 S1024x27 [1] [0] [0] [1] [] []
  hrank0 : 0 < grid0.rank
  k0_off1_inb : ∀ i : grid0.Coords, ∀ (k0_h1 : k0_cond1 i = 1#1), ∀ a, (k0_off1 i) a + S1x4096x128.size a ≤ S3x4096x128.size a
  k0_off2_inb : ∀ i : grid0.Coords, ∀ (k0_h1 : k0_cond1 i = 1#1), ∀ a, (k0_off2 i) a + S1x128x16.size a ≤ S3x128x16.size a
  k0_off3_inb : ∀ i : grid0.Coords, ∀ (k0_h1 : k0_cond1 i = 1#1), ∀ a, (k0_off3 i) a + S1x4096x16.size a ≤ S3x4096x16.size a
  k0_off4_inb : ∀ i : grid0.Coords, ∀ a, (k0_off4 i) a + S1x4096x16.size a ≤ S3x4096x16.size a
  k0_off5_inb : ∀ i : grid0.Coords, ∀ a, (k0_off5 i) a + S1x16.size a ≤ S3x16.size a
  k0_off6_inb : ∀ i : grid0.Coords, ∀ a, (k0_off6 i) a + S1x16x9.size a ≤ S3x16x9.size a
  k0_off7_inb : ∀ i : grid0.Coords, ∀ a, (k0_off7 i) a + S1x9.size a ≤ S3x9.size a
  k0_off8_inb : ∀ i : grid0.Coords, ∀ a, (k0_off8 i) a + S9x27.size a ≤ S27x27.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x4096x128.size a ≤ S3x4096x128.size a
  hwx0_0 : ∀ i : grid0.Coords, EltTy.bits .f32 = 32 ∨ (Rect.block (s := S3x4096x128) S3x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S3x4096x4096.size a
  hwx0_1 : ∀ i : grid0.Coords, EltTy.bits .f32 = 32 ∨ (Rect.block (s := S3x4096x4096) S1x1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x16.size a ≤ S3x128x16.size a
  hwx0_2 : ∀ i : grid0.Coords, EltTy.bits .f32 = 32 ∨ (Rect.block (s := S3x128x16) S3x128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16.size a ≤ S3x16.size a
  hwx0_3 : ∀ i : grid0.Coords, EltTy.bits .f32 = 32 ∨ (Rect.block (s := S3x16) S3x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x16x9.size a ≤ S3x16x9.size a
  hwx0_4 : ∀ i : grid0.Coords, EltTy.bits .f32 = 32 ∨ (Rect.block (s := S3x16x9) S3x16x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x9.size a ≤ S3x9.size a
  hwx0_5 : ∀ i : grid0.Coords, EltTy.bits .f32 = 32 ∨ (Rect.block (s := S3x9) S3x9.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S27x27.size a ≤ S27x27.size a
  hwx0_6 : ∀ i : grid0.Coords, EltTy.bits .f32 = 32 ∨ (Rect.block (s := S27x27) S27x27.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x27.size a ≤ S1x27.size a
  hwx0_7 : ∀ i : grid0.Coords, EltTy.bits .f32 = 32 ∨ (Rect.block (s := S1x27) S1x27.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x27.size a ≤ S4096x27.size a
  hwx0_8 : ∀ i : grid0.Coords, EltTy.bits .f32 = 32 ∨ (Rect.block (s := S4096x27) S1024x27.size (cc0_transform_8 i) (hinb0_8 i)).WholeWords (EltTy.packing .f32)

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S1024x16_S16x9_S1024x9_1_0_0_1_n_n : DotDims S1024x16 S16x9 S1024x9 where
  lhsContracting := [1]
  rhsContracting := [0]
  lhsNonContracting := [0]
  rhsNonContracting := [1]
  lhsBatch := []
  rhsBatch := []
  wf := dot_S1024x16_S16x9_S1024x9_1_0_0_1_n_n_wf
def dot_S1024x9_S9x27_S1024x27_1_0_0_1_n_n : DotDims S1024x9 S9x27 S1024x27 where
  lhsContracting := [1]
  rhsContracting := [0]
  lhsNonContracting := [0]
  rhsNonContracting := [1]
  lhsBatch := []
  rhsBatch := []
  wf := dot_S1024x9_S9x27_S1024x27_1_0_0_1_n_n_wf

abbrev win0_0 : Pipeline.Window sig grid0 :=
  Pipeline.Window.ofSpec (Memref.whole main_arg0) S3x4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x16x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S27x27.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v0) S1x27.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x27.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) && !(k0_cond3 i == 1#1) | ⟨_ + 9, h⟩ => absurd h (Nat.not_lt.2 (Nat.le_add_left _ _))

class Facts : Prop extends Facts₀ where

variable [Facts]
-- ==== ReferenceIdeal.lean ====
abbrev S3x4096x128 : Shape := ⟨3, ![3, 4096, 128]⟩
abbrev S3x4096x4096 : Shape := ⟨3, ![3, 4096, 4096]⟩
abbrev S3x128x16 : Shape := ⟨3, ![3, 128, 16]⟩
abbrev S3x16 : Shape := ⟨2, ![3, 16]⟩
abbrev S3x16x9 : Shape := ⟨3, ![3, 16, 9]⟩
abbrev S3x9 : Shape := ⟨2, ![3, 9]⟩
abbrev S27x27 : Shape := ⟨2, ![27, 27]⟩
abbrev S27 : Shape := ⟨1, ![27]⟩
abbrev S_ : Shape := ⟨0, ![]⟩
abbrev S1x4096x128 : Shape := ⟨3, ![1, 4096, 128]⟩
abbrev S4096x128 : Shape := ⟨2, ![4096, 128]⟩
abbrev S1x128x16 : Shape := ⟨3, ![1, 128, 16]⟩
abbrev S128x16 : Shape := ⟨2, ![128, 16]⟩
abbrev S4096x16 : Shape := ⟨2, ![4096, 16]⟩
abbrev S1x4096x4096 : Shape := ⟨3, ![1, 4096, 4096]⟩
abbrev S4096x4096 : Shape := ⟨2, ![4096, 4096]⟩
abbrev S1x16 : Shape := ⟨2, ![1, 16]⟩
abbrev S16 : Shape := ⟨1, ![16]⟩
abbrev S1x16x9 : Shape := ⟨3, ![1, 16, 9]⟩
abbrev S16x9 : Shape := ⟨2, ![16, 9]⟩
abbrev S4096x9 : Shape := ⟨2, ![4096, 9]⟩
abbrev S1x9 : Shape := ⟨2, ![1, 9]⟩
abbrev S9 : Shape := ⟨1, ![9]⟩
abbrev S4096x27 : Shape := ⟨2, ![4096, 27]⟩
abbrev S1x27 : Shape := ⟨2, ![1, 27]⟩

abbrev nBuf : Space → Nat
  | .hbm => 84
  | .vmem => 0
  | .smem => 0
  | _ => 0

abbrev bufTy : (tb : Table) → Fin (tcTables nBuf tb) → BufTy
  | .hbm, ⟨0, _⟩ => ⟨S3x4096x128, .f32⟩
  | .hbm, ⟨1, _⟩ => ⟨S3x4096x4096, .f32⟩
  | .hbm, ⟨2, _⟩ => ⟨S3x128x16, .f32⟩
  | .hbm, ⟨3, _⟩ => ⟨S3x16, .f32⟩
  | .hbm, ⟨4, _⟩ => ⟨S3x16x9, .f32⟩
  | .hbm, ⟨5, _⟩ => ⟨S3x9, .f32⟩
  | .hbm, ⟨6, _⟩ => ⟨S27x27, .f32⟩
  | .hbm, ⟨7, _⟩ => ⟨S27, .f32⟩
  | .hbm, ⟨8, _⟩ => ⟨S3x4096x4096, .i1⟩
  | .hbm, ⟨9, _⟩ => ⟨S_, .f32⟩
  | .hbm, ⟨10, _⟩ => ⟨S_, .f32⟩
  | .hbm, ⟨11, _⟩ => ⟨S3x4096x4096, .f32⟩
  | .hbm, ⟨12, _⟩ => ⟨S3x4096x4096, .f32⟩
  | .hbm, ⟨13, _⟩ => ⟨S1x4096x128, .f32⟩
  | .hbm, ⟨14, _⟩ => ⟨S4096x128, .f32⟩
  | .hbm, ⟨15, _⟩ => ⟨S1x128x16, .f32⟩
  | .hbm, ⟨16, _⟩ => ⟨S128x16, .f32⟩
  | .hbm, ⟨17, _⟩ => ⟨S4096x16, .f32⟩
  | .hbm, ⟨18, _⟩ => ⟨S1x4096x4096, .f32⟩
  | .hbm, ⟨19, _⟩ => ⟨S4096x4096, .f32⟩
  | .hbm, ⟨20, _⟩ => ⟨S4096x16, .f32⟩
  | .hbm, ⟨21, _⟩ => ⟨S1x16, .f32⟩
  | .hbm, ⟨22, _⟩ => ⟨S16, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S1x16x9, .f32⟩
  | .hbm, ⟨27, _⟩ => ⟨S16x9, .f32⟩
  | .hbm, ⟨28, _⟩ => ⟨S4096x9, .f32⟩
  | .hbm, ⟨29, _⟩ => ⟨S1x9, .f32⟩
  | .hbm, ⟨30, _⟩ => ⟨S9, .f32⟩
  | .hbm, ⟨31, _⟩ => ⟨S1x9, .f32⟩
  | .hbm, ⟨32, _⟩ => ⟨S4096x9, .f32⟩
  | .hbm, ⟨33, _⟩ => ⟨S4096x9, .f32⟩
  | .hbm, ⟨34, _⟩ => ⟨S4096x9, .f32⟩
  | .hbm, ⟨35, _⟩ => ⟨S1x4096x128, .f32⟩
  | .hbm, ⟨36, _⟩ => ⟨S4096x128, .f32⟩
  | .hbm, ⟨37, _⟩ => ⟨S1x128x16, .f32⟩
  | .hbm, ⟨38, _⟩ => ⟨S128x16, .f32⟩
  | .hbm, ⟨39, _⟩ => ⟨S4096x16, .f32⟩
  | .hbm, ⟨40, _⟩ => ⟨S1x4096x4096, .f32⟩
  | .hbm, ⟨41, _⟩ => ⟨S4096x4096, .f32⟩
  | .hbm, ⟨42, _⟩ => ⟨S4096x16, .f32⟩
  | .hbm, ⟨43, _⟩ => ⟨S1x16, .f32⟩
  | .hbm, ⟨44, _⟩ => ⟨S16, .f32⟩
  | .hbm, ⟨45, _⟩ => ⟨S1x16, .f32⟩
  | .hbm, ⟨46, _⟩ => ⟨S4096x16, .f32⟩
  | .hbm, ⟨47, _⟩ => ⟨S4096x16, .f32⟩
  | .hbm, ⟨48, _⟩ => ⟨S1x16x9, .f32⟩
  | .hbm, ⟨49, _⟩ => ⟨S16x9, .f32⟩
  | .hbm, ⟨50, _⟩ => ⟨S4096x9, .f32⟩
  | .hbm, ⟨51, _⟩ => ⟨S1x9, .f32⟩
  | .hbm, ⟨52, _⟩ => ⟨S9, .f32⟩
  | .hbm, ⟨53, _⟩ => ⟨S1x9, .f32⟩
  | .hbm, ⟨54, _⟩ => ⟨S4096x9, .f32⟩
  | .hbm, ⟨55, _⟩ => ⟨S4096x9, .f32⟩
  | .hbm, ⟨56, _⟩ => ⟨S4096x9, .f32⟩
  | .hbm, ⟨57, _⟩ => ⟨S1x4096x128, .f32⟩
  | .hbm, ⟨58, _⟩ => ⟨S4096x128, .f32⟩
  | .hbm, ⟨59, _⟩ => ⟨S1x128x16, .f32⟩
  | .hbm, ⟨60, _⟩ => ⟨S128x16, .f32⟩
  | .hbm, ⟨61, _⟩ => ⟨S4096x16, .f32⟩
  | .hbm, ⟨62, _⟩ => ⟨S1x4096x4096, .f32⟩
  | .hbm, ⟨63, _⟩ => ⟨S4096x4096, .f32⟩
  | .hbm, ⟨64, _⟩ => ⟨S4096x16, .f32⟩
  | .hbm, ⟨65, _⟩ => ⟨S1x16, .f32⟩
  | .hbm, ⟨66, _⟩ => ⟨S16, .f32⟩
  | .hbm, ⟨67, _⟩ => ⟨S1x16, .f32⟩
  | .hbm, ⟨68, _⟩ => ⟨S4096x16, .f32⟩
  | .hbm, ⟨69, _⟩ => ⟨S4096x16, .f32⟩
  | .hbm, ⟨70, _⟩ => ⟨S1x16x9, .f32⟩
  | .hbm, ⟨71, _⟩ => ⟨S16x9, .f32⟩
  | .hbm, ⟨72, _⟩ => ⟨S4096x9, .f32⟩
  | .hbm, ⟨73, _⟩ => ⟨S1x9, .f32⟩
  | .hbm, ⟨74, _⟩ => ⟨S9, .f32⟩
  | .hbm, ⟨75, _⟩ => ⟨S1x9, .f32⟩
  | .hbm, ⟨76, _⟩ => ⟨S4096x9, .f32⟩
  | .hbm, ⟨77, _⟩ => ⟨S4096x9, .f32⟩
  | .hbm, ⟨78, _⟩ => ⟨S4096x9, .f32⟩
  | .hbm, ⟨79, _⟩ => ⟨S4096x27, .f32⟩
  | .hbm, ⟨80, _⟩ => ⟨S4096x27, .f32⟩
  | .hbm, ⟨81, _⟩ => ⟨S1x27, .f32⟩
  | .hbm, ⟨82, _⟩ => ⟨S4096x27, .f32⟩
  | .hbm, ⟨83, _⟩ => ⟨S4096x27, .f32⟩
  | _, _ => ⟨S3x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩

abbrev nD : Nat := 1
abbrev τ : Topo := Topo.v7x

variable {F : FTy → Type} [FloatOps F]

class Facts₀ : Prop where
  bcast_S_S3x4096x4096 : S_.BroadcastsInDim S3x4096x4096 (![] : Fin 0 → Fin S3x4096x4096.rank)
  slices_S3x4096x128_S1x4096x128_0_0_0 : S3x4096x128.Slices ![0, 0, 0] S1x4096x128
  shapeCasts_S1x4096x128_S4096x128 : S1x4096x128.ShapeCasts S4096x128
  slices_S3x128x16_S1x128x16_0_0_0 : S3x128x16.Slices ![0, 0, 0] S1x128x16
  shapeCasts_S1x128x16_S128x16 : S1x128x16.ShapeCasts S128x16
  slices_S3x4096x4096_S1x4096x4096_0_0_0 : S3x4096x4096.Slices ![0, 0, 0] S1x4096x4096
  shapeCasts_S1x4096x4096_S4096x4096 : S1x4096x4096.ShapeCasts S4096x4096
  slices_S3x16_S1x16_0_0 : S3x16.Slices ![0, 0] S1x16
  shapeCasts_S1x16_S16 : S1x16.ShapeCasts S16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  slices_S3x16x9_S1x16x9_0_0_0 : S3x16x9.Slices ![0, 0, 0] S1x16x9
  shapeCasts_S1x16x9_S16x9 : S1x16x9.ShapeCasts S16x9
  slices_S3x9_S1x9_0_0 : S3x9.Slices ![0, 0] S1x9
  shapeCasts_S1x9_S9 : S1x9.ShapeCasts S9
  bcast_S9_S1x9_1 : S9.BroadcastsInDim S1x9 (![1] : Fin 1 → Fin S1x9.rank)
  bcast_S1x9_S4096x9_0_1 : S1x9.BroadcastsInDim S4096x9 (![0, 1] : Fin 2 → Fin S4096x9.rank)
  slices_S3x4096x128_S1x4096x128_1_0_0 : S3x4096x128.Slices ![1, 0, 0] S1x4096x128
  slices_S3x128x16_S1x128x16_1_0_0 : S3x128x16.Slices ![1, 0, 0] S1x128x16
  slices_S3x4096x4096_S1x4096x4096_1_0_0 : S3x4096x4096.Slices ![1, 0, 0] S1x4096x4096
  slices_S3x16_S1x16_1_0 : S3x16.Slices ![1, 0] S1x16
  slices_S3x16x9_S1x16x9_1_0_0 : S3x16x9.Slices ![1, 0, 0] S1x16x9
  slices_S3x9_S1x9_1_0 : S3x9.Slices ![1, 0] S1x9
  slices_S3x4096x128_S1x4096x128_2_0_0 : S3x4096x128.Slices ![2, 0, 0] S1x4096x128
  slices_S3x128x16_S1x128x16_2_0_0 : S3x128x16.Slices ![2, 0, 0] S1x128x16
  slices_S3x4096x4096_S1x4096x4096_2_0_0 : S3x4096x4096.Slices ![2, 0, 0] S1x4096x4096
  slices_S3x16_S1x16_2_0 : S3x16.Slices ![2, 0] S1x16
  slices_S3x16x9_S1x16x9_2_0_0 : S3x16x9.Slices ![2, 0, 0] S1x16x9
  slices_S3x9_S1x9_2_0 : S3x9.Slices ![2, 0] S1x9
  concatenates_S4096x9_S4096x9_S4096x9_S4096x27_d1 : Shape.Concatenates [S4096x9, S4096x9, S4096x9] S4096x27 1
  bcast_S27_S1x27_1 : S27.BroadcastsInDim S1x27 (![1] : Fin 1 → Fin S1x27.rank)
  bcast_S1x27_S4096x27_0_1 : S1x27.BroadcastsInDim S4096x27 (![0, 1] : Fin 2 → Fin S4096x27.rank)
  dot_S4096x128_S128x16_S4096x16_1_0_0_1_n_n_wf : DotDims.WF S4096x128 S128x16 S4096x16 [1] [0] [0] [1] [] []
  dot_S4096x4096_S4096x16_S4096x16_1_0_0_1_n_n_wf : DotDims.WF S4096x4096 S4096x16 S4096x16 [1] [0] [0] [1] [] []
  dot_S4096x16_S16x9_S4096x9_1_0_0_1_n_n_wf : DotDims.WF S4096x16 S16x9 S4096x9 [1] [0] [0] [1] [] []
  dot_S4096x27_S27x27_S4096x27_1_0_0_1_n_n_wf : DotDims.WF S4096x27 S27x27 S4096x27 [1] [0] [0] [1] [] []

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x9_S4096x9_1_0_0_1_n_n : DotDims S4096x16 S16x9 S4096x9 where
  lhsContracting := [1]
  rhsContracting := [0]
  lhsNonContracting := [0]
  rhsNonContracting := [1]
  lhsBatch := []
  rhsBatch := []
  wf := dot_S4096x16_S16x9_S4096x9_1_0_0_1_n_n_wf
def dot_S4096x27_S27x27_S4096x27_1_0_0_1_n_n : DotDims S4096x27 S27x27 S4096x27 where
  lhsContracting := [1]
  rhsContracting := [0]
  lhsNonContracting := [0]
  rhsNonContracting := [1]
  lhsBatch := []
  rhsBatch := []
  wf := dot_S4096x27_S27x27_S4096x27_1_0_0_1_n_n_wf

class Facts : Prop extends Facts₀ where

variable [Facts]
-- ==== Proof.KBodyRuns.lean ====
/-
  The kernel body run symbolically, once for each way its three branches can fall on the grid:
    case A  first row block, first modality   (the support slab is stored; the output block is set to part + bias)
    case B  first row block, later modality   (the support slab is stored; the output block is added to)
    case C  later row block, first modality   (the scratch is only read; the output block is set)
    case D  later row block, later modality   (the scratch is only read; the output block is added to)
  Each run hands back every input buffer as it found it and the output block with the list of stores made
  into it; cases A and B hand back the scratch with the store made over its previous contents, cases C
  and D hand it back untouched.
-/
import proofs.«163964_g37280316129400_cont_sun_m_331_26_alg».proof.Proof.Gen.Kernel.Frame
import proofs.«163964_g37280316129400_cont_sun_m_331_26_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : k0_cond1 i = 1#1) (hc2 : k0_cond2 i = 1#1) (hc3 : ¬k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    Σ' (LO : List (View.Piece (Elt F) S1024x27 .f32)), { LS : List (View.Piece (Elt F) S3x4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexact HS

set_option maxHeartbeats 4000000 in
noncomputable def kernelRunB (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : k0_cond1 i = 1#1) (hc2 : ¬k0_cond2 i = 1#1) (hc3 : k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    Σ' (LO : List (View.Piece (Elt F) S1024x27 .f32)), { LS : List (View.Piece (Elt F) S3x4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexact HS

set_option maxHeartbeats 4000000 in
noncomputable def kernelRunC (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : ¬k0_cond1 i = 1#1) (hc2 : k0_cond2 i = 1#1) (hc3 : ¬k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    { LO : List (View.Piece (Elt F) S1024x27 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ owns (c : Thread nD τ) arg11 fullShare xs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexists _; isplitr; · ipureintro; exact harg11.read_unread _
    iexact HS

set_option maxHeartbeats 4000000 in
noncomputable def kernelRunD (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : ¬k0_cond1 i = 1#1) (hc2 : ¬k0_cond2 i = 1#1) (hc3 : k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    { LO : List (View.Piece (Elt F) S1024x27 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ owns (c : Thread nD τ) arg11 fullShare xs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexists _; isplitr; · ipureintro; exact harg11.read_unread _
    iexact HS

end Cert.Kernel.Body

end
-- ==== Proof.KBodyGrid.lean ====
/-
  Facts about the 4 × 3 grid, decided once over its twelve points.  Point `t` is row block `t / 3`,
  modality `t % 3`.  The support slab is stored exactly at the first three points; the output block is
  set at a modality-0 point and added to at the others; it is written back after modality 2.  Every
  slab offset the body computes is `(t % 3, 0, 0)`, and the classifier rows start at `9 · (t % 3)`.
-/
import proofs.«163964_g37280316129400_cont_sun_m_331_26_alg».proof.Proof.Gen.Kernel.Frame

set_option maxRecDepth 16384

noncomputable section

namespace Cert.Kernel.Body

open Cert.Kernel Cert.Kernel.Gen
open Idealize.ShloMosaic Idealize.ShloMosaic.TcCoe

/-- The support slab is stored at the first three points only. -/
theorem hcond1 : ∀ t : Fin cfg0.N, k0_cond1 (grid0.coords t) = 1#1 ↔ t.val < 3 :=
  (by decide +kernel : ∀ t : Fin grid0.N, k0_cond1 (grid0.coords t) = 1#1 ↔ t.val < 3)
/-- The output block is set at the points of modality 0. -/
theorem hcond2 : ∀ t : Fin cfg0.N, k0_cond2 (grid0.coords t) = 1#1 ↔ t.val % 3 = 0 :=
  (by decide +kernel : ∀ t : Fin grid0.N, k0_cond2 (grid0.coords t) = 1#1 ↔ t.val % 3 = 0)
/-- The output block is added to at the other points. -/
theorem hcond3 : ∀ t : Fin cfg0.N, k0_cond3 (grid0.coords t) = 1#1 ↔ ¬ t.val % 3 = 0 :=
  (by decide +kernel : ∀ t : Fin grid0.N, k0_cond3 (grid0.coords t) = 1#1 ↔ ¬ t.val % 3 = 0)

theorem N_lt (t : Fin cfg0.N) : t.val < 12 := lt_of_lt_of_eq t.isLt (show cfg0.N = 12 from N_0)

/-- The point of the first row block with the same modality as `t`. -/
def tmod (t : Fin cfg0.N) : Fin cfg0.N := ⟨t.val % 3, by have := N_lt t; show t.val % 3 < grid0.N; rw [N_0]; omega⟩

@[simp] theorem tmod_val (t : Fin cfg0.N) : (tmod t).val = t.val % 3 := rfl

theorem cond1_tmod (t : Fin cfg0.N) : k0_cond1 (grid0.coords (tmod t)) = 1#1 :=
  (hcond1 (tmod t)).mpr (by rw [tmod_val]; omega)

theorem off1_val : ∀ t : Fin cfg0.N, k0_off1 (grid0.coords t) = ![t.val % 3, 0, 0] :=
  (by decide +kernel : ∀ t : Fin grid0.N, k0_off1 (grid0.coords t) = ![t.val % 3, 0, 0])
theorem off2_val : ∀ t : Fin cfg0.N, k0_off2 (grid0.coords t) = ![t.val % 3, 0, 0] :=
  (by decide +kernel : ∀ t : Fin grid0.N, k0_off2 (grid0.coords t) = ![t.val % 3, 0, 0])
theorem off3_val : ∀ t : Fin cfg0.N, k0_off3 (grid0.coords t) = ![t.val % 3, 0, 0] :=
  (by decide +kernel : ∀ t : Fin grid0.N, k0_off3 (grid0.coords t) = ![t.val % 3, 0, 0])
theorem off4_val : ∀ t : Fin cfg0.N, k0_off4 (grid0.coords t) = ![t.val % 3, 0, 0] :=
  (by decide +kernel : ∀ t : Fin grid0.N, k0_off4 (grid0.coords t) = ![t.val % 3, 0, 0])
theorem off5_val : ∀ t : Fin cfg0.N, k0_off5 (grid0.coords t) = ![t.val % 3, 0] :=
  (by decide +kernel : ∀ t : Fin grid0.N, k0_off5 (grid0.coords t) = ![t.val % 3, 0])
theorem off6_val : ∀ t : Fin cfg0.N, k0_off6 (grid0.coords t) = ![t.val % 3, 0, 0] :=
  (by decide +kernel : ∀ t : Fin grid0.N, k0_off6 (grid0.coords t) = ![t.val % 3, 0, 0])
theorem off7_val : ∀ t : Fin cfg0.N, k0_off7 (grid0.coords t) = ![t.val % 3, 0] :=
  (by decide +kernel : ∀ t : Fin grid0.N, k0_off7 (grid0.coords t) = ![t.val % 3, 0])
theorem off8_val : ∀ t : Fin cfg0.N, k0_off8 (grid0.coords t) = ![9 * (t.val % 3), 0] :=
  (by decide +kernel : ∀ t : Fin grid0.N, k0_off8 (grid0.coords t) = ![9 * (t.val % 3), 0])

/-- The adjacency tile at point `t` is block `(t % 3, t / 3, 0)`; the output block is block `(t / 3, 0)`. -/
theorem idx1_val : ∀ t : Fin cfg0.N, cc0_transform_1 (grid0.coords t) = ![t.val % 3, t.val / 3, 0] :=
  (by decide +kernel : ∀ t : Fin grid0.N, cc0_transform_1 (grid0.coords t) = ![t.val % 3, t.val / 3, 0])
theorem idx8_val : ∀ t : Fin cfg0.N, cc0_transform_8 (grid0.coords t) = ![t.val / 3, 0] :=
  (by decide +kernel : ∀ t : Fin grid0.N, cc0_transform_8 (grid0.coords t) = ![t.val / 3, 0])

/-- No window is idle anywhere: the output block is stored at every point. -/
theorem live_all : ∀ (w : Fin cfg0.W) (t : Fin cfg0.N), cfg0.idle w (grid0.coords t) = false :=
  (by decide +kernel : ∀ (w : Fin 9) (t : Fin grid0.N), idle0 w (grid0.coords t) = false)
theorem live8 : ∀ i : grid0.Coords, cfg0.idle 8 i = false := by decide +kernel

end Cert.Kernel.Body

end
-- ==== Proof.KBodyVals.lean ====
/-
  What the body computes at a point, as pure functions of the window blocks.

  `supOf`   the support slab of a modality: its feature slab times its weight slab;
  `partOf`  the point's contribution: the (masked) adjacency tile times the support slab, plus the bias
             row, through the small dense layer and tanh, times the modality's nine classifier rows;
  `setOf`   that contribution plus the classifier bias row (what a modality-0 point stores);
  `accOf`   the block found plus the contribution (what the other points store).
  `outAt`   is the output block after each point, by recursion on the point; `SupInv` says the scratch
  holds, in every slab stored so far, that modality's support slab.
-/
import proofs.«163964_g37280316129400_cont_sun_m_331_26_alg».proof.Proof.KBodyGrid
import proofs.«163964_g37280316129400_cont_sun_m_331_26_alg».proof.Proof.Gen.Kernel.Skeleton

set_option maxRecDepth 16384

noncomputable section

namespace Cert.Kernel.Body

open Cert.Kernel Cert.Kernel.Gen
open Idealize.ShloMosaic Idealize.ShloMosaic.TcCoe
open Idealize.SL Idealize.SL.Sem

variable {F : FTy → Type} [FloatOps F]

/-- The support slab at coordinates `i` of the first row block. -/
def supOf (i : grid0.Coords) (h1 : k0_cond1 i = 1#1) (x0 : Vec F S3x4096x128 .f32) (x2 : Vec F S3x128x16 .f32) :
    Vec F S1x4096x16 .f32 :=
  k0_pay2 (View.ld x0 (Rect.unit (s := S3x4096x128) (k0_off1 i) S1x4096x128.size (k0_off1_inb i h1)))
    (View.ld x2 (Rect.unit (s := S3x128x16) (k0_off2 i) S1x128x16.size (k0_off2_inb i h1)))

/-- The point's contribution given the modality's support slab `s`. -/
def partOf (i : grid0.Coords) (x1 : Vec F S1x1024x4096 .f32) (x3 : Vec F S3x16 .f32) (x4 : Vec F S3x16x9 .f32)
    (x5 : Vec F S3x9 .f32) (x6 : Vec F S27x27 .f32) (s : Vec F S1x4096x16 .f32) : Vec F S1024x27 .f32 :=
  k0_pay3 (View.ld x1 (Rect.unit (s := S1x1024x4096) ![0, 0, 0] S1x1024x4096.size inb_S1x1024x4096_S1x1024x4096_0_0_0)) s
    (View.ld x3 (Rect.unit (s := S3x16) (k0_off5 i) S1x16.size (k0_off5_inb i)))
    (View.ld x4 (Rect.unit (s := S3x16x9) (k0_off6 i) S1x16x9.size (k0_off6_inb i)))
    (View.ld x5 (Rect.unit (s := S3x9) (k0_off7 i) S1x9.size (k0_off7_inb i)))
    (View.ld x6 (Rect.unit (s := S27x27) (k0_off8 i) S9x27.size (k0_off8_inb i)))

/-- The contribution plus the classifier bias row. -/
def setOf (i : grid0.Coords) (x1 : Vec F S1x1024x4096 .f32) (x3 : Vec F S3x16 .f32) (x4 : Vec F S3x16x9 .f32)
    (x5 : Vec F S3x9 .f32) (x6 : Vec F S27x27 .f32) (x7 : Vec F S1x27 .f32) (s : Vec F S1x4096x16 .f32) : Vec F S1024x27 .f32 :=
  k0_pay4 (View.ld x1 (Rect.unit (s := S1x1024x4096) ![0, 0, 0] S1x1024x4096.size inb_S1x1024x4096_S1x1024x4096_0_0_0)) s
    (View.ld x3 (Rect.unit (s := S3x16) (k0_off5 i) S1x16.size (k0_off5_inb i)))
    (View.ld x4 (Rect.unit (s := S3x16x9) (k0_off6 i) S1x16x9.size (k0_off6_inb i)))
    (View.ld x5 (Rect.unit (s := S3x9) (k0_off7 i) S1x9.size (k0_off7_inb i)))
    (View.ld x6 (Rect.unit (s := S27x27) (k0_off8 i) S9x27.size (k0_off8_inb i)))
    (View.ld x7 (Rect.unit (s := S1x27) ![0, 0] S1x27.size inb_S1x27_S1x27_0_0))

/-- The block found plus the contribution. -/
def accOf (prev p : Vec F S1024x27 .f32) : Vec F S1024x27 .f32 :=
  k0_pay1 p (View.ld prev (Rect.unit (s := S1024x27) ![0, 0] S1024x27.size inb_S1024x27_S1024x27_0_0))

variable (m : (ℓ : Loc nD τ sig) → Buf (Elt F) ℓ)

/-- The support slab of point `t`'s modality, from the blocks at that modality's first-row-block point. -/
def supAt (c : Dev nD) (t : Fin cfg0.N) : Vec F S1x4096x16 .f32 :=
  supOf (grid0.coords (tmod t)) (cond1_tmod t) (iblk m c 0 (tmod t)) (iblk m c 2 (tmod t))

theorem supAt_congr (c : Dev nD) {t t' : Fin cfg0.N} (h : t = t') : supAt m c t = supAt m c t' := by subst h; rfl

/-- Point `t`'s contribution. -/
def partAt (c : Dev nD) (t : Fin cfg0.N) : Vec F S1024x27 .f32 :=
  partOf (grid0.coords t) (iblk m c 1 t) (iblk m c 3 t) (iblk m c 4 t) (iblk m c 5 t) (iblk m c 6 t) (supAt m c t)

/-- What a modality-0 point stores. -/
def setAt (c : Dev nD) (t : Fin cfg0.N) : Vec F S1024x27 .f32 :=
  setOf (grid0.coords t) (iblk m c 1 t) (iblk m c 3 t) (iblk m c 4 t) (iblk m c 5 t) (iblk m c 6 t) (iblk m c 7 t) (supAt m c t)

/-- The output block after point `n`: set at a modality-0 point, else the previous block plus the contribution. -/
def outAt (c : Dev nD) : (n : ℕ) → n < cfg0.N → Vec F S1024x27 .f32
  | 0, h => setAt m c ⟨0, h⟩
  | n + 1, h => if (n + 1) % 3 = 0 then setAt m c ⟨n + 1, h⟩
      else accOf (outAt c n (Nat.lt_of_succ_lt h)) (partAt m c ⟨n + 1, h⟩)

theorem outAt_set (c : Dev nD) (t : Fin cfg0.N) (h : t.val % 3 = 0) : outAt m c t.val t.isLt = setAt m c t := by
  obtain ⟨n, hn⟩ := t
  cases n with
  | zero => rfl
  | succ n => show (if (n + 1) % 3 = 0 then _ else _) = _; rw [if_pos h]

theorem outAt_acc (c : Dev nD) (t : Fin cfg0.N) (h : ¬ t.val % 3 = 0) :
    outAt m c t.val t.isLt
      = accOf (outAt m c (t.val - 1) (Nat.lt_of_le_of_lt (Nat.sub_le _ _) t.isLt)) (partAt m c t) := by
  obtain ⟨n, hn⟩ := t
  cases n with
  | zero => exact absurd rfl h
  | succ n => show (if (n + 1) % 3 = 0 then _ else _) = _; rw [if_neg h]; rfl

/-- The scratch before point `n`: every slab stored so far holds its modality's support slab. -/
def SupInv (c : Dev nD) (n : ℕ) (d : Vec F S3x4096x16 .f32) : Prop :=
  ∀ t' : Fin cfg0.N, t'.val < 3 → t'.val < n →
    View.ld d (Rect.unit (s := S3x4096x16) (k0_off4 (grid0.coords t')) S1x4096x16.size (k0_off4_inb (grid0.coords t'))) = supAt m c t'

/-- Loads through unit rectangles at equal offsets read the same. -/
theorem ld_unit_congr {S : Shape} {e : EltTy} (X : S.Idx → Elt F e) {off off' size : Fin S.rank → ℕ} (h : off = off')
    (inb : ∀ a, off a + size a ≤ S.size a) (inb' : ∀ a, off' a + size a ≤ S.size a) :
    HEq (View.ld X (Rect.unit off size inb)) (View.ld X (Rect.unit off' size inb')) := by subst h; rfl

end Cert.Kernel.Body

end
-- ==== Proof.KBodyPieces.lean ====
/-
  What the four runs of the body leave, as values.

  In every case the output block is covered by its one store, so after the body it reads as that store's
  payload: `setOf` at a modality-0 point, `accOf` of the block found at the others.  At a point of the
  first row block the support operand is read back through the slab just stored, so it is the stored
  slab; at a later row block it is whatever the scratch holds in that slab.  The scratch after a store is
  its previous contents with the modality's slab replaced; `supInv_store` and `supInv_keep` carry the
  invariant across a point, and `supInv_use` reads the slab a later row block loads.
-/
import proofs.«163964_g37280316129400_cont_sun_m_331_26_alg».proof.Proof.KBodyRuns
import proofs.«163964_g37280316129400_cont_sun_m_331_26_alg».proof.Proof.KBodyVals
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.Sem

variable {F : FTy → Type} [FloatOps F]

/-- The scratch operand: a whole buffer of the kernel's own. -/
abbrev scM : Memref sig .tc .vmem S3x4096x16 .f32 := Memref.whole cc0_scratch0

theorem hz2 : (![0, 0] : Fin 2 → ℕ) = fun _ => 0 := by funext a; fin_cases a <;> rfl

/-- A load of the slab just stored reads the stored slab (the two offsets are the same words). -/
theorem readCov_slab (v : View sig .tc .vmem S3x4096x16 .f32) (i : grid0.Coords) (hc1 : k0_cond1 i = 1#1)
    (w : Vec F S1x4096x16 .f32) :
    v.readCov [(⟨Rect.unit (s := S3x4096x16) (k0_off3 i) S1x4096x16.size (k0_off3_inb i hc1), w⟩ : View.Piece (Elt F) S3x4096x16 .f32)]
      (Rect.unit (s := S3x4096x16) (k0_off4 i) S1x4096x16.size (k0_off4_inb i)).toLoadRect = w :=
  View.readCov_cons_toLoadRect v (Rect.unit (s := S3x4096x16) (k0_off3 i) S1x4096x16.size (k0_off3_inb i hc1)) w []

/-! ## The output block after each case -/

theorem outA_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : k0_cond2 i = 1#1) (hc3 : ¬k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunA c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = setOf i x1 x3 x4 x5 x6 x7 (supOf i hc1 x0 x2) := by
  rw [View.read_writes_eq_canon _ _ _ (fun y => View.cover_of_tiledL (kernelRunA c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunA; dsimp only; sl_unfold_run_names
  rw [View.canon_unit_zero hz2]
  simp only [View.readAt_eq_ld, Memref.IsWhole.read_unread]
  unfold setOf supOf
  exact congrArg (fun s => k0_pay4 _ s _ _ _ _ _) (readCov_slab arg11.view i hc1 _)

theorem outB_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : ¬k0_cond2 i = 1#1) (hc3 : k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunB c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = accOf xo (partOf i x1 x3 x4 x5 x6 (supOf i hc1 x0 x2)) := by
  rw [View.read_writes_eq_canon _ _ _ (fun y => View.cover_of_tiledL (kernelRunB c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunB; dsimp only; sl_unfold_run_names
  rw [View.canon_unit_zero hz2]
  simp only [View.readAt_eq_ld, Memref.IsWhole.read_unread]
  unfold accOf partOf supOf
  exact congrArg (fun s => k0_pay1 (k0_pay3 _ s _ _ _ _) _) (readCov_slab arg11.view i hc1 _)

theorem outC_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : ¬k0_cond1 i = 1#1) (hc2 : k0_cond2 i = 1#1) (hc3 : ¬k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunC c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = setOf i x1 x3 x4 x5 x6 x7 (View.ld xs (Rect.unit (s := S3x4096x16) (k0_off4 i) S1x4096x16.size (k0_off4_inb i))) := by
  rw [View.read_writes_eq_canon _ _ _ (fun y => View.cover_of_tiledL (kernelRunC c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunC; dsimp only; sl_unfold_run_names
  rw [View.canon_unit_zero hz2]
  simp only [View.readAt_eq_ld, Memref.IsWhole.read_unread]
  rfl

theorem outD_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : ¬k0_cond1 i = 1#1) (hc2 : ¬k0_cond2 i = 1#1) (hc3 : k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunD c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = accOf xo (partOf i x1 x3 x4 x5 x6 (View.ld xs (Rect.unit (s := S3x4096x16) (k0_off4 i) S1x4096x16.size (k0_off4_inb i)))) := by
  rw [View.read_writes_eq_canon _ _ _ (fun y => View.cover_of_tiledL (kernelRunD c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunD; dsimp only; sl_unfold_run_names
  rw [View.canon_unit_zero hz2]
  simp only [View.readAt_eq_ld, Memref.IsWhole.read_unread]
  rfl

/-! ## The scratch store of the first row block -/

theorem scrA_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : k0_cond2 i = 1#1) (hc3 : ¬k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    (kernelRunA c i arg2 harg2 arg3 harg3 arg4 harg4 arg5 harg5 arg6 harg6 arg7 harg7 arg8 harg8 arg9 harg9 arg10 harg10 arg11 harg11 hc1 hc2 hc3 x0 x1 x2 x3 x4 x5 x6 x7 xo xs).2.1
      = [(⟨Rect.unit (s := S3x4096x16) (k0_off3 i) S1x4096x16.size (k0_off3_inb i hc1), supOf i hc1 x0 x2⟩ : View.Piece (Elt F) S3x4096x16 .f32)] := by
  unfold kernelRunA; dsimp only; sl_unfold_run_names
  simp only [View.readAt_eq_ld, Memref.IsWhole.read_unread]
  rfl

theorem scrB_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : ¬k0_cond2 i = 1#1) (hc3 : k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    (kernelRunB c i arg2 harg2 arg3 harg3 arg4 harg4 arg5 harg5 arg6 harg6 arg7 harg7 arg8 harg8 arg9 harg9 arg10 harg10 arg11 harg11 hc1 hc2 hc3 x0 x1 x2 x3 x4 x5 x6 x7 xo xs).2.1
      = [(⟨Rect.unit (s := S3x4096x16) (k0_off3 i) S1x4096x16.size (k0_off3_inb i hc1), supOf i hc1 x0 x2⟩ : View.Piece (Elt F) S3x4096x16 .f32)] := by
  unfold kernelRunB; dsimp only; sl_unfold_run_names
  simp only [View.readAt_eq_ld, Memref.IsWhole.read_unread]
  rfl

/-! ## The invariant of the scratch across a point -/

variable (m : (ℓ : Loc nD τ sig) → Buf (Elt F) ℓ)

theorem tmod_of_lt (t : Fin cfg0.N) (h : t.val < 3) : tmod t = t := Fin.ext (by rw [tmod_val]; omega)

theorem tmod_tmod (t : Fin cfg0.N) : tmod (tmod t) = tmod t := Fin.ext (by rw [tmod_val, tmod_val, Nat.mod_mod])

/-- The support slab at equal points. -/
theorem supOf_pt (c : Dev nD) (t t' : Fin cfg0.N) (h : t' = t) (hc : k0_cond1 (grid0.coords t') = 1#1)
    (hc' : k0_cond1 (grid0.coords t) = 1#1) :
    supOf (grid0.coords t') hc (iblk m c 0 t') (iblk m c 2 t') = supOf (grid0.coords t) hc' (iblk m c 0 t) (iblk m c 2 t) := by
  subst h; rfl

/-- At a point of the first row block the modality's support slab is the one that point computes. -/
theorem supAt_of_lt (c : Dev nD) (t : Fin cfg0.N) (h : t.val < 3) (hc1 : k0_cond1 (grid0.coords t) = 1#1) :
    supAt m c t = supOf (grid0.coords t) hc1 (iblk m c 0 t) (iblk m c 2 t) :=
  supOf_pt m c t (tmod t) (tmod_of_lt t h) _ _

theorem supAt_tmod (c : Dev nD) (t : Fin cfg0.N) : supAt m c (tmod t) = supAt m c t :=
  supOf_pt m c (tmod t) (tmod (tmod t)) (tmod_tmod t) _ _

/-- A point of the first row block stores its modality's slab: the invariant holds one point later. -/
theorem supInv_store (c : Dev nD) (t : Fin cfg0.N) (h1 : t.val < 3) (hc1 : k0_cond1 (grid0.coords t) = 1#1)
    (hsc : (scM : Memref sig .tc .vmem S3x4096x16 .f32).IsWhole) (d : Vec F S3x4096x16 .f32) (hd : SupInv m c t.val d) :
    SupInv m c (t.val + 1)
      (scM.view.read (Elt F) (scM.view.writes (Elt F) (hsc.unread d)
        [(⟨Rect.unit (s := S3x4096x16) (k0_off3 (grid0.coords t)) S1x4096x16.size (k0_off3_inb (grid0.coords t) hc1),
            supOf (grid0.coords t) hc1 (iblk m c 0 t) (iblk m c 2 t)⟩ : View.Piece (Elt F) S3x4096x16 .f32)])) := by
  intro t' h3 hlt
  funext y
  have hy0 : (y 0).val < 1 := (y 0).isLt
  show scM.view.read (Elt F) _ ((Rect.unit (s := S3x4096x16) (k0_off4 (grid0.coords t')) S1x4096x16.size (k0_off4_inb (grid0.coords t'))).idx y) = _
  by_cases he : t'.val = t.val
  · obtain rfl : t' = t := Fin.ext he
    rw [View.read_writes_cons_unit_of_mem scM.view (hsc.unread d) (k0_off3_inb (grid0.coords t') hc1) _ [] _ y (off3_val t')
      (fun a => by
        show k0_off4 (grid0.coords t') a + 1 * (y a).val = (![t'.val % 3, 0, 0] : Fin 3 → ℕ) a + (y a).val
        rw [Nat.one_mul]
        exact congrArg (· + (y a).val) (congrFun (off4_val t') a))]
    rw [supAt_of_lt m c t' h1 hc1]
  · rw [View.read_writes_cons_unit_of_not_mem scM.view (hsc.unread d) (k0_off3_inb (grid0.coords t) hc1) _ [] _ (off3_val t) 0
      (Or.inl (by
        have e' : k0_off4 (grid0.coords t') 0 = t'.val % 3 := congrFun (off4_val t') 0
        show k0_off4 (grid0.coords t') 0 + 1 * (y 0).val < t.val % 3
        omega))]
    rw [View.writes_nil, hsc.read_unread]
    exact congrFun (hd t' h3 (by omega)) y

/-- A later point stores nothing into the scratch: the invariant is kept. -/
theorem supInv_keep (c : Dev nD) (t : Fin cfg0.N) (h1 : ¬ t.val < 3) (d : Vec F S3x4096x16 .f32) (hd : SupInv m c t.val d) :
    SupInv m c (t.val + 1) d :=
  fun t' h3 _ => hd t' h3 (by omega)

/-- At a later row block the slab the body loads is its modality's support slab. -/
theorem supInv_use (c : Dev nD) (t : Fin cfg0.N) (h1 : ¬ t.val < 3) (d : Vec F S3x4096x16 .f32) (hd : SupInv m c t.val d) :
    View.ld d (Rect.unit (s := S3x4096x16) (k0_off4 (grid0.coords t)) S1x4096x16.size (k0_off4_inb (grid0.coords t))) = supAt m c t := by
  have h := hd (tmod t) (by rw [tmod_val]; omega) (by rw [tmod_val]; omega)
  rw [supAt_tmod] at h
  rw [← h]
  funext y
  show d _ = d _
  refine congrArg d (funext fun a => Fin.ext ?_)
  show k0_off4 (grid0.coords t) a + 1 * (y a).val = k0_off4 (grid0.coords (tmod t)) a + 1 * (y a).val
  exact congrArg (· + 1 * (y a).val) ((congrFun (off4_val t) a).trans (by
    rw [off4_val (tmod t), tmod_val, Nat.mod_mod]))

end Cert.Kernel.Body

end
-- ==== Proof.KBody.lean ====
/-
  The frame of the kernel: the proof data of its one pipeline, and the body at every grid point.

  After the body at point `t` every input window's buffer still holds its block and the output window's
  buffer holds `outAt t`; between points the scratch holds, in every slab stored so far, that modality's
  support slab (`SupInv`), which is what lets a later row block's contribution be stated from the inputs
  alone.  At the first point of a row block the output buffer is fresh (the previous block was written
  back, or nothing ran yet) and the body sets it; at the other two it holds what the point before left,
  and the body adds to it.
-/
import proofs.«163964_g37280316129400_cont_sun_m_331_26_alg».proof.Proof.KBodyPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's own invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before point `n`: the scratch at contents whose stored slabs are the support slabs. -/
def PhiS (c : Dev nD) (n : ℕ) : sProp 𝕄 :=
  iprop(iprop((∃ d, ⌜SupInv m c n d⌝ ∗ owns (c : Thread nD τ) scM fullShare d)) ∗ (∃ r, prngReg c r))

/-- The proof data: the arrays as the region finds them; after the body each input's buffer at its block and
    the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a modality-0 point the output buffer is fresh: nothing ran yet, or the point before wrote the block back. -/
theorem before0_8_set (c : Dev nD) (t : Fin cfg0.N) (h : t.val % 3 = 0) (d) : (dats m 0 c).before 8 t d = d :=
  Dat.before_out_reset (dats m 0 c) 8 rfl t (by
    by_cases h0 : t.val = 0
    · exact .inl h0
    · exact .inr ⟨h0, (flush0_8 ⟨t.val - 1, Nat.lt_of_le_of_lt (Nat.sub_le _ _) t.isLt⟩).mpr (by
        show (t.val - 1) % 3 = 2; omega)⟩) d

/-- At the other points it holds what the point before left. -/
theorem before0_8_acc (c : Dev nD) (t : Fin cfg0.N) (h : ¬ t.val % 3 = 0) (d) :
    (dats m 0 c).before 8 t d = outAt m c (t.val - 1) (Nat.lt_of_le_of_lt (Nat.sub_le _ _) t.isLt) :=
  (Dat.before_out_kept (dats m 0 c) 8 rfl t (by omega) (by
      cases hf : (cfg0.win 8).flush ⟨t.val - 1, Nat.lt_of_le_of_lt (Nat.sub_le _ _) t.isLt⟩ with
      | false => rfl
      | true =>
        have := (flush0_8 ⟨t.val - 1, Nat.lt_of_le_of_lt (Nat.sub_le _ _) t.isLt⟩).mp hf
        have h2 : (t.val - 1) % 3 = 2 := this
        omega) live8 (fun _ _ => rfl) d).trans (after0_8 m c _)

/-! ## The body at a point -/

abbrev ms0_0 (t : Fin cfg0.N) : Memref sig .tc .vmem S3x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x128x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x16x9 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x9 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S27x27 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x27 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x27 .f32 := win0_8.stage (cfg0.slots t 8)
abbrev hs0_8 (t : Fin cfg0.N) : (ms0_8 t).IsWhole := hstage0_8 ((cfg0.slots t 8).cast nbuf0_8)

theorem leaves0_0 (c : Dev nD) (t : Fin cfg0.N) :
    (dats m 0 c).leavesExact 0 t = owns (c : Thread nD τ) (ms0_0 t) fullShare (iblk m c 0 t) := by
  unfold Dat.leavesExact; rw [live_all 0 t, after0_0]
theorem leaves0_1 (c : Dev nD) (t : Fin cfg0.N) :
    (dats m 0 c).leavesExact 1 t = owns (c : Thread nD τ) (ms0_1 t) fullShare (iblk m c 1 t) := by
  unfold Dat.leavesExact; rw [live_all 1 t, after0_1]
theorem leaves0_2 (c : Dev nD) (t : Fin cfg0.N) :
    (dats m 0 c).leavesExact 2 t = owns (c : Thread nD τ) (ms0_2 t) fullShare (iblk m c 2 t) := by
  unfold Dat.leavesExact; rw [live_all 2 t, after0_2]
theorem leaves0_3 (c : Dev nD) (t : Fin cfg0.N) :
    (dats m 0 c).leavesExact 3 t = owns (c : Thread nD τ) (ms0_3 t) fullShare (iblk m c 3 t) := by
  unfold Dat.leavesExact; rw [live_all 3 t, after0_3]
theorem leaves0_4 (c : Dev nD) (t : Fin cfg0.N) :
    (dats m 0 c).leavesExact 4 t = owns (c : Thread nD τ) (ms0_4 t) fullShare (iblk m c 4 t) := by
  unfold Dat.leavesExact; rw [live_all 4 t, after0_4]
theorem leaves0_5 (c : Dev nD) (t : Fin cfg0.N) :
    (dats m 0 c).leavesExact 5 t = owns (c : Thread nD τ) (ms0_5 t) fullShare (iblk m c 5 t) := by
  unfold Dat.leavesExact; rw [live_all 5 t, after0_5]
theorem leaves0_6 (c : Dev nD) (t : Fin cfg0.N) :
    (dats m 0 c).leavesExact 6 t = owns (c : Thread nD τ) (ms0_6 t) fullShare (iblk m c 6 t) := by
  unfold Dat.leavesExact; rw [live_all 6 t, after0_6]
theorem leaves0_7 (c : Dev nD) (t : Fin cfg0.N) :
    (dats m 0 c).leavesExact 7 t = owns (c : Thread nD τ) (ms0_7 t) fullShare (iblk m c 7 t) := by
  unfold Dat.leavesExact; rw [live_all 7 t, after0_7]
theorem leaves0_8 (c : Dev nD) (t : Fin cfg0.N) :
    (dats m 0 c).leavesExact 8 t = owns (c : Thread nD τ) (ms0_8 t) fullShare (outAt m c t.val t.isLt) := by
  unfold Dat.leavesExact; rw [live_all 8 t, after0_8]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem Phi_castSucc (c : Dev nD) (t : Fin cfg0.N) : (dats m 0 c).Φ t.castSucc = PhiS m c t.val := by
  dsimp only [dats]; simp only [Fin.coe_castSucc]

set_option maxHeartbeats 4800000 in
/-- The body at any point: the closed forms of the three conditions say which of the four cases the point is
    in; that case's run applies; the scratch's contents after it satisfy the invariant one point later, and the
    output buffer reads as `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) from rfl, Phi_castSucc]
  rw [leaves0_0, leaves0_1, leaves0_2, leaves0_3, leaves0_4, leaves0_5, leaves0_6, leaves0_7, leaves0_8]
  unfold PhiS
  by_cases h1 : t.val < 3
  · by_cases h2 : t.val % 3 = 0
    ·
      simp only [before0_8_set m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcond1 t).mpr h1) ((hcond2 t).mpr h2) (fun h => (hcond3 t).mp h h2)
        (iblk m c 0 t) (iblk m c 1 t) (iblk m c 2 t) (iblk m c 3 t) (iblk m c 4 t) (iblk m c 5 t) (iblk m c 6 t) (iblk m c 7 t) d8 d).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · unfold owns; iexists _; isplitr
            swap
            · iexact HS
            ipureintro; rfl
          ipureintro
          rw [scrA_eq]
          exact supInv_store m c t h1 ((hcond1 t).mpr h1) _ d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outA_eq c (grid0.coords t) _ _ _ _ _ _ _ _ _ _ _ _ _ _ _ _ _ _ _ _ ((hcond1 t).mpr h1) ((hcond2 t).mpr h2) (fun h => (hcond3 t).mp h h2) _ _ _ _ _ _ _ _ _ _).trans ?_
      rw [outAt_set m c t h2]; unfold setAt
      rw [supAt_of_lt m c t h1 ((hcond1 t).mpr h1)]
    ·
      simp only [before0_8_acc m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunB c (grid0.coords t) _ _ _ _ _ _ _ _ _ _ _ _ _ _ _ _ _ _ _ _ ((hcond1 t).mpr h1) (fun h => h2 ((hcond2 t).mp h)) ((hcond3 t).mpr h2)
        (iblk m c 0 t) (iblk m c 1 t) (iblk m c 2 t) (iblk m c 3 t) (iblk m c 4 t) (iblk m c 5 t) (iblk m c 6 t) (iblk m c 7 t) (outAt m c (t.val - 1) (Nat.lt_of_le_of_lt (Nat.sub_le _ _) t.isLt)) d).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · unfold owns; iexists _; isplitr
            swap
            · iexact HS
            ipureintro; rfl
          ipureintro
          rw [scrB_eq]
          exact supInv_store m c t h1 ((hcond1 t).mpr h1) _ d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outB_eq c (grid0.coords t) _ _ _ _ _ _ _ _ _ _ _ _ _ _ _ _ _ _ _ _ ((hcond1 t).mpr h1) (fun h => h2 ((hcond2 t).mp h)) ((hcond3 t).mpr h2) _ _ _ _ _ _ _ _ _ _).trans ?_
      rw [outAt_acc m c t h2]; unfold partAt
      rw [supAt_of_lt m c t h1 ((hcond1 t).mpr h1)]
  · by_cases h2 : t.val % 3 = 0
    ·
      simp only [before0_8_set m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunC c (grid0.coords t) _ _ _ _ _ _ _ _ _ _ _ _ _ _ _ _ _ _ _ _ (fun h => h1 ((hcond1 t).mp h)) ((hcond2 t).mpr h2) (fun h => (hcond3 t).mp h h2)
        (iblk m c 0 t) (iblk m c 1 t) (iblk m c 2 t) (iblk m c 3 t) (iblk m c 4 t) (iblk m c 5 t) (iblk m c 6 t) (iblk m c 7 t) d8 d).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · iexact HS
          ipureintro
          exact supInv_keep m c t h1 d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outC_eq c (grid0.coords t) _ _ _ _ _ _ _ _ _ _ _ _ _ _ _ _ _ _ _ _ (fun h => h1 ((hcond1 t).mp h)) ((hcond2 t).mpr h2) (fun h => (hcond3 t).mp h h2) _ _ _ _ _ _ _ _ _ _).trans ?_
      rw [outAt_set m c t h2]; unfold setAt
      rw [supInv_use m c t h1 d hd]
    ·
      simp only [before0_8_acc m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunD c (grid0.coords t) _ _ _ _ _ _ _ _ _ _ _ _ _ _ _ _ _ _ _ _ (fun h => h1 ((hcond1 t).mp h)) (fun h => h2 ((hcond2 t).mp h)) ((hcond3 t).mpr h2)
        (iblk m c 0 t) (iblk m c 1 t) (iblk m c 2 t) (iblk m c 3 t) (iblk m c 4 t) (iblk m c 5 t) (iblk m c 6 t) (iblk m c 7 t) (outAt m c (t.val - 1) (Nat.lt_of_le_of_lt (Nat.sub_le _ _) t.isLt)) d).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · iexact HS
          ipureintro
          exact supInv_keep m c t h1 d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outD_eq c (grid0.coords t) _ _ _ _ _ _ _ _ _ _ _ _ _ _ _ _ _ _ _ _ (fun h => h1 ((hcond1 t).mp h)) (fun h => h2 ((hcond2 t).mp h)) ((hcond3 t).mpr h2) _ _ _ _ _ _ _ _ _ _).trans ?_
      rw [outAt_acc m c t h2]; unfold partAt
      rw [supInv_use m c t h1 d hd]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no slab is stored yet. -/
theorem hin (c : Dev nD) : Pipeline.ΦA spec0 c ⊢ (dats m 0 c).Φ 0 := by
  rw [show (dats m 0 c).Φ 0 = PhiS m c 0 from rfl, PhiA0_eq]; unfold PhiS
  iintro ⟨⟨%d, HS⟩, Hg⟩
  isplitl [HS]
  · iexists d; isplitr
    · ipureintro; exact fun t' _ h => absurd h (Nat.not_lt_zero _)
    iexact HS
  iexact Hg

/-- After the last point the invariant gives the region's own back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]; unfold PhiS
  iintro ⟨⟨%d, %hd, HS⟩, Hg⟩
  isplitl [HS]
  · iexists d; iexact HS
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.BodyRuns.lean ====
/-
  The kernel body run symbolically, once for each way its three branches can fall on the grid:
    case A  first row block, first modality   (the support slab is stored; the output block is set to part + bias)
    case B  first row block, later modality   (the support slab is stored; the output block is added to)
    case C  later row block, first modality   (the scratch is only read; the output block is set)
    case D  later row block, later modality   (the scratch is only read; the output block is added to)
  Each run hands back every input buffer as it found it and the output block with the list of stores made
  into it; cases A and B hand back the scratch with the store made over its previous contents, cases C
  and D hand it back untouched.
-/
import proofs.«163964_g37280316129400_cont_sun_m_331_26_alg».proof.Proof.Gen.KernelIdeal.Frame
import proofs.«163964_g37280316129400_cont_sun_m_331_26_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : k0_cond1 i = 1#1) (hc2 : k0_cond2 i = 1#1) (hc3 : ¬k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    Σ' (LO : List (View.Piece (Elt F) S1024x27 .f32)), { LS : List (View.Piece (Elt F) S3x4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexact HS

set_option maxHeartbeats 4000000 in
noncomputable def kernelRunB (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : k0_cond1 i = 1#1) (hc2 : ¬k0_cond2 i = 1#1) (hc3 : k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    Σ' (LO : List (View.Piece (Elt F) S1024x27 .f32)), { LS : List (View.Piece (Elt F) S3x4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexact HS

set_option maxHeartbeats 4000000 in
noncomputable def kernelRunC (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : ¬k0_cond1 i = 1#1) (hc2 : k0_cond2 i = 1#1) (hc3 : ¬k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    { LO : List (View.Piece (Elt F) S1024x27 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ owns (c : Thread nD τ) arg11 fullShare xs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexists _; isplitr; · ipureintro; exact harg11.read_unread _
    iexact HS

set_option maxHeartbeats 4000000 in
noncomputable def kernelRunD (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole)
    (hc1 : ¬k0_cond1 i = 1#1) (hc2 : ¬k0_cond2 i = 1#1) (hc3 : k0_cond3 i = 1#1)
    (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    { LO : List (View.Piece (Elt F) S1024x27 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xo) LO)
                ∗ owns (c : Thread nD τ) arg11 fullShare xs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfo; obtain rfl := harg11.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexact HO
    iexists _; isplitr; · ipureintro; exact harg11.read_unread _
    iexact HS

end Cert.KernelIdeal.Body

end
-- ==== Proof.BodyGrid.lean ====
/-
  Facts about the 4 × 3 grid, decided once over its twelve points.  Point `t` is row block `t / 3`,
  modality `t % 3`.  The support slab is stored exactly at the first three points; the output block is
  set at a modality-0 point and added to at the others; it is written back after modality 2.  Every
  slab offset the body computes is `(t % 3, 0, 0)`, and the classifier rows start at `9 · (t % 3)`.
-/
import proofs.«163964_g37280316129400_cont_sun_m_331_26_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe

/-- The support slab is stored at the first three points only. -/
theorem hcond1 : ∀ t : Fin cfg0.N, k0_cond1 (grid0.coords t) = 1#1 ↔ t.val < 3 :=
  (by decide +kernel : ∀ t : Fin grid0.N, k0_cond1 (grid0.coords t) = 1#1 ↔ t.val < 3)
/-- The output block is set at the points of modality 0. -/
theorem hcond2 : ∀ t : Fin cfg0.N, k0_cond2 (grid0.coords t) = 1#1 ↔ t.val % 3 = 0 :=
  (by decide +kernel : ∀ t : Fin grid0.N, k0_cond2 (grid0.coords t) = 1#1 ↔ t.val % 3 = 0)
/-- The output block is added to at the other points. -/
theorem hcond3 : ∀ t : Fin cfg0.N, k0_cond3 (grid0.coords t) = 1#1 ↔ ¬ t.val % 3 = 0 :=
  (by decide +kernel : ∀ t : Fin grid0.N, k0_cond3 (grid0.coords t) = 1#1 ↔ ¬ t.val % 3 = 0)

theorem N_lt (t : Fin cfg0.N) : t.val < 12 := lt_of_lt_of_eq t.isLt (show cfg0.N = 12 from N_0)

/-- The point of the first row block with the same modality as `t`. -/
def tmod (t : Fin cfg0.N) : Fin cfg0.N := ⟨t.val % 3, by have := N_lt t; show t.val % 3 < grid0.N; rw [N_0]; omega⟩

@[simp] theorem tmod_val (t : Fin cfg0.N) : (tmod t).val = t.val % 3 := rfl

theorem cond1_tmod (t : Fin cfg0.N) : k0_cond1 (grid0.coords (tmod t)) = 1#1 :=
  (hcond1 (tmod t)).mpr (by rw [tmod_val]; omega)

theorem off1_val : ∀ t : Fin cfg0.N, k0_off1 (grid0.coords t) = ![t.val % 3, 0, 0] :=
  (by decide +kernel : ∀ t : Fin grid0.N, k0_off1 (grid0.coords t) = ![t.val % 3, 0, 0])
theorem off2_val : ∀ t : Fin cfg0.N, k0_off2 (grid0.coords t) = ![t.val % 3, 0, 0] :=
  (by decide +kernel : ∀ t : Fin grid0.N, k0_off2 (grid0.coords t) = ![t.val % 3, 0, 0])
theorem off3_val : ∀ t : Fin cfg0.N, k0_off3 (grid0.coords t) = ![t.val % 3, 0, 0] :=
  (by decide +kernel : ∀ t : Fin grid0.N, k0_off3 (grid0.coords t) = ![t.val % 3, 0, 0])
theorem off4_val : ∀ t : Fin cfg0.N, k0_off4 (grid0.coords t) = ![t.val % 3, 0, 0] :=
  (by decide +kernel : ∀ t : Fin grid0.N, k0_off4 (grid0.coords t) = ![t.val % 3, 0, 0])
theorem off5_val : ∀ t : Fin cfg0.N, k0_off5 (grid0.coords t) = ![t.val % 3, 0] :=
  (by decide +kernel : ∀ t : Fin grid0.N, k0_off5 (grid0.coords t) = ![t.val % 3, 0])
theorem off6_val : ∀ t : Fin cfg0.N, k0_off6 (grid0.coords t) = ![t.val % 3, 0, 0] :=
  (by decide +kernel : ∀ t : Fin grid0.N, k0_off6 (grid0.coords t) = ![t.val % 3, 0, 0])
theorem off7_val : ∀ t : Fin cfg0.N, k0_off7 (grid0.coords t) = ![t.val % 3, 0] :=
  (by decide +kernel : ∀ t : Fin grid0.N, k0_off7 (grid0.coords t) = ![t.val % 3, 0])
theorem off8_val : ∀ t : Fin cfg0.N, k0_off8 (grid0.coords t) = ![9 * (t.val % 3), 0] :=
  (by decide +kernel : ∀ t : Fin grid0.N, k0_off8 (grid0.coords t) = ![9 * (t.val % 3), 0])

/-- The adjacency tile at point `t` is block `(t % 3, t / 3, 0)`; the output block is block `(t / 3, 0)`. -/
theorem idx1_val : ∀ t : Fin cfg0.N, cc0_transform_1 (grid0.coords t) = ![t.val % 3, t.val / 3, 0] :=
  (by decide +kernel : ∀ t : Fin grid0.N, cc0_transform_1 (grid0.coords t) = ![t.val % 3, t.val / 3, 0])
theorem idx8_val : ∀ t : Fin cfg0.N, cc0_transform_8 (grid0.coords t) = ![t.val / 3, 0] :=
  (by decide +kernel : ∀ t : Fin grid0.N, cc0_transform_8 (grid0.coords t) = ![t.val / 3, 0])

/-- No window is idle anywhere: the output block is stored at every point. -/
theorem live_all : ∀ (w : Fin cfg0.W) (t : Fin cfg0.N), cfg0.idle w (grid0.coords t) = false :=
  (by decide +kernel : ∀ (w : Fin 9) (t : Fin grid0.N), idle0 w (grid0.coords t) = false)
theorem live8 : ∀ i : grid0.Coords, cfg0.idle 8 i = false := by decide +kernel

end Cert.KernelIdeal.Body

end
-- ==== Proof.BodyVals.lean ====
/-
  What the body computes at a point, as pure functions of the window blocks.

  `supOf`   the support slab of a modality: its feature slab times its weight slab;
  `partOf`  the point's contribution: the (masked) adjacency tile times the support slab, plus the bias
             row, through the small dense layer and tanh, times the modality's nine classifier rows;
  `setOf`   that contribution plus the classifier bias row (what a modality-0 point stores);
  `accOf`   the block found plus the contribution (what the other points store).
  `outAt`   is the output block after each point, by recursion on the point; `SupInv` says the scratch
  holds, in every slab stored so far, that modality's support slab.
-/
import proofs.«163964_g37280316129400_cont_sun_m_331_26_alg».proof.Proof.BodyGrid
import proofs.«163964_g37280316129400_cont_sun_m_331_26_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-- The support slab at coordinates `i` of the first row block. -/
def supOf (i : grid0.Coords) (h1 : k0_cond1 i = 1#1) (x0 : Vec F S3x4096x128 .f32) (x2 : Vec F S3x128x16 .f32) :
    Vec F S1x4096x16 .f32 :=
  k0_pay2 (View.ld x0 (Rect.unit (s := S3x4096x128) (k0_off1 i) S1x4096x128.size (k0_off1_inb i h1)))
    (View.ld x2 (Rect.unit (s := S3x128x16) (k0_off2 i) S1x128x16.size (k0_off2_inb i h1)))

/-- The point's contribution given the modality's support slab `s`. -/
def partOf (i : grid0.Coords) (x1 : Vec F S1x1024x4096 .f32) (x3 : Vec F S3x16 .f32) (x4 : Vec F S3x16x9 .f32)
    (x5 : Vec F S3x9 .f32) (x6 : Vec F S27x27 .f32) (s : Vec F S1x4096x16 .f32) : Vec F S1024x27 .f32 :=
  k0_pay3 (View.ld x1 (Rect.unit (s := S1x1024x4096) ![0, 0, 0] S1x1024x4096.size inb_S1x1024x4096_S1x1024x4096_0_0_0)) s
    (View.ld x3 (Rect.unit (s := S3x16) (k0_off5 i) S1x16.size (k0_off5_inb i)))
    (View.ld x4 (Rect.unit (s := S3x16x9) (k0_off6 i) S1x16x9.size (k0_off6_inb i)))
    (View.ld x5 (Rect.unit (s := S3x9) (k0_off7 i) S1x9.size (k0_off7_inb i)))
    (View.ld x6 (Rect.unit (s := S27x27) (k0_off8 i) S9x27.size (k0_off8_inb i)))

/-- The contribution plus the classifier bias row. -/
def setOf (i : grid0.Coords) (x1 : Vec F S1x1024x4096 .f32) (x3 : Vec F S3x16 .f32) (x4 : Vec F S3x16x9 .f32)
    (x5 : Vec F S3x9 .f32) (x6 : Vec F S27x27 .f32) (x7 : Vec F S1x27 .f32) (s : Vec F S1x4096x16 .f32) : Vec F S1024x27 .f32 :=
  k0_pay4 (View.ld x1 (Rect.unit (s := S1x1024x4096) ![0, 0, 0] S1x1024x4096.size inb_S1x1024x4096_S1x1024x4096_0_0_0)) s
    (View.ld x3 (Rect.unit (s := S3x16) (k0_off5 i) S1x16.size (k0_off5_inb i)))
    (View.ld x4 (Rect.unit (s := S3x16x9) (k0_off6 i) S1x16x9.size (k0_off6_inb i)))
    (View.ld x5 (Rect.unit (s := S3x9) (k0_off7 i) S1x9.size (k0_off7_inb i)))
    (View.ld x6 (Rect.unit (s := S27x27) (k0_off8 i) S9x27.size (k0_off8_inb i)))
    (View.ld x7 (Rect.unit (s := S1x27) ![0, 0] S1x27.size inb_S1x27_S1x27_0_0))

/-- The block found plus the contribution. -/
def accOf (prev p : Vec F S1024x27 .f32) : Vec F S1024x27 .f32 :=
  k0_pay1 p (View.ld prev (Rect.unit (s := S1024x27) ![0, 0] S1024x27.size inb_S1024x27_S1024x27_0_0))

variable (m : (ℓ : Loc nD τ sig) → Buf (Elt F) ℓ)

/-- The support slab of point `t`'s modality, from the blocks at that modality's first-row-block point. -/
def supAt (c : Dev nD) (t : Fin cfg0.N) : Vec F S1x4096x16 .f32 :=
  supOf (grid0.coords (tmod t)) (cond1_tmod t) (iblk m c 0 (tmod t)) (iblk m c 2 (tmod t))

theorem supAt_congr (c : Dev nD) {t t' : Fin cfg0.N} (h : t = t') : supAt m c t = supAt m c t' := by subst h; rfl

/-- Point `t`'s contribution. -/
def partAt (c : Dev nD) (t : Fin cfg0.N) : Vec F S1024x27 .f32 :=
  partOf (grid0.coords t) (iblk m c 1 t) (iblk m c 3 t) (iblk m c 4 t) (iblk m c 5 t) (iblk m c 6 t) (supAt m c t)

/-- What a modality-0 point stores. -/
def setAt (c : Dev nD) (t : Fin cfg0.N) : Vec F S1024x27 .f32 :=
  setOf (grid0.coords t) (iblk m c 1 t) (iblk m c 3 t) (iblk m c 4 t) (iblk m c 5 t) (iblk m c 6 t) (iblk m c 7 t) (supAt m c t)

/-- The output block after point `n`: set at a modality-0 point, else the previous block plus the contribution. -/
def outAt (c : Dev nD) : (n : ℕ) → n < cfg0.N → Vec F S1024x27 .f32
  | 0, h => setAt m c ⟨0, h⟩
  | n + 1, h => if (n + 1) % 3 = 0 then setAt m c ⟨n + 1, h⟩
      else accOf (outAt c n (Nat.lt_of_succ_lt h)) (partAt m c ⟨n + 1, h⟩)

theorem outAt_set (c : Dev nD) (t : Fin cfg0.N) (h : t.val % 3 = 0) : outAt m c t.val t.isLt = setAt m c t := by
  obtain ⟨n, hn⟩ := t
  cases n with
  | zero => rfl
  | succ n => show (if (n + 1) % 3 = 0 then _ else _) = _; rw [if_pos h]

theorem outAt_acc (c : Dev nD) (t : Fin cfg0.N) (h : ¬ t.val % 3 = 0) :
    outAt m c t.val t.isLt
      = accOf (outAt m c (t.val - 1) (Nat.lt_of_le_of_lt (Nat.sub_le _ _) t.isLt)) (partAt m c t) := by
  obtain ⟨n, hn⟩ := t
  cases n with
  | zero => exact absurd rfl h
  | succ n => show (if (n + 1) % 3 = 0 then _ else _) = _; rw [if_neg h]; rfl

/-- The scratch before point `n`: every slab stored so far holds its modality's support slab. -/
def SupInv (c : Dev nD) (n : ℕ) (d : Vec F S3x4096x16 .f32) : Prop :=
  ∀ t' : Fin cfg0.N, t'.val < 3 → t'.val < n →
    View.ld d (Rect.unit (s := S3x4096x16) (k0_off4 (grid0.coords t')) S1x4096x16.size (k0_off4_inb (grid0.coords t'))) = supAt m c t'

/-- Loads through unit rectangles at equal offsets read the same. -/
theorem ld_unit_congr {S : Shape} {e : EltTy} (X : S.Idx → Elt F e) {off off' size : Fin S.rank → ℕ} (h : off = off')
    (inb : ∀ a, off a + size a ≤ S.size a) (inb' : ∀ a, off' a + size a ≤ S.size a) :
    HEq (View.ld X (Rect.unit off size inb)) (View.ld X (Rect.unit off' size inb')) := by subst h; rfl

end Cert.KernelIdeal.Body

end
-- ==== Proof.BodyPieces.lean ====
/-
  What the four runs of the body leave, as values.

  In every case the output block is covered by its one store, so after the body it reads as that store's
  payload: `setOf` at a modality-0 point, `accOf` of the block found at the others.  At a point of the
  first row block the support operand is read back through the slab just stored, so it is the stored
  slab; at a later row block it is whatever the scratch holds in that slab.  The scratch after a store is
  its previous contents with the modality's slab replaced; `supInv_store` and `supInv_keep` carry the
  invariant across a point, and `supInv_use` reads the slab a later row block loads.
-/
import proofs.«163964_g37280316129400_cont_sun_m_331_26_alg».proof.Proof.BodyRuns
import proofs.«163964_g37280316129400_cont_sun_m_331_26_alg».proof.Proof.BodyVals
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The scratch operand: a whole buffer of the kernel's own. -/
abbrev scM : Memref sig .tc .vmem S3x4096x16 .f32 := Memref.whole cc0_scratch0

theorem hz2 : (![0, 0] : Fin 2 → ℕ) = fun _ => 0 := by funext a; fin_cases a <;> rfl

/-- A load of the slab just stored reads the stored slab (the two offsets are the same words). -/
theorem readCov_slab (v : View sig .tc .vmem S3x4096x16 .f32) (i : grid0.Coords) (hc1 : k0_cond1 i = 1#1)
    (w : Vec F S1x4096x16 .f32) :
    v.readCov [(⟨Rect.unit (s := S3x4096x16) (k0_off3 i) S1x4096x16.size (k0_off3_inb i hc1), w⟩ : View.Piece (Elt F) S3x4096x16 .f32)]
      (Rect.unit (s := S3x4096x16) (k0_off4 i) S1x4096x16.size (k0_off4_inb i)).toLoadRect = w :=
  View.readCov_cons_toLoadRect v (Rect.unit (s := S3x4096x16) (k0_off3 i) S1x4096x16.size (k0_off3_inb i hc1)) w []

/-! ## The output block after each case -/

theorem outA_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : k0_cond2 i = 1#1) (hc3 : ¬k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunA c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = setOf i x1 x3 x4 x5 x6 x7 (supOf i hc1 x0 x2) := by
  rw [View.read_writes_eq_canon _ _ _ (fun y => View.cover_of_tiledL (kernelRunA c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunA; dsimp only; sl_unfold_run_names
  rw [View.canon_unit_zero hz2]
  simp only [View.readAt_eq_ld, Memref.IsWhole.read_unread]
  unfold setOf supOf
  exact congrArg (fun s => k0_pay4 _ s _ _ _ _ _) (readCov_slab arg11.view i hc1 _)

theorem outB_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : ¬k0_cond2 i = 1#1) (hc3 : k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunB c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = accOf xo (partOf i x1 x3 x4 x5 x6 (supOf i hc1 x0 x2)) := by
  rw [View.read_writes_eq_canon _ _ _ (fun y => View.cover_of_tiledL (kernelRunB c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunB; dsimp only; sl_unfold_run_names
  rw [View.canon_unit_zero hz2]
  simp only [View.readAt_eq_ld, Memref.IsWhole.read_unread]
  unfold accOf partOf supOf
  exact congrArg (fun s => k0_pay1 (k0_pay3 _ s _ _ _ _) _) (readCov_slab arg11.view i hc1 _)

theorem outC_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : ¬k0_cond1 i = 1#1) (hc2 : k0_cond2 i = 1#1) (hc3 : ¬k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunC c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = setOf i x1 x3 x4 x5 x6 x7 (View.ld xs (Rect.unit (s := S3x4096x16) (k0_off4 i) S1x4096x16.size (k0_off4_inb i))) := by
  rw [View.read_writes_eq_canon _ _ _ (fun y => View.cover_of_tiledL (kernelRunC c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunC; dsimp only; sl_unfold_run_names
  rw [View.canon_unit_zero hz2]
  simp only [View.readAt_eq_ld, Memref.IsWhole.read_unread]
  rfl

theorem outD_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : ¬k0_cond1 i = 1#1) (hc2 : ¬k0_cond2 i = 1#1) (hc3 : k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    arg10.view.read (Elt F) (arg10.view.writes (Elt F) (harg10.unread xo) (kernelRunD c i arg2 harg2 arg3 harg3 arg4 harg4 arg5 harg5 arg6 harg6 arg7 harg7 arg8 harg8 arg9 harg9 arg10 harg10 arg11 harg11 hc1 hc2 hc3 x0 x1 x2 x3 x4 x5 x6 x7 xo xs).1)
      = accOf xo (partOf i x1 x3 x4 x5 x6 (View.ld xs (Rect.unit (s := S3x4096x16) (k0_off4 i) S1x4096x16.size (k0_off4_inb i)))) := by
  rw [View.read_writes_eq_canon _ _ _ (fun y => View.cover_of_tiledL (kernelRunD c i arg2 harg2 arg3 harg3 arg4 harg4 arg5 harg5 arg6 harg6 arg7 harg7 arg8 harg8 arg9 harg9 arg10 harg10 arg11 harg11 hc1 hc2 hc3 x0 x1 x2 x3 x4 x5 x6 x7 xo xs).1 S1024x27.size (by sl_kernel_rfl) y)]
  unfold kernelRunD; dsimp only; sl_unfold_run_names
  rw [View.canon_unit_zero hz2]
  simp only [View.readAt_eq_ld, Memref.IsWhole.read_unread]
  rfl

/-! ## The scratch store of the first row block -/

theorem scrA_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : k0_cond2 i = 1#1) (hc3 : ¬k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    (kernelRunA c i arg2 harg2 arg3 harg3 arg4 harg4 arg5 harg5 arg6 harg6 arg7 harg7 arg8 harg8 arg9 harg9 arg10 harg10 arg11 harg11 hc1 hc2 hc3 x0 x1 x2 x3 x4 x5 x6 x7 xo xs).2.1
      = [(⟨Rect.unit (s := S3x4096x16) (k0_off3 i) S1x4096x16.size (k0_off3_inb i hc1), supOf i hc1 x0 x2⟩ : View.Piece (Elt F) S3x4096x16 .f32)] := by
  unfold kernelRunA; dsimp only; sl_unfold_run_names
  simp only [View.readAt_eq_ld, Memref.IsWhole.read_unread]
  rfl

theorem scrB_eq (c : Dev nD) (i : grid0.Coords) (arg2 : Memref sig .tc .vmem S3x4096x128 .f32) (harg2 : arg2.IsWhole) (arg3 : Memref sig .tc .vmem S1x1024x4096 .f32) (harg3 : arg3.IsWhole) (arg4 : Memref sig .tc .vmem S3x128x16 .f32) (harg4 : arg4.IsWhole) (arg5 : Memref sig .tc .vmem S3x16 .f32) (harg5 : arg5.IsWhole) (arg6 : Memref sig .tc .vmem S3x16x9 .f32) (harg6 : arg6.IsWhole) (arg7 : Memref sig .tc .vmem S3x9 .f32) (harg7 : arg7.IsWhole) (arg8 : Memref sig .tc .vmem S27x27 .f32) (harg8 : arg8.IsWhole) (arg9 : Memref sig .tc .vmem S1x27 .f32) (harg9 : arg9.IsWhole) (arg10 : Memref sig .tc .vmem S1024x27 .f32) (harg10 : arg10.IsWhole) (arg11 : Memref sig .tc .vmem S3x4096x16 .f32) (harg11 : arg11.IsWhole) (hc1 : k0_cond1 i = 1#1) (hc2 : ¬k0_cond2 i = 1#1) (hc3 : k0_cond3 i = 1#1) (x0 : Vec F S3x4096x128 .f32) (x1 : Vec F S1x1024x4096 .f32) (x2 : Vec F S3x128x16 .f32) (x3 : Vec F S3x16 .f32) (x4 : Vec F S3x16x9 .f32) (x5 : Vec F S3x9 .f32) (x6 : Vec F S27x27 .f32) (x7 : Vec F S1x27 .f32) (xo : Vec F S1024x27 .f32) (xs : Vec F S3x4096x16 .f32) :
    (kernelRunB c i arg2 harg2 arg3 harg3 arg4 harg4 arg5 harg5 arg6 harg6 arg7 harg7 arg8 harg8 arg9 harg9 arg10 harg10 arg11 harg11 hc1 hc2 hc3 x0 x1 x2 x3 x4 x5 x6 x7 xo xs).2.1
      = [(⟨Rect.unit (s := S3x4096x16) (k0_off3 i) S1x4096x16.size (k0_off3_inb i hc1), supOf i hc1 x0 x2⟩ : View.Piece (Elt F) S3x4096x16 .f32)] := by
  unfold kernelRunB; dsimp only; sl_unfold_run_names
  simp only [View.readAt_eq_ld, Memref.IsWhole.read_unread]
  rfl

/-! ## The invariant of the scratch across a point -/

variable (m : (ℓ : Loc nD τ sig) → Buf (Elt F) ℓ)

theorem tmod_of_lt (t : Fin cfg0.N) (h : t.val < 3) : tmod t = t := Fin.ext (by rw [tmod_val]; omega)

theorem tmod_tmod (t : Fin cfg0.N) : tmod (tmod t) = tmod t := Fin.ext (by rw [tmod_val, tmod_val, Nat.mod_mod])

/-- The support slab at equal points. -/
theorem supOf_pt (c : Dev nD) (t t' : Fin cfg0.N) (h : t' = t) (hc : k0_cond1 (grid0.coords t') = 1#1)
    (hc' : k0_cond1 (grid0.coords t) = 1#1) :
    supOf (grid0.coords t') hc (iblk m c 0 t') (iblk m c 2 t') = supOf (grid0.coords t) hc' (iblk m c 0 t) (iblk m c 2 t) := by
  subst h; rfl

/-- At a point of the first row block the modality's support slab is the one that point computes. -/
theorem supAt_of_lt (c : Dev nD) (t : Fin cfg0.N) (h : t.val < 3) (hc1 : k0_cond1 (grid0.coords t) = 1#1) :
    supAt m c t = supOf (grid0.coords t) hc1 (iblk m c 0 t) (iblk m c 2 t) :=
  supOf_pt m c t (tmod t) (tmod_of_lt t h) _ _

theorem supAt_tmod (c : Dev nD) (t : Fin cfg0.N) : supAt m c (tmod t) = supAt m c t :=
  supOf_pt m c (tmod t) (tmod (tmod t)) (tmod_tmod t) _ _

/-- A point of the first row block stores its modality's slab: the invariant holds one point later. -/
theorem supInv_store (c : Dev nD) (t : Fin cfg0.N) (h1 : t.val < 3) (hc1 : k0_cond1 (grid0.coords t) = 1#1)
    (hsc : (scM : Memref sig .tc .vmem S3x4096x16 .f32).IsWhole) (d : Vec F S3x4096x16 .f32) (hd : SupInv m c t.val d) :
    SupInv m c (t.val + 1)
      (scM.view.read (Elt F) (scM.view.writes (Elt F) (hsc.unread d)
        [(⟨Rect.unit (s := S3x4096x16) (k0_off3 (grid0.coords t)) S1x4096x16.size (k0_off3_inb (grid0.coords t) hc1),
            supOf (grid0.coords t) hc1 (iblk m c 0 t) (iblk m c 2 t)⟩ : View.Piece (Elt F) S3x4096x16 .f32)])) := by
  intro t' h3 hlt
  funext y
  have hy0 : (y 0).val < 1 := (y 0).isLt
  show scM.view.read (Elt F) _ ((Rect.unit (s := S3x4096x16) (k0_off4 (grid0.coords t')) S1x4096x16.size (k0_off4_inb (grid0.coords t'))).idx y) = _
  by_cases he : t'.val = t.val
  · obtain rfl : t' = t := Fin.ext he
    rw [View.read_writes_cons_unit_of_mem scM.view (hsc.unread d) (k0_off3_inb (grid0.coords t') hc1) _ [] _ y (off3_val t')
      (fun a => by
        show k0_off4 (grid0.coords t') a + 1 * (y a).val = (![t'.val % 3, 0, 0] : Fin 3 → ℕ) a + (y a).val
        rw [Nat.one_mul]
        exact congrArg (· + (y a).val) (congrFun (off4_val t') a))]
    rw [supAt_of_lt m c t' h1 hc1]
  · rw [View.read_writes_cons_unit_of_not_mem scM.view (hsc.unread d) (k0_off3_inb (grid0.coords t) hc1) _ [] _ (off3_val t) 0
      (Or.inl (by
        have e' : k0_off4 (grid0.coords t') 0 = t'.val % 3 := congrFun (off4_val t') 0
        show k0_off4 (grid0.coords t') 0 + 1 * (y 0).val < t.val % 3
        omega))]
    rw [View.writes_nil, hsc.read_unread]
    exact congrFun (hd t' h3 (by omega)) y

/-- A later point stores nothing into the scratch: the invariant is kept. -/
theorem supInv_keep (c : Dev nD) (t : Fin cfg0.N) (h1 : ¬ t.val < 3) (d : Vec F S3x4096x16 .f32) (hd : SupInv m c t.val d) :
    SupInv m c (t.val + 1) d :=
  fun t' h3 _ => hd t' h3 (by omega)

/-- At a later row block the slab the body loads is its modality's support slab. -/
theorem supInv_use (c : Dev nD) (t : Fin cfg0.N) (h1 : ¬ t.val < 3) (d : Vec F S3x4096x16 .f32) (hd : SupInv m c t.val d) :
    View.ld d (Rect.unit (s := S3x4096x16) (k0_off4 (grid0.coords t)) S1x4096x16.size (k0_off4_inb (grid0.coords t))) = supAt m c t := by
  have h := hd (tmod t) (by rw [tmod_val]; omega) (by rw [tmod_val]; omega)
  rw [supAt_tmod] at h
  rw [← h]
  funext y
  show d _ = d _
  refine congrArg d (funext fun a => Fin.ext ?_)
  show k0_off4 (grid0.coords t) a + 1 * (y a).val = k0_off4 (grid0.coords (tmod t)) a + 1 * (y a).val
  exact congrArg (· + 1 * (y a).val) ((congrFun (off4_val t) a).trans (by
    rw [off4_val (tmod t), tmod_val, Nat.mod_mod]))

end Cert.KernelIdeal.Body

end
-- ==== Proof.Body.lean ====
/-
  The frame of the kernel: the proof data of its one pipeline, and the body at every grid point.

  After the body at point `t` every input window's buffer still holds its block and the output window's
  buffer holds `outAt t`; between points the scratch holds, in every slab stored so far, that modality's
  support slab (`SupInv`), which is what lets a later row block's contribution be stated from the inputs
  alone.  At the first point of a row block the output buffer is fresh (the previous block was written
  back, or nothing ran yet) and the body sets it; at the other two it holds what the point before left,
  and the body adds to it.
-/
import proofs.«163964_g37280316129400_cont_sun_m_331_26_alg».proof.Proof.BodyPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's own invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before point `n`: the scratch at contents whose stored slabs are the support slabs. -/
def PhiS (c : Dev nD) (n : ℕ) : sProp 𝕄 :=
  iprop(iprop((∃ d, ⌜SupInv m c n d⌝ ∗ owns (c : Thread nD τ) scM fullShare d)) ∗ (∃ r, prngReg c r))

/-- The proof data: the arrays as the region finds them; after the body each input's buffer at its block and
    the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a modality-0 point the output buffer is fresh: nothing ran yet, or the point before wrote the block back. -/
theorem before0_8_set (c : Dev nD) (t : Fin cfg0.N) (h : t.val % 3 = 0) (d) : (dats m 0 c).before 8 t d = d :=
  Dat.before_out_reset (dats m 0 c) 8 rfl t (by
    by_cases h0 : t.val = 0
    · exact .inl h0
    · exact .inr ⟨h0, (flush0_8 ⟨t.val - 1, Nat.lt_of_le_of_lt (Nat.sub_le _ _) t.isLt⟩).mpr (by
        show (t.val - 1) % 3 = 2; omega)⟩) d

/-- At the other points it holds what the point before left. -/
theorem before0_8_acc (c : Dev nD) (t : Fin cfg0.N) (h : ¬ t.val % 3 = 0) (d) :
    (dats m 0 c).before 8 t d = outAt m c (t.val - 1) (Nat.lt_of_le_of_lt (Nat.sub_le _ _) t.isLt) :=
  (Dat.before_out_kept (dats m 0 c) 8 rfl t (by omega) (by
      cases hf : (cfg0.win 8).flush ⟨t.val - 1, Nat.lt_of_le_of_lt (Nat.sub_le _ _) t.isLt⟩ with
      | false => rfl
      | true =>
        have := (flush0_8 ⟨t.val - 1, Nat.lt_of_le_of_lt (Nat.sub_le _ _) t.isLt⟩).mp hf
        have h2 : (t.val - 1) % 3 = 2 := this
        omega) live8 (fun _ _ => rfl) d).trans (after0_8 m c _)

/-! ## The body at a point -/

abbrev ms0_0 (t : Fin cfg0.N) : Memref sig .tc .vmem S3x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x128x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x16x9 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x9 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S27x27 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x27 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x27 .f32 := win0_8.stage (cfg0.slots t 8)
abbrev hs0_8 (t : Fin cfg0.N) : (ms0_8 t).IsWhole := hstage0_8 ((cfg0.slots t 8).cast nbuf0_8)

theorem leaves0_0 (c : Dev nD) (t : Fin cfg0.N) :
    (dats m 0 c).leavesExact 0 t = owns (c : Thread nD τ) (ms0_0 t) fullShare (iblk m c 0 t) := by
  unfold Dat.leavesExact; rw [live_all 0 t, after0_0]
theorem leaves0_1 (c : Dev nD) (t : Fin cfg0.N) :
    (dats m 0 c).leavesExact 1 t = owns (c : Thread nD τ) (ms0_1 t) fullShare (iblk m c 1 t) := by
  unfold Dat.leavesExact; rw [live_all 1 t, after0_1]
theorem leaves0_2 (c : Dev nD) (t : Fin cfg0.N) :
    (dats m 0 c).leavesExact 2 t = owns (c : Thread nD τ) (ms0_2 t) fullShare (iblk m c 2 t) := by
  unfold Dat.leavesExact; rw [live_all 2 t, after0_2]
theorem leaves0_3 (c : Dev nD) (t : Fin cfg0.N) :
    (dats m 0 c).leavesExact 3 t = owns (c : Thread nD τ) (ms0_3 t) fullShare (iblk m c 3 t) := by
  unfold Dat.leavesExact; rw [live_all 3 t, after0_3]
theorem leaves0_4 (c : Dev nD) (t : Fin cfg0.N) :
    (dats m 0 c).leavesExact 4 t = owns (c : Thread nD τ) (ms0_4 t) fullShare (iblk m c 4 t) := by
  unfold Dat.leavesExact; rw [live_all 4 t, after0_4]
theorem leaves0_5 (c : Dev nD) (t : Fin cfg0.N) :
    (dats m 0 c).leavesExact 5 t = owns (c : Thread nD τ) (ms0_5 t) fullShare (iblk m c 5 t) := by
  unfold Dat.leavesExact; rw [live_all 5 t, after0_5]
theorem leaves0_6 (c : Dev nD) (t : Fin cfg0.N) :
    (dats m 0 c).leavesExact 6 t = owns (c : Thread nD τ) (ms0_6 t) fullShare (iblk m c 6 t) := by
  unfold Dat.leavesExact; rw [live_all 6 t, after0_6]
theorem leaves0_7 (c : Dev nD) (t : Fin cfg0.N) :
    (dats m 0 c).leavesExact 7 t = owns (c : Thread nD τ) (ms0_7 t) fullShare (iblk m c 7 t) := by
  unfold Dat.leavesExact; rw [live_all 7 t, after0_7]
theorem leaves0_8 (c : Dev nD) (t : Fin cfg0.N) :
    (dats m 0 c).leavesExact 8 t = owns (c : Thread nD τ) (ms0_8 t) fullShare (outAt m c t.val t.isLt) := by
  unfold Dat.leavesExact; rw [live_all 8 t, after0_8]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem Phi_castSucc (c : Dev nD) (t : Fin cfg0.N) : (dats m 0 c).Φ t.castSucc = PhiS m c t.val := by
  dsimp only [dats]; simp only [Fin.coe_castSucc]

set_option maxHeartbeats 4800000 in
/-- The body at any point: the closed forms of the three conditions say which of the four cases the point is
    in; that case's run applies; the scratch's contents after it satisfy the invariant one point later, and the
    output buffer reads as `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) from rfl, Phi_castSucc]
  rw [leaves0_0, leaves0_1, leaves0_2, leaves0_3, leaves0_4, leaves0_5, leaves0_6, leaves0_7, leaves0_8]
  unfold PhiS
  by_cases h1 : t.val < 3
  · by_cases h2 : t.val % 3 = 0
    ·
      simp only [before0_8_set m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcond1 t).mpr h1) ((hcond2 t).mpr h2) (fun h => (hcond3 t).mp h h2)
        (iblk m c 0 t) (iblk m c 1 t) (iblk m c 2 t) (iblk m c 3 t) (iblk m c 4 t) (iblk m c 5 t) (iblk m c 6 t) (iblk m c 7 t) d8 d).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · unfold owns; iexists _; isplitr
            swap
            · iexact HS
            ipureintro; rfl
          ipureintro
          rw [scrA_eq]
          exact supInv_store m c t h1 ((hcond1 t).mpr h1) _ d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outA_eq c (grid0.coords t) _ _ _ _ _ _ _ _ _ _ _ _ _ _ _ _ _ _ _ _ ((hcond1 t).mpr h1) ((hcond2 t).mpr h2) (fun h => (hcond3 t).mp h h2) _ _ _ _ _ _ _ _ _ _).trans ?_
      rw [outAt_set m c t h2]; unfold setAt
      rw [supAt_of_lt m c t h1 ((hcond1 t).mpr h1)]
    ·
      simp only [before0_8_acc m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunB c (grid0.coords t) _ _ _ _ _ _ _ _ _ _ _ _ _ _ _ _ _ _ _ _ ((hcond1 t).mpr h1) (fun h => h2 ((hcond2 t).mp h)) ((hcond3 t).mpr h2)
        (iblk m c 0 t) (iblk m c 1 t) (iblk m c 2 t) (iblk m c 3 t) (iblk m c 4 t) (iblk m c 5 t) (iblk m c 6 t) (iblk m c 7 t) (outAt m c (t.val - 1) (Nat.lt_of_le_of_lt (Nat.sub_le _ _) t.isLt)) d).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · unfold owns; iexists _; isplitr
            swap
            · iexact HS
            ipureintro; rfl
          ipureintro
          rw [scrB_eq]
          exact supInv_store m c t h1 ((hcond1 t).mpr h1) _ d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outB_eq c (grid0.coords t) _ _ _ _ _ _ _ _ _ _ _ _ _ _ _ _ _ _ _ _ ((hcond1 t).mpr h1) (fun h => h2 ((hcond2 t).mp h)) ((hcond3 t).mpr h2) _ _ _ _ _ _ _ _ _ _).trans ?_
      rw [outAt_acc m c t h2]; unfold partAt
      rw [supAt_of_lt m c t h1 ((hcond1 t).mpr h1)]
  · by_cases h2 : t.val % 3 = 0
    ·
      simp only [before0_8_set m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunC c (grid0.coords t) _ _ _ _ _ _ _ _ _ _ _ _ _ _ _ _ _ _ _ _ (fun h => h1 ((hcond1 t).mp h)) ((hcond2 t).mpr h2) (fun h => (hcond3 t).mp h h2)
        (iblk m c 0 t) (iblk m c 1 t) (iblk m c 2 t) (iblk m c 3 t) (iblk m c 4 t) (iblk m c 5 t) (iblk m c 6 t) (iblk m c 7 t) d8 d).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · iexact HS
          ipureintro
          exact supInv_keep m c t h1 d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outC_eq c (grid0.coords t) _ _ _ _ _ _ _ _ _ _ _ _ _ _ _ _ _ _ _ _ (fun h => h1 ((hcond1 t).mp h)) ((hcond2 t).mpr h2) (fun h => (hcond3 t).mp h h2) _ _ _ _ _ _ _ _ _ _).trans ?_
      rw [outAt_set m c t h2]; unfold setAt
      rw [supInv_use m c t h1 d hd]
    ·
      simp only [before0_8_acc m c t h2]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunD c (grid0.coords t) _ _ _ _ _ _ _ _ _ _ _ _ _ _ _ _ _ _ _ _ (fun h => h1 ((hcond1 t).mp h)) (fun h => h2 ((hcond2 t).mp h)) ((hcond3 t).mpr h2)
        (iblk m c 0 t) (iblk m c 1 t) (iblk m c 2 t) (iblk m c 3 t) (iblk m c 4 t) (iblk m c 5 t) (iblk m c 6 t) (iblk m c 7 t) (outAt m c (t.val - 1) (Nat.lt_of_le_of_lt (Nat.sub_le _ _) t.isLt)) d).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, HO, HS⟩
      isplitl [HS Hg]
      · isplitl [HS]
        · iexists _; isplitr
          swap
          · iexact HS
          ipureintro
          exact supInv_keep m c t h1 d hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap
      · iexact HO
      ipureintro
      refine (outD_eq c (grid0.coords t) _ _ _ _ _ _ _ _ _ _ _ _ _ _ _ _ _ _ _ _ (fun h => h1 ((hcond1 t).mp h)) (fun h => h2 ((hcond2 t).mp h)) ((hcond3 t).mpr h2) _ _ _ _ _ _ _ _ _ _).trans ?_
      rw [outAt_acc m c t h2]; unfold partAt
      rw [supInv_use m c t h1 d hd]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no slab is stored yet. -/
theorem hin (c : Dev nD) : Pipeline.ΦA spec0 c ⊢ (dats m 0 c).Φ 0 := by
  rw [show (dats m 0 c).Φ 0 = PhiS m c 0 from rfl, PhiA0_eq]; unfold PhiS
  iintro ⟨⟨%d, HS⟩, Hg⟩
  isplitl [HS]
  · iexists d; isplitr
    · ipureintro; exact fun t' _ h => absurd h (Nat.not_lt_zero _)
    iexact HS
  iexact Hg

/-- After the last point the invariant gives the region's own back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]; unfold PhiS
  iintro ⟨⟨%d, %hd, HS⟩, Hg⟩
  isplitl [HS]
  · iexists d; iexact HS
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.PayValue.lean ====
/-
  The four pure values the kernel's body stores or carries, read at an index over the extended reals.

  Each is a chain of layout operations (a unit leading axis dropped or added, one row broadcast over many rows),
  plain matrix products accumulated into the zero matrix, entrywise sums and one entrywise hyperbolic tangent. Read
  at an entry, a layout operation is its operand at the matching entry, a plain product is the sum over the
  contracted axis, and the mask "where the entry differs from itself put zero" leaves every entry as it is, since
  over the extended reals no value differs from itself.
-/
import proofs.«163964_g37280316129400_cont_sun_m_331_26_alg».proof.Proof.Gen.KernelIdeal.Skeleton
import proofs.«163964_g37280316129400_cont_sun_m_331_26_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.PayValue

open Idealize.ShloMosaic Idealize.ShloMosaic.ValueIdx Idealize.SL.Sem
open Cert.KernelIdeal Cert.KernelIdeal.Gen
open Cert.LibPlainMatmul

variable [Cert.KernelIdeal.Facts]

/-! ## The mask -/

/-- Over the extended reals no value differs from itself, so "zero where the entry differs from itself, the entry
    elsewhere" is the entry. -/
theorem mask_apply {s : Shape} (x : FVec Ideal s .f32) (z : Ideal .f32) (i : s.Idx) :
    select (cmpf .one x x) (broadcast s z) x i = x i := by
  show Scalar.select (FloatOps.cmpf .one (x i) (x i)) z (x i) = x i
  rw [Ideal.cmpf_def]
  have h0 : Ideal.cmp .one (x i) (x i) = 0#1 := by simp [Ideal.cmp]
  rw [h0]
  exact select_zero _ _

/-! ## The value added to the running total, and the first value stored -/

theorem pay1_apply (v32 : FVec Ideal S1024x27 .f32) (v39 : Vec Ideal S1024x27 .f32) (r : Fin 1024) (c : Fin 27) :
    k0_pay1 (F := Ideal) v32 v39 (ix2 r c) = v39 (ix2 r c) + v32 (ix2 r c) := by
  unfold k0_pay1
  refine (addf_apply _ _ _).trans ?_
  refine congrArg (· + v32 (ix2 r c)) ?_
  exact shapeCast_apply v39 _ _ _ rfl

/-- The feature product of one graph: `[4096, 128] · [128, 16]`. -/
theorem pay2_apply (xs : Vec Ideal S1x4096x128 .f32) (ws : Vec Ideal S1x128x16 .f32) (n : Fin 4096) (h : Fin 16) :
    k0_pay2 (F := Ideal) xs ws (ix3 (0 : Fin 1) n h)
      = ∑ f : Fin 128, xs (ix3 (0 : Fin 1) n f) * ws (ix3 (0 : Fin 1) f h) := by
  unfold k0_pay2
  refine (shapeCast_ab_1ab_apply _ _ (0 : Fin 1) n h).trans ?_
  refine (matmul_plain_zero_apply _ rfl none _ _ n h).trans ?_
  refine Finset.sum_congr rfl fun f _ => ?_
  exact congrArg₂ (· * ·) (shapeCast_1ab_ab_apply xs _ n f) (shapeCast_1ab_ab_apply ws _ f h)

/-! ## The propagated hidden tile, the activation tile, and the class scores of a row block -/

/-- The hidden tile of a row block: the adjacency tile times the support slab, plus the bias row. -/
def hidT (a : FVec Ideal S1x1024x4096 .f32) (s : FVec Ideal S1x4096x16 .f32) (b1 : FVec Ideal S1x16 .f32) :
    FVec Ideal S1024x16 .f32 :=
  addf
    (matmul dot_S1024x4096_S4096x16_S1024x16_1_0_0_1_n_n none
      (select (cmpf .one (shapeCast S1024x4096 a shapeCasts_S1x1024x4096_S1024x4096)
          (shapeCast S1024x4096 a shapeCasts_S1x1024x4096_S1024x4096))
        (broadcast S1024x4096 (Scalar.ofBits .f32 0x00000000#32))
        (shapeCast S1024x4096 a shapeCasts_S1x1024x4096_S1024x4096))
      (shapeCast S4096x16 s shapeCasts_S1x4096x16_S4096x16)
      (constant S1024x16 .f32 0x00000000#32))
    (broadcastTo S1024x16 (shapeCast S1x16 (shapeCast S16 b1 shapeCasts_S1x16_S16) shapeCasts_S16_S1x16)
      broadcasts_S1x16_S1024x16)

/-- The activation tile: the hyperbolic tangent of the hidden tile times the second weights plus their bias row. -/
def actT (a : FVec Ideal S1x1024x4096 .f32) (s : FVec Ideal S1x4096x16 .f32) (b1 : FVec Ideal S1x16 .f32)
    (w2 : FVec Ideal S1x16x9 .f32) (b2 : FVec Ideal S1x9 .f32) : FVec Ideal S1024x9 .f32 :=
  tanh (addf
    (matmul dot_S1024x16_S16x9_S1024x9_1_0_0_1_n_n none (hidT a s b1)
      (shapeCast S16x9 w2 shapeCasts_S1x16x9_S16x9) (constant S1024x9 .f32 0x00000000#32))
    (broadcastTo S1024x9 (shapeCast S1x9 (shapeCast S9 b2 shapeCasts_S1x9_S9) shapeCasts_S9_S1x9)
      broadcasts_S1x9_S1024x9))

/-- The carried value is the activation tile times the classifier rows. -/
theorem pay3_eq (a : FVec Ideal S1x1024x4096 .f32) (s : FVec Ideal S1x4096x16 .f32) (b1 : FVec Ideal S1x16 .f32)
    (w2 : FVec Ideal S1x16x9 .f32) (b2 : FVec Ideal S1x9 .f32) (w3 : FVec Ideal S9x27 .f32) :
    k0_pay3 (F := Ideal) a s b1 w2 b2 w3
      = matmul dot_S1024x9_S9x27_S1024x27_1_0_0_1_n_n none (actT a s b1 w2 b2) (w3 : FVec Ideal S9x27 .f32)
          (constant S1024x27 .f32 0x00000000#32) := rfl

/-- A `[1, n]` row cast to `[n]` and back, then broadcast over the rows: at `(r, q)` the row's entry `q`. -/
theorem row_apply {m n : ℕ} (b : (⟨2, ![1, n]⟩ : Shape).Idx → EReal)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![m, n]⟩) (r : Fin m) (q : Fin n) :
    broadcastTo ⟨2, ![m, n]⟩ (shapeCast ⟨2, ![1, n]⟩ (shapeCast ⟨1, ![n]⟩ b h1) h2) h3 (ix2 r q)
      = b (ix2 (0 : Fin 1) q) :=
  (broadcastTo_1b_ab_apply _ h3 r q).trans
    ((shapeCast_a_1a_apply _ h2 (0 : Fin 1) q).trans (shapeCast_1a_a_apply b h1 q))

theorem hidT_apply (a : FVec Ideal S1x1024x4096 .f32) (s : FVec Ideal S1x4096x16 .f32) (b1 : FVec Ideal S1x16 .f32)
    (r : Fin 1024) (h : Fin 16) :
    hidT a s b1 (ix2 r h)
      = (∑ n : Fin 4096, a (ix3 (0 : Fin 1) r n) * s (ix3 (0 : Fin 1) n h)) + b1 (ix2 (0 : Fin 1) h) := by
  unfold hidT
  refine (addf_apply _ _ _).trans ?_
  refine congrArg₂ (· + ·) ?_ (row_apply b1 _ _ _ r h)
  refine (matmul_plain_zero_apply _ rfl none _ _ r h).trans ?_
  refine Finset.sum_congr rfl fun n _ => ?_
  refine congrArg₂ (· * ·) ?_ (shapeCast_1ab_ab_apply s _ n h)
  exact (mask_apply _ _ _).trans (shapeCast_1ab_ab_apply a _ r n)

theorem actT_apply (a : FVec Ideal S1x1024x4096 .f32) (s : FVec Ideal S1x4096x16 .f32) (b1 : FVec Ideal S1x16 .f32)
    (w2 : FVec Ideal S1x16x9 .f32) (b2 : FVec Ideal S1x9 .f32) (r : Fin 1024) (j : Fin 9) :
    actT a s b1 w2 b2 (ix2 r j)
      = Ideal.tanh ((∑ h : Fin 16, ((∑ n : Fin 4096, a (ix3 (0 : Fin 1) r n) * s (ix3 (0 : Fin 1) n h))
            + b1 (ix2 (0 : Fin 1) h)) * w2 (ix3 (0 : Fin 1) h j)) + b2 (ix2 (0 : Fin 1) j)) := by
  unfold actT
  show Ideal.tanh _ = _
  refine congrArg Ideal.tanh ?_
  refine (addf_apply _ _ _).trans ?_
  refine congrArg₂ (· + ·) ?_ (row_apply b2 _ _ _ r j)
  refine (matmul_plain_zero_apply _ rfl none _ _ r j).trans ?_
  refine Finset.sum_congr rfl fun h _ => ?_
  exact congrArg₂ (· * ·) (hidT_apply a s b1 r h) (shapeCast_1ab_ab_apply w2 _ h j)

/-- The class scores a row block adds for one graph. -/
theorem pay3_apply (a : Vec Ideal S1x1024x4096 .f32) (s : Vec Ideal S1x4096x16 .f32) (b1 : Vec Ideal S1x16 .f32)
    (w2 : Vec Ideal S1x16x9 .f32) (b2 : Vec Ideal S1x9 .f32) (w3 : Vec Ideal S9x27 .f32) (r : Fin 1024) (c : Fin 27) :
    k0_pay3 (F := Ideal) a s b1 w2 b2 w3 (ix2 r c)
      = ∑ j : Fin 9, Ideal.tanh ((∑ h : Fin 16, ((∑ n : Fin 4096, a (ix3 (0 : Fin 1) r n) * s (ix3 (0 : Fin 1) n h))
            + b1 (ix2 (0 : Fin 1) h)) * w2 (ix3 (0 : Fin 1) h j)) + b2 (ix2 (0 : Fin 1) j)) * w3 (ix2 j c) := by
  rw [pay3_eq]
  refine (matmul_plain_zero_apply _ rfl none _ _ r c).trans ?_
  refine Finset.sum_congr rfl fun j _ => ?_
  exact congrArg (· * w3 (ix2 j c)) (actT_apply a s b1 w2 b2 r j)

/-- With the classifier's bias row added: the value stored by the first graph. -/
theorem pay4_apply (a : Vec Ideal S1x1024x4096 .f32) (s : Vec Ideal S1x4096x16 .f32) (b1 : Vec Ideal S1x16 .f32)
    (w2 : Vec Ideal S1x16x9 .f32) (b2 : Vec Ideal S1x9 .f32) (w3 : Vec Ideal S9x27 .f32) (bc : Vec Ideal S1x27 .f32)
    (r : Fin 1024) (c : Fin 27) :
    k0_pay4 (F := Ideal) a s b1 w2 b2 w3 bc (ix2 r c)
      = k0_pay3 (F := Ideal) a s b1 w2 b2 w3 (ix2 r c) + bc (ix2 (0 : Fin 1) c) := by
  unfold k0_pay4
  refine (addf_apply _ _ _).trans ?_
  exact congrArg (k0_pay3 (F := Ideal) a s b1 w2 b2 w3 (ix2 r c) + ·) (row_apply bc _ _ _ r c)

end Cert.KernelIdeal.PayValue

end
-- ==== Proof.Spec.lean ====
/-
  The function both programs compute, index by index on the extended reals.

  For each of the three modalities `i`:
    support_i = x_i · W_gc_i                                  (4096 × 16)
    hidden_i  = adj_i · support_i + b_gc_i                    (4096 × 16, the bias along rows)
    act_i     = tanh (hidden_i · W_mlp_i + b_mlp_i)           (4096 × 9)
    part_i    = act_i · W_cls[9 i .. 9 i + 9, :]              (4096 × 27)
  and the result is ((part_0 + b_cls) + part_1) + part_2: the product of the three activations laid
  side by side with the whole classifier matrix, plus its bias, the 27 terms of each entry grouped
  by modality.  Comparing an extended real with itself never differs, so masking the adjacency where
  it differs from itself leaves it unchanged and the mask does not appear here.
-/
import Idealize.ShloMosaic.PureOps.Ideal
import Idealize.ShloMosaic.Lib.ValueIdx

open scoped BigOperators

noncomputable section

namespace Cert.GraphConvSpec

open Idealize.ShloMosaic Idealize.ShloMosaic.ValueIdx

/-- Real-or-infinite arrays of rank 3, 2 and 1 over literal extents. -/
abbrev Arr3 (a b c : ℕ) : Type := (⟨3, ![a, b, c]⟩ : Shape).Idx → EReal
abbrev Arr2 (a b : ℕ) : Type := (⟨2, ![a, b]⟩ : Shape).Idx → EReal
abbrev Arr1 (a : ℕ) : Type := (⟨1, ![a]⟩ : Shape).Idx → EReal

/-- Row `9 i + j` of the classifier matrix: row `j` of modality `i`'s nine rows. -/
def clsRow (i : Fin 3) (j : Fin 9) : Fin 27 := ⟨9 * i.val + j.val, by omega⟩

/-- `support_i = x_i · W_gc_i` at `(n, h)`. -/
def support (x : Arr3 3 4096 128) (wgc : Arr3 3 128 16) (i : Fin 3) (n : Fin 4096) (h : Fin 16) : EReal :=
  ∑ f : Fin 128, x (ix3 i n f) * wgc (ix3 i f h)

/-- `hidden_i = adj_i · support_i + b_gc_i` at `(r, h)`. -/
def hidden (x : Arr3 3 4096 128) (adj : Arr3 3 4096 4096) (wgc : Arr3 3 128 16) (bgc : Arr2 3 16)
    (i : Fin 3) (r : Fin 4096) (h : Fin 16) : EReal :=
  (∑ n : Fin 4096, adj (ix3 i r n) * support x wgc i n h) + bgc (ix2 i h)

/-- `act_i = tanh (hidden_i · W_mlp_i + b_mlp_i)` at `(r, j)`. -/
def act (x : Arr3 3 4096 128) (adj : Arr3 3 4096 4096) (wgc : Arr3 3 128 16) (bgc : Arr2 3 16)
    (wmlp : Arr3 3 16 9) (bmlp : Arr2 3 9) (i : Fin 3) (r : Fin 4096) (j : Fin 9) : EReal :=
  Ideal.tanh ((∑ h : Fin 16, hidden x adj wgc bgc i r h * wmlp (ix3 i h j)) + bmlp (ix2 i j))

/-- `part_i = act_i · W_cls[9 i .. 9 i + 9, :]` at `(r, c)`. -/
def part (x : Arr3 3 4096 128) (adj : Arr3 3 4096 4096) (wgc : Arr3 3 128 16) (bgc : Arr2 3 16)
    (wmlp : Arr3 3 16 9) (bmlp : Arr2 3 9) (wcls : Arr2 27 27) (i : Fin 3) (r : Fin 4096) (c : Fin 27) : EReal :=
  ∑ j : Fin 9, act x adj wgc bgc wmlp bmlp i r j * wcls (ix2 (clsRow i j) c)

/-- The result at `(r, c)`: `((part_0 + b_cls) + part_1) + part_2`. -/
def result (x : Arr3 3 4096 128) (adj : Arr3 3 4096 4096) (wgc : Arr3 3 128 16) (bgc : Arr2 3 16)
    (wmlp : Arr3 3 16 9) (bmlp : Arr2 3 9) (wcls : Arr2 27 27) (bcls : Arr1 27) : Arr2 4096 27 := fun idx =>
  ((part x adj wgc bgc wmlp bmlp wcls 0 (idx 0) (idx 1) + bcls (ix1 (idx 1)))
      + part x adj wgc bgc wmlp bmlp wcls 1 (idx 0) (idx 1))
    + part x adj wgc bgc wmlp bmlp wcls 2 (idx 0) (idx 1)

end Cert.GraphConvSpec

end
-- ==== Proof.LibSlabLoads.lean ====
/-
  A load through a unit-stride rectangle, read at an index.

  A three-dimensional array of three slabs, loaded through the rectangle that starts at slab `j` and spans one
  slab, reads slab `j`: entry `(0, p, q)` of the load is entry `(j, p, q)` of the array.  The same for the rows of
  a three-row matrix, and for nine consecutive rows of a 27 × 27 matrix starting at row `9 j`: entry `(u, q)` of
  the load is entry `(9 j + u, q)`.  The rectangle's offset is a parameter with its value given as an equation, so
  that an offset computed by a program fits once its value is known.
-/
import Idealize.ShloMosaic.Lib.Pipeline.Value
import Idealize.ShloMosaic.Lib.Pipeline.FrameBody
import Idealize.ShloMosaic.Lib.ValueIdx

noncomputable section

namespace Cert.LibSlabLoads

open Idealize.ShloMosaic Idealize.ShloMosaic.ValueIdx

variable {Val : EltTy → Type} {e : EltTy}

/-- Slab `j` of a `[3, A, B]` array, loaded as a `[1, A, B]` array, at `(0, p, q)`. -/
theorem ld3_apply {A B : ℕ} (X : (⟨3, ![3, A, B]⟩ : Shape).Idx → Val e) (off : Fin 3 → ℕ) (j : ℕ) (hj : j < 3)
    (h : off = ![j, 0, 0])
    (inb : ∀ a, off a + (⟨3, ![1, A, B]⟩ : Shape).size a ≤ (⟨3, ![3, A, B]⟩ : Shape).size a) (p : Fin A) (q : Fin B) :
    View.ld X (Rect.unit (s := ⟨3, ![3, A, B]⟩) off (⟨3, ![1, A, B]⟩ : Shape).size inb) (ix3 (0 : Fin 1) p q)
      = X (ix3 (⟨j, hj⟩ : Fin 3) p q) := by
  subst h
  refine congrArg X (funext fun a => Fin.ext ?_)
  match a with
  | ⟨0, _⟩ => show j + 1 * 0 = j; omega
  | ⟨1, _⟩ => show 0 + 1 * p.val = p.val; omega
  | ⟨2, _⟩ => show 0 + 1 * q.val = q.val; omega

/-- Row `j` of a `[3, B]` array, loaded as a `[1, B]` array, at `(0, q)`. -/
theorem ld2_apply {B : ℕ} (X : (⟨2, ![3, B]⟩ : Shape).Idx → Val e) (off : Fin 2 → ℕ) (j : ℕ) (hj : j < 3)
    (h : off = ![j, 0])
    (inb : ∀ a, off a + (⟨2, ![1, B]⟩ : Shape).size a ≤ (⟨2, ![3, B]⟩ : Shape).size a) (q : Fin B) :
    View.ld X (Rect.unit (s := ⟨2, ![3, B]⟩) off (⟨2, ![1, B]⟩ : Shape).size inb) (ix2 (0 : Fin 1) q)
      = X (ix2 (⟨j, hj⟩ : Fin 3) q) := by
  subst h
  refine congrArg X (funext fun a => Fin.ext ?_)
  match a with
  | ⟨0, _⟩ => show j + 1 * 0 = j; omega
  | ⟨1, _⟩ => show 0 + 1 * q.val = q.val; omega

/-- Rows `9 j … 9 j + 8` of a `[27, 27]` array, loaded as a `[9, 27]` array, at `(u, q)`. -/
theorem ldRows_apply (X : (⟨2, ![27, 27]⟩ : Shape).Idx → Val e) (off : Fin 2 → ℕ) (j : ℕ) (hj : j < 3)
    (h : off = ![9 * j, 0])
    (inb : ∀ a, off a + (⟨2, ![9, 27]⟩ : Shape).size a ≤ (⟨2, ![27, 27]⟩ : Shape).size a) (u : Fin 9) (q : Fin 27) :
    View.ld X (Rect.unit (s := ⟨2, ![27, 27]⟩) off (⟨2, ![9, 27]⟩ : Shape).size inb) (ix2 u q)
      = X (ix2 (⟨9 * j + u.val, by omega⟩ : Fin 27) q) := by
  subst h
  refine congrArg X (funext fun a => Fin.ext ?_)
  match a with
  | ⟨0, _⟩ => show 9 * j + 1 * u.val = 9 * j + u.val; omega
  | ⟨1, _⟩ => show 0 + 1 * q.val = q.val; omega

end Cert.LibSlabLoads

end
-- ==== Proof.BlockReads.lean ====
/-
  The windows' blocks and the slab loads, read at an index.

  A window whose block is its whole array reads the array itself: every block index is zero, so the
  block's coordinate `index × size + 1 × x` is `x`.  The adjacency window's block at point `t` is one
  modality's tile of 1024 rows: slab `t % 3`, rows `1024 (t / 3) …`.  The bias row's array is the
  classifier bias reshaped from 27 entries to one row of 27, and a reshape keeps row-major positions.
  A unit-stride load of one slab (or of nine rows) reads the array at the slab's (the rows') offset.
-/
import proofs.«163964_g37280316129400_cont_sun_m_331_26_alg».proof.Proof.BodyGrid
import proofs.«163964_g37280316129400_cont_sun_m_331_26_alg».proof.Proof.LibSlabLoads
import Idealize.ShloMosaic.Lib.Pipeline.Value
import Idealize.ShloMosaic.Lib.Pipeline.FrameBody
import Idealize.ShloMosaic.Lib.ValueIdx
import Idealize.ShloMosaic.Lib.StableHlo.Run

set_option maxRecDepth 16384

noncomputable section

namespace Cert.KernelIdeal.BlockReads

open Cert.KernelIdeal Cert.KernelIdeal.Gen Cert.KernelIdeal.Body
open Idealize.ShloMosaic Idealize.ShloMosaic.ValueIdx Idealize.ShloMosaic.TcCoe
open Idealize.SL Idealize.SL.Sem

/-! ## The windows' blocks at an index -/

section Blocks

variable {F : FTy → Type} [FloatOps F] (m : (ℓ : Loc nD τ sig) → Buf (Elt F) ℓ) (c : Dev nD) (t : Fin cfg0.N)

/-- Window 0 is its whole array. -/
theorem blk0_apply (i : Fin 3) (n : Fin 4096) (f : Fin 128) :
    (iblk m c 0 t : Vec F S3x4096x128 .f32) (ix3 i n f)
      = (m ((c.tc : Thread nD τ).loc main_arg0) : S3x4096x128.Idx → Elt F .f32) (ix3 i n f) := by
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 3 + 1 * i.val = i.val; rw [show win0_0.index t 0 = 0 from rfl]; omega
  | ⟨1, _⟩ => show win0_0.index t 1 * 4096 + 1 * n.val = n.val; rw [show win0_0.index t 1 = 0 from rfl]; omega
  | ⟨2, _⟩ => show win0_0.index t 2 * 128 + 1 * f.val = f.val; rw [show win0_0.index t 2 = 0 from rfl]; omega

/-- The adjacency window's block at point `t`: slab `t % 3`, rows `1024 (t / 3) …`. -/
theorem blk1_apply (r : Fin 1024) (n : Fin 4096) :
    (iblk m c 1 t : Vec F S1x1024x4096 .f32) (ix3 (0 : Fin 1) r n)
      = (m ((c.tc : Thread nD τ).loc main_arg1) : S3x4096x4096.Idx → Elt F .f32)
          (ix3 (⟨t.val % 3, Nat.mod_lt _ (by decide)⟩ : Fin 3)
            (⟨1024 * (t.val / 3) + r.val, by have := N_lt t; omega⟩ : Fin 4096) n) := by
  unfold iblk
  rw [View.read_apply]
  show V m c main_arg1 _ = m ((c.tc : Thread nD τ).loc main_arg1) _
  rw [V_main_arg1]
  congr 1
  funext a
  apply Fin.ext
  match a with
  | ⟨0, _⟩ => show win0_1.index t 0 * 1 + 1 * 0 = t.val % 3; rw [show win0_1.index t 0 = t.val % 3 from congrFun (idx1_val t) 0]; omega
  | ⟨1, _⟩ => show win0_1.index t 1 * 1024 + 1 * r.val = 1024 * (t.val / 3) + r.val; rw [show win0_1.index t 1 = t.val / 3 from congrFun (idx1_val t) 1]; omega
  | ⟨2, _⟩ => show win0_1.index t 2 * 4096 + 1 * n.val = n.val; rw [show win0_1.index t 2 = 0 from congrFun (idx1_val t) 2]; omega

/-- Window 2 is its whole array. -/
theorem blk2_apply (i : Fin 3) (f : Fin 128) (h : Fin 16) :
    (iblk m c 2 t : Vec F S3x128x16 .f32) (ix3 i f h)
      = (m ((c.tc : Thread nD τ).loc main_arg2) : S3x128x16.Idx → Elt F .f32) (ix3 i f h) := by
  unfold iblk
  rw [View.read_apply]
  show V m c main_arg2 _ = m ((c.tc : Thread nD τ).loc main_arg2) _
  rw [V_main_arg2]
  congr 1
  funext a
  apply Fin.ext
  match a with
  | ⟨0, _⟩ => show win0_2.index t 0 * 3 + 1 * i.val = i.val; rw [show win0_2.index t 0 = 0 from rfl]; omega
  | ⟨1, _⟩ => show win0_2.index t 1 * 128 + 1 * f.val = f.val; rw [show win0_2.index t 1 = 0 from rfl]; omega
  | ⟨2, _⟩ => show win0_2.index t 2 * 16 + 1 * h.val = h.val; rw [show win0_2.index t 2 = 0 from rfl]; omega

/-- Window 3 is its whole array. -/
theorem blk3_apply (i : Fin 3) (h : Fin 16) :
    (iblk m c 3 t : Vec F S3x16 .f32) (ix2 i h)
      = (m ((c.tc : Thread nD τ).loc main_arg3) : S3x16.Idx → Elt F .f32) (ix2 i h) := by
  unfold iblk
  rw [View.read_apply]
  show V m c main_arg3 _ = m ((c.tc : Thread nD τ).loc main_arg3) _
  rw [V_main_arg3]
  congr 1
  funext a
  apply Fin.ext
  match a with
  | ⟨0, _⟩ => show win0_3.index t 0 * 3 + 1 * i.val = i.val; rw [show win0_3.index t 0 = 0 from rfl]; omega
  | ⟨1, _⟩ => show win0_3.index t 1 * 16 + 1 * h.val = h.val; rw [show win0_3.index t 1 = 0 from rfl]; omega

/-- Window 4 is its whole array. -/
theorem blk4_apply (i : Fin 3) (h : Fin 16) (j : Fin 9) :
    (iblk m c 4 t : Vec F S3x16x9 .f32) (ix3 i h j)
      = (m ((c.tc : Thread nD τ).loc main_arg4) : S3x16x9.Idx → Elt F .f32) (ix3 i h j) := by
  unfold iblk
  rw [View.read_apply]
  show V m c main_arg4 _ = m ((c.tc : Thread nD τ).loc main_arg4) _
  rw [V_main_arg4]
  congr 1
  funext a
  apply Fin.ext
  match a with
  | ⟨0, _⟩ => show win0_4.index t 0 * 3 + 1 * i.val = i.val; rw [show win0_4.index t 0 = 0 from rfl]; omega
  | ⟨1, _⟩ => show win0_4.index t 1 * 16 + 1 * h.val = h.val; rw [show win0_4.index t 1 = 0 from rfl]; omega
  | ⟨2, _⟩ => show win0_4.index t 2 * 9 + 1 * j.val = j.val; rw [show win0_4.index t 2 = 0 from rfl]; omega

/-- Window 5 is its whole array. -/
theorem blk5_apply (i : Fin 3) (j : Fin 9) :
    (iblk m c 5 t : Vec F S3x9 .f32) (ix2 i j)
      = (m ((c.tc : Thread nD τ).loc main_arg5) : S3x9.Idx → Elt F .f32) (ix2 i j) := by
  unfold iblk
  rw [View.read_apply]
  show V m c main_arg5 _ = m ((c.tc : Thread nD τ).loc main_arg5) _
  rw [V_main_arg5]
  congr 1
  funext a
  apply Fin.ext
  match a with
  | ⟨0, _⟩ => show win0_5.index t 0 * 3 + 1 * i.val = i.val; rw [show win0_5.index t 0 = 0 from rfl]; omega
  | ⟨1, _⟩ => show win0_5.index t 1 * 9 + 1 * j.val = j.val; rw [show win0_5.index t 1 = 0 from rfl]; omega

/-- Window 6 is its whole array. -/
theorem blk6_apply (k : Fin 27) (q : Fin 27) :
    (iblk m c 6 t : Vec F S27x27 .f32) (ix2 k q)
      = (m ((c.tc : Thread nD τ).loc main_arg6) : S27x27.Idx → Elt F .f32) (ix2 k q) := by
  unfold iblk
  rw [View.read_apply]
  show V m c main_arg6 _ = m ((c.tc : Thread nD τ).loc main_arg6) _
  rw [V_main_arg6]
  congr 1
  funext a
  apply Fin.ext
  match a with
  | ⟨0, _⟩ => show win0_6.index t 0 * 27 + 1 * k.val = k.val; rw [show win0_6.index t 0 = 0 from rfl]; omega
  | ⟨1, _⟩ => show win0_6.index t 1 * 27 + 1 * q.val = q.val; rw [show win0_6.index t 1 = 0 from rfl]; omega

/-- The bias row's array as the region finds it: the classifier bias, reshaped to one row. -/
theorem V_bias_row :
    (V m c main_call0_v0 : S1x27.Idx → Elt F .f32)
      = shapeCast S1x27 (m ((c.tc : Thread nD τ).loc main_arg7) : S27.Idx → Elt F .f32) Facts₀.shapeCasts_S27_S1x27 := by
  dsimp only [Gen.V, Gen.hostOps0]
  after_results
  rfl

/-- Window 7 is the bias row: entry `(0, q)` is the classifier bias's entry `q`. -/
theorem blk7_apply (q : Fin 27) :
    (iblk m c 7 t : Vec F S1x27 .f32) (ix2 (0 : Fin 1) q)
      = (m ((c.tc : Thread nD τ).loc main_arg7) : S27.Idx → Elt F .f32) (ix1 q) := by
  unfold iblk
  rw [View.read_apply]
  show (V m c main_call0_v0 : S1x27.Idx → Elt F .f32) _ = _
  rw [V_bias_row]
  refine shapeCast_apply (s := S27) (t := S1x27) _ _ _ (ix1 q) ?_
  show ((⟨1, ![27]⟩ : Shape).rowMajor (ix1 q)).val = ((⟨2, ![1, 27]⟩ : Shape).rowMajor _).val
  rw [Shape.rowMajor_val_one, Shape.rowMajor_val_two]
  show q.val = (win0_7.index t 0 * 1 + 1 * 0) * 27 + (win0_7.index t 1 * 27 + 1 * q.val)
  rw [show win0_7.index t 0 = 0 from rfl, show win0_7.index t 1 = 0 from rfl]
  omega

end Blocks

/-! ## Slab loads at an index -/

export Cert.LibSlabLoads (ld3_apply ld2_apply ldRows_apply)

end Cert.KernelIdeal.BlockReads

end
-- ==== Proof.KernelValue.lean ====
/-
  The output block after a row block's third modality is that row block of the specification.

  The block is set at the row block's modality-0 point to that point's contribution plus the classifier's bias
  row, and each of the next two points adds its contribution: three unfoldings give
  `((part₀ + bias) + part₁) + part₂`, the specification's own grouping.  A point's contribution, read at an
  entry, is the sum over the nine activation columns of the specification's activation times the classifier row
  `9 · modality + column`: each operand the body reads (the adjacency tile, the modality's support slab, its bias
  rows and weight slabs, its nine classifier rows) is the matching entry of the argument arrays.
-/
import proofs.«163964_g37280316129400_cont_sun_m_331_26_alg».proof.Proof.BodyVals
import proofs.«163964_g37280316129400_cont_sun_m_331_26_alg».proof.Proof.PayValue
import proofs.«163964_g37280316129400_cont_sun_m_331_26_alg».proof.Proof.Spec
import proofs.«163964_g37280316129400_cont_sun_m_331_26_alg».proof.Proof.BlockReads
import Idealize.ShloMosaic.Lib.Pipeline.Value

set_option maxRecDepth 16384
set_option synthInstance.maxSize 4096

noncomputable section

open scoped BigOperators

namespace Cert.KernelIdeal.KernelValue

open Cert.KernelIdeal Cert.KernelIdeal.Gen Cert.KernelIdeal.Body Cert.KernelIdeal.PayValue Cert.KernelIdeal.BlockReads
open Idealize.ShloMosaic Idealize.ShloMosaic.TcCoe Idealize.ShloMosaic.ValueIdx
open Idealize.SL Idealize.SL.Sem
open Cert.GraphConvSpec

variable (m : (ℓ : Loc nD τ sig) → Buf (Elt Ideal) ℓ) (c : Dev nD)

/-! ## A point's modality and rows -/

/-- The modality of point `t`. -/
def modOf (t : Fin cfg0.N) : Fin 3 := ⟨t.val % 3, Nat.mod_lt _ (by norm_num)⟩

/-- Row `r` of point `t`'s row block, as a row of the whole array. -/
def rowOf (t : Fin cfg0.N) (r : Fin 1024) : Fin 4096 := ⟨1024 * (t.val / 3) + r.val, by have := N_lt t; omega⟩

/-- The specification's contribution of modality `i` over the argument arrays. -/
def specPart (i : Fin 3) (R : Fin 4096) (q : Fin 27) : EReal :=
  part (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i R q

theorem zero2 : (![0, 0] : Fin 2 → ℕ) = fun _ => 0 := by funext a; fin_cases a <;> rfl
theorem zero3 : (![0, 0, 0] : Fin 3 → ℕ) = fun _ => 0 := by funext a; fin_cases a <;> rfl

/-! ## The operands a point reads -/

/-- The adjacency tile. -/
theorem adj_read (t : Fin cfg0.N) (r : Fin 1024) (n : Fin 4096) :
    View.ld (iblk m c 1 t : Vec Ideal S1x1024x4096 .f32)
        (Rect.unit (s := S1x1024x4096) ![0, 0, 0] S1x1024x4096.size inb_S1x1024x4096_S1x1024x4096_0_0_0) (ix3 (0 : Fin 1) r n)
      = (m ((c.tc : Thread nD τ).loc main_arg1)) (ix3 (modOf t) (rowOf t r) n) :=
  (congrFun (View.ld_unit_zero zero3 _ _) _).trans (blk1_apply m c t r n)

/-- The first bias row of the point's modality. -/
theorem b1_read (t : Fin cfg0.N) (h : Fin 16) :
    View.ld (iblk m c 3 t : Vec Ideal S3x16 .f32)
        (Rect.unit (s := S3x16) (k0_off5 (grid0.coords t)) S1x16.size (k0_off5_inb (grid0.coords t))) (ix2 (0 : Fin 1) h)
      = (m ((c.tc : Thread nD τ).loc main_arg3)) (ix2 (modOf t) h) :=
  (ld2_apply _ _ (t.val % 3) (Nat.mod_lt _ (by norm_num)) (off5_val t) _ h).trans (blk3_apply m c t _ h)

/-- The second weight slab of the point's modality. -/
theorem w2_read (t : Fin cfg0.N) (h : Fin 16) (j : Fin 9) :
    View.ld (iblk m c 4 t : Vec Ideal S3x16x9 .f32)
        (Rect.unit (s := S3x16x9) (k0_off6 (grid0.coords t)) S1x16x9.size (k0_off6_inb (grid0.coords t))) (ix3 (0 : Fin 1) h j)
      = (m ((c.tc : Thread nD τ).loc main_arg4)) (ix3 (modOf t) h j) :=
  (ld3_apply _ _ (t.val % 3) (Nat.mod_lt _ (by norm_num)) (off6_val t) _ h j).trans (blk4_apply m c t _ h j)

/-- The second bias row of the point's modality. -/
theorem b2_read (t : Fin cfg0.N) (j : Fin 9) :
    View.ld (iblk m c 5 t : Vec Ideal S3x9 .f32)
        (Rect.unit (s := S3x9) (k0_off7 (grid0.coords t)) S1x9.size (k0_off7_inb (grid0.coords t))) (ix2 (0 : Fin 1) j)
      = (m ((c.tc : Thread nD τ).loc main_arg5)) (ix2 (modOf t) j) :=
  (ld2_apply _ _ (t.val % 3) (Nat.mod_lt _ (by norm_num)) (off7_val t) _ j).trans (blk5_apply m c t _ j)

/-- The nine classifier rows of the point's modality. -/
theorem w3_read (t : Fin cfg0.N) (j : Fin 9) (q : Fin 27) :
    View.ld (iblk m c 6 t : Vec Ideal S27x27 .f32)
        (Rect.unit (s := S27x27) (k0_off8 (grid0.coords t)) S9x27.size (k0_off8_inb (grid0.coords t))) (ix2 j q)
      = (m ((c.tc : Thread nD τ).loc main_arg6)) (ix2 (clsRow (modOf t) j) q) :=
  (ldRows_apply _ _ (t.val % 3) (Nat.mod_lt _ (by norm_num)) (off8_val t) _ j q).trans (blk6_apply m c t _ q)

/-- The support slab of the point's modality: the feature slab times the weight slab, both read at the
    first row block's point of that modality. -/
theorem sup_read (t : Fin cfg0.N) (n : Fin 4096) (h : Fin 16) :
    supAt (F := Ideal) m c t (ix3 (0 : Fin 1) n h) = support (m ((c.tc : Thread nD τ).loc main_arg0)) (m ((c.tc : Thread nD τ).loc main_arg2)) (modOf t) n h := by
  have hm : (tmod t).val % 3 < 3 := Nat.mod_lt _ (by norm_num)
  have hi : (⟨(tmod t).val % 3, hm⟩ : Fin 3) = modOf t := Fin.ext (Nat.mod_mod _ _)
  unfold supAt supOf GraphConvSpec.support
  refine (pay2_apply _ _ n h).trans ?_
  refine Finset.sum_congr rfl fun f _ => ?_
  refine congrArg₂ (· * ·) ?_ ?_
  · refine (ld3_apply _ _ ((tmod t).val % 3) hm (off1_val (tmod t)) _ n f).trans ?_
    refine (blk0_apply m c (tmod t) _ n f).trans ?_
    rw [hi]
  · refine (ld3_apply _ _ ((tmod t).val % 3) hm (off2_val (tmod t)) _ f h).trans ?_
    refine (blk2_apply m c (tmod t) _ f h).trans ?_
    rw [hi]

/-! ## A point's contribution -/

theorem partAt_apply (t : Fin cfg0.N) (r : Fin 1024) (q : Fin 27) :
    partAt (F := Ideal) m c t (ix2 r q) = specPart m c (modOf t) (rowOf t r) q := by
  unfold partAt partOf specPart GraphConvSpec.part GraphConvSpec.act GraphConvSpec.hidden
  refine (pay3_apply _ _ _ _ _ _ r q).trans ?_
  refine Finset.sum_congr rfl fun j _ => ?_
  refine congrArg₂ (· * ·) (congrArg Ideal.tanh (congrArg₂ (· + ·) ?_ (b2_read m c t j))) (w3_read m c t j q)
  refine Finset.sum_congr rfl fun h _ => ?_
  refine congrArg₂ (· * ·) (congrArg₂ (· + ·) ?_ (b1_read m c t h)) (w2_read m c t h j)
  refine Finset.sum_congr rfl fun n _ => ?_
  exact congrArg₂ (· * ·) (adj_read m c t r n) (sup_read m c t n h)

theorem setAt_apply (t : Fin cfg0.N) (r : Fin 1024) (q : Fin 27) :
    setAt (F := Ideal) m c t (ix2 r q) = specPart m c (modOf t) (rowOf t r) q + (m ((c.tc : Thread nD τ).loc main_arg7)) (ix1 q) := by
  refine Eq.trans ?_ (congrArg (· + (m ((c.tc : Thread nD τ).loc main_arg7)) (ix1 q)) (partAt_apply m c t r q))
  unfold setAt Body.setOf partAt partOf
  refine (pay4_apply _ _ _ _ _ _ _ r q).trans ?_
  refine congrArg (_ + ·) ?_
  exact (congrFun (View.ld_unit_zero zero2 _ _) _).trans (blk7_apply m c t q)

theorem accOf_apply (prev p : Vec Ideal S1024x27 .f32) (r : Fin 1024) (q : Fin 27) :
    accOf (F := Ideal) prev p (ix2 r q) = prev (ix2 r q) + p (ix2 r q) := by
  unfold accOf
  refine (pay1_apply _ _ r q).trans ?_
  exact congrArg (· + p (ix2 r q)) (congrFun (View.ld_unit_zero zero2 _ _) _)

theorem outAt_congr {n n' : ℕ} (e : n = n') (h : n < cfg0.N) (h' : n' < cfg0.N) :
    outAt (F := Ideal) m c n h = outAt (F := Ideal) m c n' h' := by subst e; rfl

/-! ## The output block after a row block's three points -/

theorem out_final (b : Fin 4) (r : Fin 1024) (q : Fin 27) (h : 3 * b.val + 2 < cfg0.N) :
    outAt (F := Ideal) m c (3 * b.val + 2) h (ix2 r q)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (ix2 (⟨1024 * b.val + r.val, by omega⟩ : Fin 4096) q) := by
  have h1 : 3 * b.val + 1 < cfg0.N := by omega
  have h0 : 3 * b.val < cfg0.N := by omega
  have e2 := outAt_acc m c ⟨3 * b.val + 2, h⟩ (by show ¬ (3 * b.val + 2) % 3 = 0; omega)
  have e1 := outAt_acc m c ⟨3 * b.val + 1, h1⟩ (by show ¬ (3 * b.val + 1) % 3 = 0; omega)
  have e0 := outAt_set m c ⟨3 * b.val, h0⟩ (by show (3 * b.val) % 3 = 0; omega)
  have s2 : outAt (F := Ideal) m c (3 * b.val + 2) h (ix2 r q)
      = outAt (F := Ideal) m c (3 * b.val + 1) h1 (ix2 r q) + partAt m c ⟨3 * b.val + 2, h⟩ (ix2 r q) :=
    (congrFun e2 _).trans ((accOf_apply _ _ r q).trans
      (congrArg (· + partAt m c ⟨3 * b.val + 2, h⟩ (ix2 r q))
        (congrFun (outAt_congr m c (by show 3 * b.val + 2 - 1 = 3 * b.val + 1; omega) _ h1) _)))
  have s1 : outAt (F := Ideal) m c (3 * b.val + 1) h1 (ix2 r q)
      = outAt (F := Ideal) m c (3 * b.val) h0 (ix2 r q) + partAt m c ⟨3 * b.val + 1, h1⟩ (ix2 r q) :=
    (congrFun e1 _).trans ((accOf_apply _ _ r q).trans
      (congrArg (· + partAt m c ⟨3 * b.val + 1, h1⟩ (ix2 r q))
        (congrFun (outAt_congr m c (by show 3 * b.val + 1 - 1 = 3 * b.val; omega) _ h0) _)))
  have s0 : outAt (F := Ideal) m c (3 * b.val) h0 (ix2 r q) = setAt m c ⟨3 * b.val, h0⟩ (ix2 r q) := congrFun e0 _
  have hR2 : rowOf ⟨3 * b.val + 2, h⟩ r = (⟨1024 * b.val + r.val, by omega⟩ : Fin 4096) :=
    Fin.ext (by show 1024 * ((3 * b.val + 2) / 3) + r.val = 1024 * b.val + r.val; omega)
  have hR1 : rowOf ⟨3 * b.val + 1, h1⟩ r = (⟨1024 * b.val + r.val, by omega⟩ : Fin 4096) :=
    Fin.ext (by show 1024 * ((3 * b.val + 1) / 3) + r.val = 1024 * b.val + r.val; omega)
  have hR0 : rowOf ⟨3 * b.val, h0⟩ r = (⟨1024 * b.val + r.val, by omega⟩ : Fin 4096) :=
    Fin.ext (by show 1024 * ((3 * b.val) / 3) + r.val = 1024 * b.val + r.val; omega)
  have hM2 : modOf ⟨3 * b.val + 2, h⟩ = (2 : Fin 3) := Fin.ext (by show (3 * b.val + 2) % 3 = 2; omega)
  have hM1 : modOf ⟨3 * b.val + 1, h1⟩ = (1 : Fin 3) := Fin.ext (by show (3 * b.val + 1) % 3 = 1; omega)
  have hM0 : modOf ⟨3 * b.val, h0⟩ = (0 : Fin 3) := Fin.ext (by show (3 * b.val) % 3 = 0; omega)
  rw [s2, s1, s0, setAt_apply, partAt_apply, partAt_apply, hR2, hR1, hR0, hM2, hM1, hM0]
  rfl

end Cert.KernelIdeal.KernelValue

end
-- ==== Proof.KernelFinal.lean ====
/-
  The kernel's result array after the run, and the run.

  The output window is written back at the points of modality 2, one per row block: point `t` with
  `t % 3 = 2` writes rows `1024 (t / 3) … 1024 (t / 3) + 1023`, and what it writes is that row block of the
  specification.  Row `R` of the array is in the block of point `3 (R / 1024) + 2`, so the four blocks cover
  the array and the array ends holding the specification's result.  The arguments are inputs: never written.
-/
import proofs.«163964_g37280316129400_cont_sun_m_331_26_alg».proof.Proof.Body
import proofs.«163964_g37280316129400_cont_sun_m_331_26_alg».proof.Proof.KernelValue
import Idealize.ShloMosaic.Lib.Pipeline.Value
import Idealize.ShloMosaic.Lib.Pipeline.Frame
import Idealize.ShloMosaic.Lib.ValueIdx

set_option maxRecDepth 16384

noncomputable section

namespace Cert.KernelIdeal.KernelFinal

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat)
open Cert.GraphConvSpec

variable (m : (ℓ : Loc nD τ sig) → Buf (Elt Ideal) ℓ) (ρ : Dev nD → PrngReg)

/-- The specification's result over the argument arrays as launched. -/
abbrev specResult (c : Dev nD) : S4096x27.Idx → EReal :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- What a write-back point leaves in the output's staging buffer, entry by entry: the point's row block of
    the specification. -/
theorem out_at_flush (c : Dev nD) (t : Fin cfg0.N) (ht : t.val % 3 = 2) (j : S1024x27.Idx) (i : S4096x27.Idx)
    (h0 : (i 0).val = 1024 * (t.val / 3) + (j 0).val) (h1 : (i 1).val = (j 1).val) :
    outAt (F := Ideal) m c t.val t.isLt j = specResult m c i := by
  have hlt := N_lt t
  have hj0 : (j 0).val < 1024 := (j 0).isLt
  have hb : t.val / 3 < 4 := by omega
  have hN : 3 * (t.val / 3) + 2 < cfg0.N := lt_of_eq_of_lt (by omega : 3 * (t.val / 3) + 2 = t.val) t.isLt
  have e := KernelValue.out_final m c ⟨t.val / 3, hb⟩ (j 0) (j 1) hN
  have ei : (ix2 (⟨1024 * (t.val / 3) + (j 0).val, by omega⟩ : Fin 4096) (j 1) : S4096x27.Idx) = i :=
    funext fun a => match a with
      | ⟨0, _⟩ => Fin.ext h0.symm
      | ⟨1, _⟩ => Fin.ext h1.symm
  calc outAt (F := Ideal) m c t.val t.isLt j
      = outAt (F := Ideal) m c (3 * (t.val / 3) + 2) hN j :=
        congrFun (KernelValue.outAt_congr m c (by omega) t.isLt hN) j
    _ = outAt (F := Ideal) m c (3 * (t.val / 3) + 2) hN (ix2 (j 0) (j 1)) := congrArg _ (eq_ix2 j)
    _ = specResult m c (ix2 (⟨1024 * (t.val / 3) + (j 0).val, by omega⟩ : Fin 4096) (j 1)) := e
    _ = specResult m c i := congrArg _ ei

/-- An index of the array is in point `t`'s block iff each coordinate is in the block's range on its axis. -/
theorem mem_blk8 (t : Fin cfg0.N) (i : S4096x27.Idx) :
    i ∈ ((cfg0.win 8).blk t).view.set ↔ ∀ a : Fin 2, win0_8.index t a * S1024x27.size a ≤ (i a).val ∧ (i a).val < win0_8.index t a * S1024x27.size a + S1024x27.size a := by
  show i ∈ ((View.whole main_v0).slice (win0_8.rect t)).set ↔ _
  rw [View.set_slice_whole, Rect.mem_set_unit]
  exact Iff.rfl

/-- Every entry of the array is in the block of a write-back point: row `R` in that of point `3 (R / 1024) + 2`. -/
theorem cover8 (i : S4096x27.Idx) :
    ∃ t : Fin cfg0.N, (cfg0.win 8).flush t = true ∧ i ∈ ((cfg0.win 8).blk t).view.set := by
  have hi0 : (i 0).val < 4096 := (i 0).isLt
  have hi1 : (i 1).val < 27 := (i 1).isLt
  have hN : 3 * ((i 0).val / 1024) + 2 < cfg0.N := by show _ < grid0.N; rw [N_0]; omega
  refine ⟨⟨3 * ((i 0).val / 1024) + 2, hN⟩, (flush0_8 _).mpr (by show (3 * ((i 0).val / 1024) + 2) % 3 = 2; omega), ?_⟩
  rw [mem_blk8]
  intro a
  match a with
  | ⟨0, _⟩ =>
    show win0_8.index ⟨3 * ((i 0).val / 1024) + 2, hN⟩ 0 * 1024 ≤ (i 0).val ∧ (i 0).val < win0_8.index ⟨3 * ((i 0).val / 1024) + 2, hN⟩ 0 * 1024 + 1024
    rw [show win0_8.index ⟨3 * ((i 0).val / 1024) + 2, hN⟩ 0 = (3 * ((i 0).val / 1024) + 2) / 3 from congrFun (idx8_val ⟨3 * ((i 0).val / 1024) + 2, hN⟩) 0]
    omega
  | ⟨1, _⟩ =>
    show win0_8.index ⟨3 * ((i 0).val / 1024) + 2, hN⟩ 1 * 27 ≤ (i 1).val ∧ (i 1).val < win0_8.index ⟨3 * ((i 0).val / 1024) + 2, hN⟩ 1 * 27 + 27
    rw [show win0_8.index ⟨3 * ((i 0).val / 1024) + 2, hN⟩ 1 = 0 from congrFun (idx8_val ⟨3 * ((i 0).val / 1024) + 2, hN⟩) 1]
    omega

section Generic

variable (dats : (p : Fin 1) → (c : Dev nD) → Dat τ (Elt Ideal) Unit ℕ (UR sig nD τ) ℕ (cfgs p) c)
  (hafter : ∀ (c : Dev nD) (t : Fin cfg0.N), (dats 0 c).after 8 t = outAt (F := Ideal) m c t.val t.isLt)
include hafter

/-- What a write-back point writes is its block of the specification's result. -/
theorem flushed_eq_of (c : Dev nD) (t : Fin cfg0.N) (hf : (cfg0.win 8).flush t = true) :
    (dats 0 c).flushed 8 t = ((cfg0.win 8).blk t).view.read (Elt Ideal) (specResult m c) := by
  have ht : t.val % 3 = 2 := (flush0_8 t).mp hf
  show (cfg0.win 8).cut (grid0.coords t) ((dats 0 c).after 8 t) = _
  rw [hafter]
  refine funext fun (j : S1024x27.Idx) => ?_
  show outAt (F := Ideal) m c t.val t.isLt j = specResult m c (((cfg0.win 8).blk t).view.emb j)
  refine out_at_flush m c t ht j _ ?_ ?_
  · show win0_8.index t 0 * 1024 + 1 * (j 0).val = 1024 * (t.val / 3) + (j 0).val
    rw [show win0_8.index t 0 = t.val / 3 from congrFun (idx8_val t) 0]
    omega
  · show win0_8.index t 1 * 27 + 1 * (j 1).val = (j 1).val
    rw [show win0_8.index t 1 = 0 from congrFun (idx8_val t) 1]
    omega

/-- The result array ends holding the specification's result. -/
theorem final8_of (c : Dev nD) : (dats 0 c).arrAt 8 cfg0.N = specResult m c :=
  (dats 0 c).arrAt_eq_of_cover 8 (specResult m c) (flushed_eq_of m dats hafter c) cover8

/-- The run, read: the result array at the specification's result, the arguments unchanged. -/
theorem kernel_run_of (hA : ∀ c w, (dats 0 c).A w = V m c (Pipeline.arrRef spec0 w))
    (h : θ_run defs (onTc (τ := τ) (main (F := Ideal))) (s₀ m ρ) (Pipeline.FramePost cfgs dats 0 (V m))) :
    θ_run defs (onTc (τ := τ) (main (F := Ideal))) ⟨m, fun _ => 0, ρ⟩ (fun r => ∀ c : Dev nD,
      r.2.mem ((c.tc : Thread nD τ).loc main_v0) = specResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final8_of m dats hafter c),
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (Pipeline.mem_restRefs_of main_arg7 (by decide) (by decide))).trans (V_main_arg7 m c)⟩) h

end Generic

/-! ## At the body's proof data -/

/-- The result array after the run is the specification's result. -/
theorem final8 (c : Dev nD) : (Body.dats m 0 c).arrAt 8 cfg0.N = specResult m c :=
  final8_of m (Body.dats m) (Body.after0_8 m) c

/-- The kernel runs to the end with its result array at the specification's result and its arguments unchanged. -/
theorem kernel_run :
    θ_run defs (onTc (τ := τ) (main (F := Ideal))) ⟨m, fun _ => 0, ρ⟩ (fun r => ∀ c : Dev nD,
      r.2.mem ((c.tc : Thread nD τ).loc main_v0) = specResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  kernel_run_of m ρ (Body.dats m) (Body.after0_8 m) (Body.A_eq m) (Body.run_main m ρ)

end Cert.KernelIdeal.KernelFinal

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.LibRegroup.lean ====
/-
  Regrouping a long sum.  A flat array of a·b·n·d numbers is cut into a·b blocks of n rows of d lanes.  The
  kernel adds, for each of the a halves and each lane, the b blocks of that half and the n rows of each block;
  the reference adds the a·b·n·d numbers in one sweep.  In a commutative additive monoid the two totals agree:
  three applications of "a sum of block sums is the whole sum" and two exchanges of the order of summation.
-/
import proofs.«163964_g37280316129400_cont_sun_m_331_26_alg».proof.Proof.LibBlockSum

namespace Cert.Regroup

open Cert.LibBlockSum

/-- The sum of `a` block sums of `b` consecutive terms, with the blocks indexed by `Fin a`. -/
theorem sum_blocks_fin {M : Type*} [AddCommMonoid M] (a b : ℕ) (g : ℕ → M) :
    ∑ t : Fin a, ∑ r : Fin b, g (b * t.val + r.val) = ∑ q : Fin (a * b), g q.val :=
  (Fin.sum_univ_eq_sum_range (fun t => ∑ r : Fin b, g (b * t + r.val)) a).trans (sum_blocks a b g)

/-- Halves, lanes, blocks of a half, rows of a block: position `d·(n·(b·c + i) + r) + l` runs once through
    all `a·b·n·d` positions. -/
theorem regroup4 {M : Type*} [AddCommMonoid M] (a b n d : ℕ) (g : ℕ → M) :
    ∑ c : Fin a, ∑ l : Fin d, ∑ i : Fin b, ∑ r : Fin n, g (d * (n * (b * c.val + i.val) + r.val) + l.val)
      = ∑ q : Fin (a * b * n * d), g q.val := by
  rw [← sum_blocks_fin (a * b * n) d g,
    ← sum_blocks_fin (a * b) n (fun R => ∑ l : Fin d, g (d * R + l.val)),
    ← sum_blocks_fin a b (fun B => ∑ r : Fin n, ∑ l : Fin d, g (d * (n * B + r.val) + l.val))]
  refine Finset.sum_congr rfl fun c _ => ?_
  rw [Finset.sum_comm]
  refine Finset.sum_congr rfl fun i _ => ?_
  exact Finset.sum_comm

end Cert.Regroup
-- ==== Proof.LibThreeCols.lean ====
/-
  Three matrices laid side by side, read at an index.

  Three `r × a` matrices concatenated along the columns give an `r × t` matrix (`t = 3 a`).  Read at an index,
  the triple is its first piece where the column is below `a`, its second piece at the column less `a` from
  `a` on, and its third piece at the column less `2 a` from `2 a` on: entry `(k, a · i + j)` is piece `i` at
  `(k, j)`.  The column in the triple is a parameter `J` with its value given, so that a caller's own injection
  into the triple's columns fits by `rfl`.
-/
import Idealize.ShloMosaic.Lib.Pipeline.Value
import Idealize.ShloMosaic.Lib.ValueIdx

namespace Cert.LibThreeCols

open Idealize.ShloMosaic Idealize.ShloMosaic.ValueIdx

variable {α : Type}

/-- Column `j` of the first of three `r × a` matrices laid side by side. -/
theorem triple_cols_first {r a t : ℕ} (x₀ x₁ x₂ : (⟨2, ![r, a]⟩ : Shape).Idx → α)
    (h : Shape.Concatenates [(⟨2, ![r, a]⟩ : Shape), ⟨2, ![r, a]⟩, ⟨2, ![r, a]⟩] ⟨2, ![r, t]⟩ 1)
    (k : Fin r) (j : Fin a) (J : Fin t) (hJ : J.val = j.val) :
    concatenate ⟨2, ![r, t]⟩ 1 [⟨⟨2, ![r, a]⟩, x₀⟩, ⟨⟨2, ![r, a]⟩, x₁⟩, ⟨⟨2, ![r, a]⟩, x₂⟩] h (ix2 k J) = x₀ (ix2 k j) :=
  concatenate_apply_piece (1 : Fin (⟨2, ![r, t]⟩ : Shape).rank)
    [⟨⟨2, ![r, a]⟩, x₀⟩, ⟨⟨2, ![r, a]⟩, x₁⟩, ⟨⟨2, ![r, a]⟩, x₂⟩] h (ix2 k J) 0 (by show 0 < 3; omega) ⟨2, ![r, a]⟩ x₀ rfl rfl
    0 rfl (ix2 k j)
    (fun b hb => by
      match b with
      | ⟨0, _⟩ => rfl
      | ⟨1, _⟩ => exact absurd rfl hb)
    (by show 0 + j.val = J.val; omega)

/-- Column `j` of the second of three `r × a` matrices laid side by side sits at column `a + j` of the triple. -/
theorem triple_cols_second {r a t : ℕ} (x₀ x₁ x₂ : (⟨2, ![r, a]⟩ : Shape).Idx → α)
    (h : Shape.Concatenates [(⟨2, ![r, a]⟩ : Shape), ⟨2, ![r, a]⟩, ⟨2, ![r, a]⟩] ⟨2, ![r, t]⟩ 1)
    (k : Fin r) (j : Fin a) (J : Fin t) (hJ : J.val = a + j.val) :
    concatenate ⟨2, ![r, t]⟩ 1 [⟨⟨2, ![r, a]⟩, x₀⟩, ⟨⟨2, ![r, a]⟩, x₁⟩, ⟨⟨2, ![r, a]⟩, x₂⟩] h (ix2 k J) = x₁ (ix2 k j) :=
  concatenate_apply_piece (1 : Fin (⟨2, ![r, t]⟩ : Shape).rank)
    [⟨⟨2, ![r, a]⟩, x₀⟩, ⟨⟨2, ![r, a]⟩, x₁⟩, ⟨⟨2, ![r, a]⟩, x₂⟩] h (ix2 k J) 1 (by show 1 < 3; omega) ⟨2, ![r, a]⟩ x₁ rfl rfl
    (a + 0) rfl (ix2 k j)
    (fun b hb => by
      match b with
      | ⟨0, _⟩ => rfl
      | ⟨1, _⟩ => exact absurd rfl hb)
    (by show a + 0 + j.val = J.val; omega)

/-- Column `j` of the third of three `r × a` matrices laid side by side sits at column `2 a + j` of the triple. -/
theorem triple_cols_third {r a t : ℕ} (x₀ x₁ x₂ : (⟨2, ![r, a]⟩ : Shape).Idx → α)
    (h : Shape.Concatenates [(⟨2, ![r, a]⟩ : Shape), ⟨2, ![r, a]⟩, ⟨2, ![r, a]⟩] ⟨2, ![r, t]⟩ 1)
    (k : Fin r) (j : Fin a) (J : Fin t) (hJ : J.val = a + a + j.val) :
    concatenate ⟨2, ![r, t]⟩ 1 [⟨⟨2, ![r, a]⟩, x₀⟩, ⟨⟨2, ![r, a]⟩, x₁⟩, ⟨⟨2, ![r, a]⟩, x₂⟩] h (ix2 k J) = x₂ (ix2 k j) :=
  concatenate_apply_piece (1 : Fin (⟨2, ![r, t]⟩ : Shape).rank)
    [⟨⟨2, ![r, a]⟩, x₀⟩, ⟨⟨2, ![r, a]⟩, x₁⟩, ⟨⟨2, ![r, a]⟩, x₂⟩] h (ix2 k J) 2 (by show 2 < 3; omega) ⟨2, ![r, a]⟩ x₂ rfl rfl
    (a + (a + 0)) rfl (ix2 k j)
    (fun b hb => by
      match b with
      | ⟨0, _⟩ => rfl
      | ⟨1, _⟩ => exact absurd rfl hb)
    (by show a + (a + 0) + j.val = J.val; omega)

end Cert.LibThreeCols
-- ==== Proof.RefSide.lean ====
/-
  The reference program computes the specification, index by index.

  Each modality's chain of host operations is read at an index: a slice of one slab followed by the reshape that
  drops the unit axis reads the three-dimensional argument at that slab; a matrix product is the sum over the
  contracted coordinate; a bias reaches every row through two broadcasts.  Comparing an extended real with itself
  never differs, so the masked adjacency is the adjacency.  The three activations laid side by side put modality
  `i`'s column `j` at column `9 i + j`, and the sum over the 27 columns splits into the three blocks of nine.
-/
import proofs.«163964_g37280316129400_cont_sun_m_331_26_alg».proof.Proof.Gen.ReferenceIdeal.Read
import proofs.«163964_g37280316129400_cont_sun_m_331_26_alg».proof.Proof.Spec
import proofs.«163964_g37280316129400_cont_sun_m_331_26_alg».proof.Proof.LibRegroup
import proofs.«163964_g37280316129400_cont_sun_m_331_26_alg».proof.Proof.LibThreeCols

open scoped BigOperators

noncomputable section

namespace Cert.ReferenceIdeal.RefValue

open Cert.ReferenceIdeal Cert.ReferenceIdeal.Gen Cert.ReferenceIdeal.Read Cert.GraphConvSpec
open Idealize.ShloMosaic Idealize.ShloMosaic.ValueIdx

/-- The masked adjacency is the adjacency: an extended real never differs from itself. -/
theorem masked_eq (x1 : Arr3 3 4096 4096) (i : S3x4096x4096.Idx) :
    val_main_v1 (F := Ideal) x1 i = x1 i := by
  rw [val_main_v1_apply, val_main_v0_apply]
  show Scalar.select (Ideal.cmp .une (x1 i) (x1 i)) _ _ = _
  unfold Ideal.cmp Scalar.select
  simp

/-! ## Modality 0 -/

/-- Modality 0's features at `(n, f)`: slab 0 of `x`. -/
theorem xs0 (x0 : Arr3 3 4096 128) (n : Fin 4096) (f : Fin 128) :
    val_main_v3 (F := Ideal) x0 (ix2 n f) = x0 (ix3 0 n f) := by
  rw [val_main_v3_apply, val_main_v2_apply]
  refine congrArg x0 (funext fun a => ?_)
  match a with
  | ⟨0, _⟩ => exact Fin.ext (by show (0 : ℕ) = 0; rfl)
  | ⟨1, _⟩ => exact Fin.ext (by show (n.val * 128 + f.val) / 128 % 4096 = n.val; omega)
  | ⟨2, _⟩ => exact Fin.ext (by show (n.val * 128 + f.val) % 128 = f.val; omega)

/-- Modality 0's graph-convolution weights at `(f, h)`: slab 0 of `W_gc`. -/
theorem ws0 (x2 : Arr3 3 128 16) (f : Fin 128) (h : Fin 16) :
    val_main_v5 (F := Ideal) x2 (ix2 f h) = x2 (ix3 0 f h) := by
  rw [val_main_v5_apply, val_main_v4_apply]
  refine congrArg x2 (funext fun a => ?_)
  match a with
  | ⟨0, _⟩ => exact Fin.ext (by show (0 : ℕ) = 0; rfl)
  | ⟨1, _⟩ => exact Fin.ext (by show (f.val * 16 + h.val) / 16 % 128 = f.val; omega)
  | ⟨2, _⟩ => exact Fin.ext (by show (f.val * 16 + h.val) % 16 = h.val; omega)

/-- Modality 0's support `x · W_gc` at `(n, h)`. -/
theorem sup0 (x0 : Arr3 3 4096 128) (x2 : Arr3 3 128 16) (n : Fin 4096) (h : Fin 16) :
    val_main_v6 (F := Ideal) x0 x2 (ix2 n h) = support x0 x2 0 n h := by
  rw [val_main_v6_apply]
  unfold support
  refine Finset.sum_congr rfl fun k _ => ?_
  have el : lidx_main_v6 (ix2 n h) k = ix2 n k := funext fun a => match a with | ⟨0, _⟩ => rfl | ⟨1, _⟩ => rfl
  have er : ridx_main_v6 (ix2 n h) k = ix2 k h := funext fun a => match a with | ⟨0, _⟩ => rfl | ⟨1, _⟩ => rfl
  rw [el, er, xs0, ws0]

/-- Modality 0's adjacency at `(r, n)`: slab 0 of the adjacency, the mask changing nothing. -/
theorem as0 (x1 : Arr3 3 4096 4096) (r n : Fin 4096) :
    val_main_v8 (F := Ideal) x1 (ix2 r n) = x1 (ix3 0 r n) := by
  rw [val_main_v8_apply, val_main_v7_apply, masked_eq]
  refine congrArg x1 (funext fun a => ?_)
  match a with
  | ⟨0, _⟩ => exact Fin.ext (by show (0 : ℕ) = 0; rfl)
  | ⟨1, _⟩ => exact Fin.ext (by show (r.val * 4096 + n.val) / 4096 % 4096 = r.val; omega)
  | ⟨2, _⟩ => exact Fin.ext (by show (r.val * 4096 + n.val) % 4096 = n.val; omega)

/-- Modality 0's aggregation `adj · support` at `(r, h)`. -/
theorem agg0 (x0 : Arr3 3 4096 128) (x1 : Arr3 3 4096 4096) (x2 : Arr3 3 128 16) (r : Fin 4096) (h : Fin 16) :
    val_main_v9 (F := Ideal) x0 x1 x2 (ix2 r h) = ∑ n : Fin 4096, x1 (ix3 0 r n) * support x0 x2 0 n h := by
  rw [val_main_v9_apply]
  refine Finset.sum_congr rfl fun k _ => ?_
  have el : lidx_main_v9 (ix2 r h) k = ix2 r k := funext fun a => match a with | ⟨0, _⟩ => rfl | ⟨1, _⟩ => rfl
  have er : ridx_main_v9 (ix2 r h) k = ix2 k h := funext fun a => match a with | ⟨0, _⟩ => rfl | ⟨1, _⟩ => rfl
  rw [el, er, as0, sup0]

/-- Modality 0's graph-convolution bias, the same in every row. -/
theorem bg0 (x3 : Arr2 3 16) (r : Fin 4096) (h : Fin 16) :
    val_main_v13 (F := Ideal) x3 (ix2 r h) = x3 (ix2 0 h) := by
  rw [val_main_v13_apply, val_main_v12_apply, val_main_v11_apply, val_main_v10_apply]
  refine congrArg x3 (funext fun a => ?_)
  match a with
  | ⟨0, _⟩ => exact Fin.ext (by show (0 : ℕ) = 0; rfl)
  | ⟨1, _⟩ => exact Fin.ext (by show h.val % 16 = h.val; omega)

/-- Modality 0's hidden layer at `(r, h)`. -/
theorem hid0 (x0 : Arr3 3 4096 128) (x1 : Arr3 3 4096 4096) (x2 : Arr3 3 128 16) (x3 : Arr2 3 16)
    (r : Fin 4096) (h : Fin 16) :
    val_main_v14 (F := Ideal) x0 x1 x2 x3 (ix2 r h) = hidden x0 x1 x2 x3 0 r h := by
  rw [val_main_v14_apply, agg0, bg0]
  rfl

/-- Modality 0's perceptron weights at `(h, j)`: slab 0 of `W_mlp`. -/
theorem wm0 (x4 : Arr3 3 16 9) (h : Fin 16) (j : Fin 9) :
    val_main_v16 (F := Ideal) x4 (ix2 h j) = x4 (ix3 0 h j) := by
  rw [val_main_v16_apply, val_main_v15_apply]
  refine congrArg x4 (funext fun a => ?_)
  match a with
  | ⟨0, _⟩ => exact Fin.ext (by show (0 : ℕ) = 0; rfl)
  | ⟨1, _⟩ => exact Fin.ext (by show (h.val * 9 + j.val) / 9 % 16 = h.val; omega)
  | ⟨2, _⟩ => exact Fin.ext (by show (h.val * 9 + j.val) % 9 = j.val; omega)

/-- Modality 0's perceptron product `hidden · W_mlp` at `(r, j)`. -/
theorem pre0 (x0 : Arr3 3 4096 128) (x1 : Arr3 3 4096 4096) (x2 : Arr3 3 128 16) (x3 : Arr2 3 16) (x4 : Arr3 3 16 9)
    (r : Fin 4096) (j : Fin 9) :
    val_main_v17 (F := Ideal) x0 x1 x2 x3 x4 (ix2 r j)
      = ∑ h : Fin 16, hidden x0 x1 x2 x3 0 r h * x4 (ix3 0 h j) := by
  rw [val_main_v17_apply]
  refine Finset.sum_congr rfl fun k _ => ?_
  have el : lidx_main_v17 (ix2 r j) k = ix2 r k := funext fun a => match a with | ⟨0, _⟩ => rfl | ⟨1, _⟩ => rfl
  have er : ridx_main_v17 (ix2 r j) k = ix2 k j := funext fun a => match a with | ⟨0, _⟩ => rfl | ⟨1, _⟩ => rfl
  rw [el, er, hid0, wm0]

/-- Modality 0's perceptron bias, the same in every row. -/
theorem bm0 (x5 : Arr2 3 9) (r : Fin 4096) (j : Fin 9) :
    val_main_v21 (F := Ideal) x5 (ix2 r j) = x5 (ix2 0 j) := by
  rw [val_main_v21_apply, val_main_v20_apply, val_main_v19_apply, val_main_v18_apply]
  refine congrArg x5 (funext fun a => ?_)
  match a with
  | ⟨0, _⟩ => exact Fin.ext (by show (0 : ℕ) = 0; rfl)
  | ⟨1, _⟩ => exact Fin.ext (by show j.val % 9 = j.val; omega)

/-- Modality 0's activation at `(r, j)`. -/
theorem act0 (x0 : Arr3 3 4096 128) (x1 : Arr3 3 4096 4096) (x2 : Arr3 3 128 16) (x3 : Arr2 3 16) (x4 : Arr3 3 16 9)
    (x5 : Arr2 3 9) (r : Fin 4096) (j : Fin 9) :
    val_main_v23 (F := Ideal) x0 x1 x2 x3 x4 x5 (ix2 r j) = act x0 x1 x2 x3 x4 x5 0 r j := by
  rw [val_main_v23_apply, val_main_v22_apply, pre0, bm0]
  rfl

/-! ## Modality 1 -/

/-- Modality 1's features at `(n, f)`: slab 1 of `x`. -/
theorem xs1 (x0 : Arr3 3 4096 128) (n : Fin 4096) (f : Fin 128) :
    val_main_v25 (F := Ideal) x0 (ix2 n f) = x0 (ix3 1 n f) := by
  rw [val_main_v25_apply, val_main_v24_apply]
  refine congrArg x0 (funext fun a => ?_)
  match a with
  | ⟨0, _⟩ => exact Fin.ext (by show 1 + 0 = 1; rfl)
  | ⟨1, _⟩ => exact Fin.ext (by show (n.val * 128 + f.val) / 128 % 4096 = n.val; omega)
  | ⟨2, _⟩ => exact Fin.ext (by show (n.val * 128 + f.val) % 128 = f.val; omega)

/-- Modality 1's graph-convolution weights at `(f, h)`: slab 1 of `W_gc`. -/
theorem ws1 (x2 : Arr3 3 128 16) (f : Fin 128) (h : Fin 16) :
    val_main_v27 (F := Ideal) x2 (ix2 f h) = x2 (ix3 1 f h) := by
  rw [val_main_v27_apply, val_main_v26_apply]
  refine congrArg x2 (funext fun a => ?_)
  match a with
  | ⟨0, _⟩ => exact Fin.ext (by show 1 + 0 = 1; rfl)
  | ⟨1, _⟩ => exact Fin.ext (by show (f.val * 16 + h.val) / 16 % 128 = f.val; omega)
  | ⟨2, _⟩ => exact Fin.ext (by show (f.val * 16 + h.val) % 16 = h.val; omega)

/-- Modality 1's support `x · W_gc` at `(n, h)`. -/
theorem sup1 (x0 : Arr3 3 4096 128) (x2 : Arr3 3 128 16) (n : Fin 4096) (h : Fin 16) :
    val_main_v28 (F := Ideal) x0 x2 (ix2 n h) = support x0 x2 1 n h := by
  rw [val_main_v28_apply]
  unfold support
  refine Finset.sum_congr rfl fun k _ => ?_
  have el : lidx_main_v28 (ix2 n h) k = ix2 n k := funext fun a => match a with | ⟨0, _⟩ => rfl | ⟨1, _⟩ => rfl
  have er : ridx_main_v28 (ix2 n h) k = ix2 k h := funext fun a => match a with | ⟨0, _⟩ => rfl | ⟨1, _⟩ => rfl
  rw [el, er, xs1, ws1]

/-- Modality 1's adjacency at `(r, n)`: slab 1 of the adjacency, the mask changing nothing. -/
theorem as1 (x1 : Arr3 3 4096 4096) (r n : Fin 4096) :
    val_main_v30 (F := Ideal) x1 (ix2 r n) = x1 (ix3 1 r n) := by
  rw [val_main_v30_apply, val_main_v29_apply, masked_eq]
  refine congrArg x1 (funext fun a => ?_)
  match a with
  | ⟨0, _⟩ => exact Fin.ext (by show 1 + 0 = 1; rfl)
  | ⟨1, _⟩ => exact Fin.ext (by show (r.val * 4096 + n.val) / 4096 % 4096 = r.val; omega)
  | ⟨2, _⟩ => exact Fin.ext (by show (r.val * 4096 + n.val) % 4096 = n.val; omega)

/-- Modality 1's aggregation `adj · support` at `(r, h)`. -/
theorem agg1 (x0 : Arr3 3 4096 128) (x1 : Arr3 3 4096 4096) (x2 : Arr3 3 128 16) (r : Fin 4096) (h : Fin 16) :
    val_main_v31 (F := Ideal) x0 x1 x2 (ix2 r h) = ∑ n : Fin 4096, x1 (ix3 1 r n) * support x0 x2 1 n h := by
  rw [val_main_v31_apply]
  refine Finset.sum_congr rfl fun k _ => ?_
  have el : lidx_main_v31 (ix2 r h) k = ix2 r k := funext fun a => match a with | ⟨0, _⟩ => rfl | ⟨1, _⟩ => rfl
  have er : ridx_main_v31 (ix2 r h) k = ix2 k h := funext fun a => match a with | ⟨0, _⟩ => rfl | ⟨1, _⟩ => rfl
  rw [el, er, as1, sup1]

/-- Modality 1's graph-convolution bias, the same in every row. -/
theorem bg1 (x3 : Arr2 3 16) (r : Fin 4096) (h : Fin 16) :
    val_main_v35 (F := Ideal) x3 (ix2 r h) = x3 (ix2 1 h) := by
  rw [val_main_v35_apply, val_main_v34_apply, val_main_v33_apply, val_main_v32_apply]
  refine congrArg x3 (funext fun a => ?_)
  match a with
  | ⟨0, _⟩ => exact Fin.ext (by show 1 + 0 = 1; rfl)
  | ⟨1, _⟩ => exact Fin.ext (by show h.val % 16 = h.val; omega)

/-- Modality 1's hidden layer at `(r, h)`. -/
theorem hid1 (x0 : Arr3 3 4096 128) (x1 : Arr3 3 4096 4096) (x2 : Arr3 3 128 16) (x3 : Arr2 3 16)
    (r : Fin 4096) (h : Fin 16) :
    val_main_v36 (F := Ideal) x0 x1 x2 x3 (ix2 r h) = hidden x0 x1 x2 x3 1 r h := by
  rw [val_main_v36_apply, agg1, bg1]
  rfl

/-- Modality 1's perceptron weights at `(h, j)`: slab 1 of `W_mlp`. -/
theorem wm1 (x4 : Arr3 3 16 9) (h : Fin 16) (j : Fin 9) :
    val_main_v38 (F := Ideal) x4 (ix2 h j) = x4 (ix3 1 h j) := by
  rw [val_main_v38_apply, val_main_v37_apply]
  refine congrArg x4 (funext fun a => ?_)
  match a with
  | ⟨0, _⟩ => exact Fin.ext (by show 1 + 0 = 1; rfl)
  | ⟨1, _⟩ => exact Fin.ext (by show (h.val * 9 + j.val) / 9 % 16 = h.val; omega)
  | ⟨2, _⟩ => exact Fin.ext (by show (h.val * 9 + j.val) % 9 = j.val; omega)

/-- Modality 1's perceptron product `hidden · W_mlp` at `(r, j)`. -/
theorem pre1 (x0 : Arr3 3 4096 128) (x1 : Arr3 3 4096 4096) (x2 : Arr3 3 128 16) (x3 : Arr2 3 16) (x4 : Arr3 3 16 9)
    (r : Fin 4096) (j : Fin 9) :
    val_main_v39 (F := Ideal) x0 x1 x2 x3 x4 (ix2 r j)
      = ∑ h : Fin 16, hidden x0 x1 x2 x3 1 r h * x4 (ix3 1 h j) := by
  rw [val_main_v39_apply]
  refine Finset.sum_congr rfl fun k _ => ?_
  have el : lidx_main_v39 (ix2 r j) k = ix2 r k := funext fun a => match a with | ⟨0, _⟩ => rfl | ⟨1, _⟩ => rfl
  have er : ridx_main_v39 (ix2 r j) k = ix2 k j := funext fun a => match a with | ⟨0, _⟩ => rfl | ⟨1, _⟩ => rfl
  rw [el, er, hid1, wm1]

/-- Modality 1's perceptron bias, the same in every row. -/
theorem bm1 (x5 : Arr2 3 9) (r : Fin 4096) (j : Fin 9) :
    val_main_v43 (F := Ideal) x5 (ix2 r j) = x5 (ix2 1 j) := by
  rw [val_main_v43_apply, val_main_v42_apply, val_main_v41_apply, val_main_v40_apply]
  refine congrArg x5 (funext fun a => ?_)
  match a with
  | ⟨0, _⟩ => exact Fin.ext (by show 1 + 0 = 1; rfl)
  | ⟨1, _⟩ => exact Fin.ext (by show j.val % 9 = j.val; omega)

/-- Modality 1's activation at `(r, j)`. -/
theorem act1 (x0 : Arr3 3 4096 128) (x1 : Arr3 3 4096 4096) (x2 : Arr3 3 128 16) (x3 : Arr2 3 16) (x4 : Arr3 3 16 9)
    (x5 : Arr2 3 9) (r : Fin 4096) (j : Fin 9) :
    val_main_v45 (F := Ideal) x0 x1 x2 x3 x4 x5 (ix2 r j) = act x0 x1 x2 x3 x4 x5 1 r j := by
  rw [val_main_v45_apply, val_main_v44_apply, pre1, bm1]
  rfl

/-! ## Modality 2 -/

/-- Modality 2's features at `(n, f)`: slab 2 of `x`. -/
theorem xs2 (x0 : Arr3 3 4096 128) (n : Fin 4096) (f : Fin 128) :
    val_main_v47 (F := Ideal) x0 (ix2 n f) = x0 (ix3 2 n f) := by
  rw [val_main_v47_apply, val_main_v46_apply]
  refine congrArg x0 (funext fun a => ?_)
  match a with
  | ⟨0, _⟩ => exact Fin.ext (by show 2 + 0 = 2; rfl)
  | ⟨1, _⟩ => exact Fin.ext (by show (n.val * 128 + f.val) / 128 % 4096 = n.val; omega)
  | ⟨2, _⟩ => exact Fin.ext (by show (n.val * 128 + f.val) % 128 = f.val; omega)

/-- Modality 2's graph-convolution weights at `(f, h)`: slab 2 of `W_gc`. -/
theorem ws2 (x2 : Arr3 3 128 16) (f : Fin 128) (h : Fin 16) :
    val_main_v49 (F := Ideal) x2 (ix2 f h) = x2 (ix3 2 f h) := by
  rw [val_main_v49_apply, val_main_v48_apply]
  refine congrArg x2 (funext fun a => ?_)
  match a with
  | ⟨0, _⟩ => exact Fin.ext (by show 2 + 0 = 2; rfl)
  | ⟨1, _⟩ => exact Fin.ext (by show (f.val * 16 + h.val) / 16 % 128 = f.val; omega)
  | ⟨2, _⟩ => exact Fin.ext (by show (f.val * 16 + h.val) % 16 = h.val; omega)

/-- Modality 2's support `x · W_gc` at `(n, h)`. -/
theorem sup2 (x0 : Arr3 3 4096 128) (x2 : Arr3 3 128 16) (n : Fin 4096) (h : Fin 16) :
    val_main_v50 (F := Ideal) x0 x2 (ix2 n h) = support x0 x2 2 n h := by
  rw [val_main_v50_apply]
  unfold support
  refine Finset.sum_congr rfl fun k _ => ?_
  have el : lidx_main_v50 (ix2 n h) k = ix2 n k := funext fun a => match a with | ⟨0, _⟩ => rfl | ⟨1, _⟩ => rfl
  have er : ridx_main_v50 (ix2 n h) k = ix2 k h := funext fun a => match a with | ⟨0, _⟩ => rfl | ⟨1, _⟩ => rfl
  rw [el, er, xs2, ws2]

/-- Modality 2's adjacency at `(r, n)`: slab 2 of the adjacency, the mask changing nothing. -/
theorem as2 (x1 : Arr3 3 4096 4096) (r n : Fin 4096) :
    val_main_v52 (F := Ideal) x1 (ix2 r n) = x1 (ix3 2 r n) := by
  rw [val_main_v52_apply, val_main_v51_apply, masked_eq]
  refine congrArg x1 (funext fun a => ?_)
  match a with
  | ⟨0, _⟩ => exact Fin.ext (by show 2 + 0 = 2; rfl)
  | ⟨1, _⟩ => exact Fin.ext (by show (r.val * 4096 + n.val) / 4096 % 4096 = r.val; omega)
  | ⟨2, _⟩ => exact Fin.ext (by show (r.val * 4096 + n.val) % 4096 = n.val; omega)

/-- Modality 2's aggregation `adj · support` at `(r, h)`. -/
theorem agg2 (x0 : Arr3 3 4096 128) (x1 : Arr3 3 4096 4096) (x2 : Arr3 3 128 16) (r : Fin 4096) (h : Fin 16) :
    val_main_v53 (F := Ideal) x0 x1 x2 (ix2 r h) = ∑ n : Fin 4096, x1 (ix3 2 r n) * support x0 x2 2 n h := by
  rw [val_main_v53_apply]
  refine Finset.sum_congr rfl fun k _ => ?_
  have el : lidx_main_v53 (ix2 r h) k = ix2 r k := funext fun a => match a with | ⟨0, _⟩ => rfl | ⟨1, _⟩ => rfl
  have er : ridx_main_v53 (ix2 r h) k = ix2 k h := funext fun a => match a with | ⟨0, _⟩ => rfl | ⟨1, _⟩ => rfl
  rw [el, er, as2, sup2]

/-- Modality 2's graph-convolution bias, the same in every row. -/
theorem bg2 (x3 : Arr2 3 16) (r : Fin 4096) (h : Fin 16) :
    val_main_v57 (F := Ideal) x3 (ix2 r h) = x3 (ix2 2 h) := by
  rw [val_main_v57_apply, val_main_v56_apply, val_main_v55_apply, val_main_v54_apply]
  refine congrArg x3 (funext fun a => ?_)
  match a with
  | ⟨0, _⟩ => exact Fin.ext (by show 2 + 0 = 2; rfl)
  | ⟨1, _⟩ => exact Fin.ext (by show h.val % 16 = h.val; omega)

/-- Modality 2's hidden layer at `(r, h)`. -/
theorem hid2 (x0 : Arr3 3 4096 128) (x1 : Arr3 3 4096 4096) (x2 : Arr3 3 128 16) (x3 : Arr2 3 16)
    (r : Fin 4096) (h : Fin 16) :
    val_main_v58 (F := Ideal) x0 x1 x2 x3 (ix2 r h) = hidden x0 x1 x2 x3 2 r h := by
  rw [val_main_v58_apply, agg2, bg2]
  rfl

/-- Modality 2's perceptron weights at `(h, j)`: slab 2 of `W_mlp`. -/
theorem wm2 (x4 : Arr3 3 16 9) (h : Fin 16) (j : Fin 9) :
    val_main_v60 (F := Ideal) x4 (ix2 h j) = x4 (ix3 2 h j) := by
  rw [val_main_v60_apply, val_main_v59_apply]
  refine congrArg x4 (funext fun a => ?_)
  match a with
  | ⟨0, _⟩ => exact Fin.ext (by show 2 + 0 = 2; rfl)
  | ⟨1, _⟩ => exact Fin.ext (by show (h.val * 9 + j.val) / 9 % 16 = h.val; omega)
  | ⟨2, _⟩ => exact Fin.ext (by show (h.val * 9 + j.val) % 9 = j.val; omega)

/-- Modality 2's perceptron product `hidden · W_mlp` at `(r, j)`. -/
theorem pre2 (x0 : Arr3 3 4096 128) (x1 : Arr3 3 4096 4096) (x2 : Arr3 3 128 16) (x3 : Arr2 3 16) (x4 : Arr3 3 16 9)
    (r : Fin 4096) (j : Fin 9) :
    val_main_v61 (F := Ideal) x0 x1 x2 x3 x4 (ix2 r j)
      = ∑ h : Fin 16, hidden x0 x1 x2 x3 2 r h * x4 (ix3 2 h j) := by
  rw [val_main_v61_apply]
  refine Finset.sum_congr rfl fun k _ => ?_
  have el : lidx_main_v61 (ix2 r j) k = ix2 r k := funext fun a => match a with | ⟨0, _⟩ => rfl | ⟨1, _⟩ => rfl
  have er : ridx_main_v61 (ix2 r j) k = ix2 k j := funext fun a => match a with | ⟨0, _⟩ => rfl | ⟨1, _⟩ => rfl
  rw [el, er, hid2, wm2]

/-- Modality 2's perceptron bias, the same in every row. -/
theorem bm2 (x5 : Arr2 3 9) (r : Fin 4096) (j : Fin 9) :
    val_main_v65 (F := Ideal) x5 (ix2 r j) = x5 (ix2 2 j) := by
  rw [val_main_v65_apply, val_main_v64_apply, val_main_v63_apply, val_main_v62_apply]
  refine congrArg x5 (funext fun a => ?_)
  match a with
  | ⟨0, _⟩ => exact Fin.ext (by show 2 + 0 = 2; rfl)
  | ⟨1, _⟩ => exact Fin.ext (by show j.val % 9 = j.val; omega)

/-- Modality 2's activation at `(r, j)`. -/
theorem act2 (x0 : Arr3 3 4096 128) (x1 : Arr3 3 4096 4096) (x2 : Arr3 3 128 16) (x3 : Arr2 3 16) (x4 : Arr3 3 16 9)
    (x5 : Arr2 3 9) (r : Fin 4096) (j : Fin 9) :
    val_main_v67 (F := Ideal) x0 x1 x2 x3 x4 x5 (ix2 r j) = act x0 x1 x2 x3 x4 x5 2 r j := by
  rw [val_main_v67_apply, val_main_v66_apply, pre2, bm2]
  rfl

/-- Column `9 · 0 + j` of the three activations laid side by side is modality 0's column `j`. -/
theorem cat0 (x0 : Arr3 3 4096 128) (x1 : Arr3 3 4096 4096) (x2 : Arr3 3 128 16) (x3 : Arr2 3 16) (x4 : Arr3 3 16 9)
    (x5 : Arr2 3 9) (r : Fin 4096) (j : Fin 9) (J : Fin 27) (hJ : J.val = 9 * 0 + j.val) :
    val_main_v68 (F := Ideal) x0 x1 x2 x3 x4 x5 (ix2 r J) = act x0 x1 x2 x3 x4 x5 0 r j := by
  unfold val_main_v68
  exact (Cert.LibThreeCols.triple_cols_first (val_main_v23 (F := Ideal) x0 x1 x2 x3 x4 x5) (val_main_v45 (F := Ideal) x0 x1 x2 x3 x4 x5)
    (val_main_v67 (F := Ideal) x0 x1 x2 x3 x4 x5) Facts₀.concatenates_S4096x9_S4096x9_S4096x9_S4096x27_d1 r j J (by omega)).trans
    (act0 x0 x1 x2 x3 x4 x5 r j)

/-- Column `9 · 1 + j` of the three activations laid side by side is modality 1's column `j`. -/
theorem cat1 (x0 : Arr3 3 4096 128) (x1 : Arr3 3 4096 4096) (x2 : Arr3 3 128 16) (x3 : Arr2 3 16) (x4 : Arr3 3 16 9)
    (x5 : Arr2 3 9) (r : Fin 4096) (j : Fin 9) (J : Fin 27) (hJ : J.val = 9 * 1 + j.val) :
    val_main_v68 (F := Ideal) x0 x1 x2 x3 x4 x5 (ix2 r J) = act x0 x1 x2 x3 x4 x5 1 r j := by
  unfold val_main_v68
  exact (Cert.LibThreeCols.triple_cols_second (val_main_v23 (F := Ideal) x0 x1 x2 x3 x4 x5) (val_main_v45 (F := Ideal) x0 x1 x2 x3 x4 x5)
    (val_main_v67 (F := Ideal) x0 x1 x2 x3 x4 x5) Facts₀.concatenates_S4096x9_S4096x9_S4096x9_S4096x27_d1 r j J (by omega)).trans
    (act1 x0 x1 x2 x3 x4 x5 r j)

/-- Column `9 · 2 + j` of the three activations laid side by side is modality 2's column `j`. -/
theorem cat2 (x0 : Arr3 3 4096 128) (x1 : Arr3 3 4096 4096) (x2 : Arr3 3 128 16) (x3 : Arr2 3 16) (x4 : Arr3 3 16 9)
    (x5 : Arr2 3 9) (r : Fin 4096) (j : Fin 9) (J : Fin 27) (hJ : J.val = 9 * 2 + j.val) :
    val_main_v68 (F := Ideal) x0 x1 x2 x3 x4 x5 (ix2 r J) = act x0 x1 x2 x3 x4 x5 2 r j := by
  unfold val_main_v68
  exact (Cert.LibThreeCols.triple_cols_third (val_main_v23 (F := Ideal) x0 x1 x2 x3 x4 x5) (val_main_v45 (F := Ideal) x0 x1 x2 x3 x4 x5)
    (val_main_v67 (F := Ideal) x0 x1 x2 x3 x4 x5) Facts₀.concatenates_S4096x9_S4096x9_S4096x9_S4096x27_d1 r j J (by omega)).trans
    (act2 x0 x1 x2 x3 x4 x5 r j)

/-- Column `9 i + j` of the three activations laid side by side is modality `i`'s column `j`. -/
theorem cat_at (x0 : Arr3 3 4096 128) (x1 : Arr3 3 4096 4096) (x2 : Arr3 3 128 16) (x3 : Arr2 3 16) (x4 : Arr3 3 16 9)
    (x5 : Arr2 3 9) (r : Fin 4096) (i : Fin 3) (j : Fin 9) :
    val_main_v68 (F := Ideal) x0 x1 x2 x3 x4 x5 (ix2 r (clsRow i j)) = act x0 x1 x2 x3 x4 x5 i r j :=
  match i with
  | ⟨0, _⟩ => cat0 x0 x1 x2 x3 x4 x5 r j _ rfl
  | ⟨1, _⟩ => cat1 x0 x1 x2 x3 x4 x5 r j _ rfl
  | ⟨2, _⟩ => cat2 x0 x1 x2 x3 x4 x5 r j _ rfl

/-- The sum over the 27 columns of the side-by-side activations, grouped into the three modalities' nine columns. -/
theorem cls_sum (x0 : Arr3 3 4096 128) (x1 : Arr3 3 4096 4096) (x2 : Arr3 3 128 16) (x3 : Arr2 3 16) (x4 : Arr3 3 16 9)
    (x5 : Arr2 3 9) (x6 : Arr2 27 27) (r : Fin 4096) (c : Fin 27) :
    ∑ k : Fin 27, val_main_v68 (F := Ideal) x0 x1 x2 x3 x4 x5 (ix2 r k) * x6 (ix2 k c)
      = ∑ i : Fin 3, part x0 x1 x2 x3 x4 x5 x6 i r c := by
  let g : ℕ → EReal := fun n =>
    if h : n < 27 then val_main_v68 (F := Ideal) x0 x1 x2 x3 x4 x5 (ix2 r (⟨n, h⟩ : Fin 27)) * x6 (ix2 (⟨n, h⟩ : Fin 27) c) else 0
  have hg : ∀ (n : ℕ) (h : n < 27),
      g n = val_main_v68 (F := Ideal) x0 x1 x2 x3 x4 x5 (ix2 r (⟨n, h⟩ : Fin 27)) * x6 (ix2 (⟨n, h⟩ : Fin 27) c) :=
    fun n h => dif_pos h
  have h1 : ∑ k : Fin 27, val_main_v68 (F := Ideal) x0 x1 x2 x3 x4 x5 (ix2 r k) * x6 (ix2 k c) = ∑ q : Fin (3 * 9), g q.val :=
    Finset.sum_congr rfl fun k _ => (hg k.val k.isLt).symm
  rw [h1, ← Cert.Regroup.sum_blocks_fin 3 9 g]
  refine Finset.sum_congr rfl fun i _ => ?_
  unfold part
  refine Finset.sum_congr rfl fun j _ => ?_
  have hlt : 9 * i.val + j.val < 27 := by omega
  refine (hg _ hlt).trans ?_
  exact congrArg (· * x6 (ix2 (clsRow i j) c)) (cat_at x0 x1 x2 x3 x4 x5 r i j)

/-- The classifier bias, the same in every row. -/
theorem bc (x7 : Arr1 27) (r : Fin 4096) (c : Fin 27) :
    val_main_v71 (F := Ideal) x7 (ix2 r c) = x7 (ix1 c) := by
  rw [val_main_v71_apply, val_main_v70_apply]
  refine congrArg x7 (funext fun a => ?_)
  match a with
  | ⟨0, _⟩ => rfl

/-- The reference program's result is the specification's. -/
theorem ref_result (x0 : Arr3 3 4096 128) (x1 : Arr3 3 4096 4096) (x2 : Arr3 3 128 16) (x3 : Arr2 3 16) (x4 : Arr3 3 16 9)
    (x5 : Arr2 3 9) (x6 : Arr2 27 27) (x7 : Arr1 27) :
    val_main_v72 (F := Ideal) x0 x1 x2 x3 x4 x5 x6 x7 = result x0 x1 x2 x3 x4 x5 x6 x7 := by
  funext idx
  obtain ⟨r, c, rfl⟩ : ∃ (r : Fin 4096) (c : Fin 27), idx = ix2 r c := ⟨idx 0, idx 1, eq_ix2 idx⟩
  rw [val_main_v72_apply, val_main_v69_apply, bc]
  have el : ∀ k : Fin 27, lidx_main_v69 (ix2 r c) k = ix2 r k := fun k =>
    funext fun a => match a with | ⟨0, _⟩ => rfl | ⟨1, _⟩ => rfl
  have er : ∀ k : Fin 27, ridx_main_v69 (ix2 r c) k = ix2 k c := fun k =>
    funext fun a => match a with | ⟨0, _⟩ => rfl | ⟨1, _⟩ => rfl
  simp only [el, er]
  rw [cls_sum, Fin.sum_univ_three]
  show part x0 x1 x2 x3 x4 x5 x6 0 r c + part x0 x1 x2 x3 x4 x5 x6 1 r c + part x0 x1 x2 x3 x4 x5 x6 2 r c + x7 (ix1 c)
    = part x0 x1 x2 x3 x4 x5 x6 0 r c + x7 (ix1 c) + part x0 x1 x2 x3 x4 x5 x6 1 r c + part x0 x1 x2 x3 x4 x5 x6 2 r c
  rw [add_right_comm (part x0 x1 x2 x3 x4 x5 x6 0 r c + part x0 x1 x2 x3 x4 x5 x6 1 r c), add_right_comm (part x0 x1 x2 x3 x4 x5 x6 0 r c)]

end Cert.ReferenceIdeal.RefValue

end
-- ==== Proof.lean ====
/-
  A fused graph-convolution classifier against its plain formulation, over the extended reals.

  For each of three modalities the programs form support = x · W_gc, hidden = adj · support + b_gc,
  act = tanh (hidden · W_mlp + b_mlp); the result is the three activations laid side by side times the
  classifier matrix, plus its bias.  The kernel walks a 4 × 3 grid of (row block, modality): at the first
  row block it stores each modality's support in a scratch that later row blocks read back; each point
  multiplies a 1024-row adjacency tile through, and the output block is set at modality 0 (its part plus
  the bias) and added to at modalities 1 and 2.  So each output entry is ((part₀ + b) + part₁) + part₂ where
  the reference has the sum of all 27 terms plus b: the same terms, regrouped — addition on the extended
  reals is commutative and associative, so no finiteness is used.  Masking the adjacency where it differs
  from itself changes nothing on either side.

  The modules: `Spec` states the function; `RefSide` shows the reference's last stage is that function;
  `BodyRuns`, `BodyPieces`, `Body` run the kernel body in its four control cases and give the frame with the
  output block after each point named (`KBody…` are the same for the program read at the machine's words);
  `PayValue`, `BlockReads`, `KernelValue` read the body's arithmetic and its operands at an index;
  `KernelFinal` covers the output array by the blocks written back and states the kernel's run.
-/
import proofs.«163964_g37280316129400_cont_sun_m_331_26_alg».proof.Defs
import proofs.«163964_g37280316129400_cont_sun_m_331_26_alg».proof.Proof.Gen.Kernel
import proofs.«163964_g37280316129400_cont_sun_m_331_26_alg».proof.Proof.Gen.KernelIdeal
import proofs.«163964_g37280316129400_cont_sun_m_331_26_alg».proof.Proof.Gen.ReferenceIdeal
import proofs.«163964_g37280316129400_cont_sun_m_331_26_alg».proof.Proof.Gen.Pre_finite_inputs
import proofs.«163964_g37280316129400_cont_sun_m_331_26_alg».proof.Proof.Gen.ReferenceIdeal.Run
import proofs.«163964_g37280316129400_cont_sun_m_331_26_alg».proof.Proof.Gen.ReferenceIdeal.Read
import proofs.«163964_g37280316129400_cont_sun_m_331_26_alg».proof.Proof.KBody
import proofs.«163964_g37280316129400_cont_sun_m_331_26_alg».proof.Proof.Body
import proofs.«163964_g37280316129400_cont_sun_m_331_26_alg».proof.Proof.KernelFinal
import proofs.«163964_g37280316129400_cont_sun_m_331_26_alg».proof.Proof.RefSide
import Idealize.ShloMosaic.Adequacy
import Idealize.ShloMosaic.Init

noncomputable section

namespace Cert.Proof

open Idealize.ShloMosaic Idealize.SL.Sem

/-- The kernel, read at the machine's words, runs to the end and leaves its arguments unchanged. -/
theorem frame_kernel : Cert.frame_Kernel := fun m ρ _ => Cert.Kernel.Body.frame m ρ

/-- The same at the extended reals. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the function of `Spec` of the arguments, which agree. -/
theorem algebraic : Cert.algebraic_KernelIdeal_ReferenceIdeal := by
  intro m ρ m' ρ' _ hagree
  refine ⟨fun c => Cert.KernelIdeal.KernelFinal.specResult m c, Cert.KernelIdeal.KernelFinal.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.ReferenceIdeal.RefValue.ref_result _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
